-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S2048x9 .f32
  ∧ IdealRules.sign_bit.Statement Cert.KernelIdeal.S2048x9 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S10 : Shape := ⟨1, ![10]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S1048576x10 .f32) (main_arg1 : FVec F S1048576x10 .f32) (main_arg2 : FVec F S10 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S1048576x10 .f32 := Host.absf main_arg1
  let main_cst_0 : FVec F S_ .f32 := constant S_ .f32 0x7F800000#32
  let main_v5 : FVec F S1048576x10 .f32 := broadcastInDim S1048576x10 ![] bcast_S_S1048576x10 main_cst_0
  let main_v6 : IVec S1048576x10 1 := cmpf .olt main_v4 main_v5
  let main_c_1 : IVec S_ 1 := constantI S_ 1 1#1
  let main_v7 : IVec S_ 1 := (fun x v => Host.reduce IntOp.andi x v reducesTo_S1048576x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S1048576x10 : Shape := ⟨2, ![1048576, 10]⟩
abbrev S10 : Shape := ⟨1, ![10]⟩
abbrev S1x10 : Shape := ⟨2, ![1, 10]⟩
abbrev S1x9 : Shape := ⟨2, ![1, 9]⟩
abbrev S1x8 : Shape := ⟨2, ![1, 8]⟩
abbrev S1x45 : Shape := ⟨2, ![1, 45]⟩
abbrev S2048x10 : Shape := ⟨2, ![2048, 10]⟩
abbrev S2048x9 : Shape := ⟨2, ![2048, 9]⟩
abbrev S9 : Shape := ⟨1, ![9]⟩
abbrev S2048x8 : Shape := ⟨2, ![2048, 8]⟩
abbrev S8 : Shape := ⟨1, ![8]⟩
abbrev S2048x1 : Shape := ⟨2, ![2048, 1]⟩
abbrev S2048x45 : Shape := ⟨2, ![2048, 45]⟩
abbrev S45 : Shape := ⟨1, ![45]⟩
abbrev S_ : Shape := ⟨0, ![]⟩

abbrev nBuf : Space → Nat
  | .hbm => 55
  | .vmem => 10
  | .smem => 0
  | _ => 0

abbrev bufTy : (tb : Table) → Fin (tcTables nBuf tb) → BufTy
  | .hbm, ⟨0, _⟩ => ⟨S1048576x10, .f32⟩
  | .hbm, ⟨1, _⟩ => ⟨S1048576x10, .f32⟩
  | .hbm, ⟨2, _⟩ => ⟨S10, .f32⟩
  | .hbm, ⟨3, _⟩ => ⟨S1x10, .f32⟩
  | .hbm, ⟨4, _⟩ => ⟨S1x9, .f32⟩
  | .hbm, ⟨5, _⟩ => ⟨S1x8, .f32⟩
  | .hbm, ⟨6, _⟩ => ⟨S1x45, .f32⟩
  | .hbm, ⟨7, _⟩ => ⟨S1x45, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S45, .f32⟩
  | .hbm, ⟨21, _⟩ => ⟨S45, .f32⟩
  | .hbm, ⟨22, _⟩ => ⟨S_, .f32⟩
  | .hbm, ⟨23, _⟩ => ⟨S45, .f32⟩
  | .hbm, ⟨24, _⟩ => ⟨S45, .i1⟩
  | .hbm, ⟨25, _⟩ => ⟨S_, .f32⟩
  | .hbm, ⟨26, _⟩ => ⟨S45, .f32⟩
  | .hbm, ⟨27, _⟩ => ⟨S45, .f32⟩
  | .hbm, ⟨28, _⟩ => ⟨S45, .f32⟩
  | .hbm, ⟨29, _⟩ => ⟨S_, .f32⟩
  | .hbm, ⟨30, _⟩ => ⟨S_, .f32⟩
  | .hbm, ⟨31, _⟩ => ⟨S45, .f32⟩
  | .hbm, ⟨32, _⟩ => ⟨S45, .f32⟩
  | .hbm, ⟨33, _⟩ => ⟨S_, .f32⟩
  | .hbm, ⟨34, _⟩ => ⟨S45, .f32⟩
  | .hbm, ⟨35, _⟩ => ⟨S45, .i1⟩
  | .hbm, ⟨36, _⟩ => ⟨S45, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S2048x10, .f32⟩
  | .local _ .vmem, ⟨1, _⟩ => ⟨S2048x10, .f32⟩
  | .local _ .vmem, ⟨2, _⟩ => ⟨S2048x10, .f32⟩
  | .local _ .vmem, ⟨3, _⟩ => ⟨S2048x10, .f32⟩
  | .local _ .vmem, ⟨4, _⟩ => ⟨S10, .f32⟩
  | .local _ .vmem, ⟨5, _⟩ => ⟨S1x10, .f32⟩
  | .local _ .vmem, ⟨6, _⟩ => ⟨S1x9, .f32⟩
  | .local _ .vmem, ⟨7, _⟩ => ⟨S1x8, .f32⟩
  | .local _ .vmem, ⟨8, _⟩ => ⟨S1x45, .f32⟩
  | .local _ .vmem, ⟨9, _⟩ => ⟨S1x45, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_7 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_8 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_9 : Ref sig .tc := ⟨.hbm, 37, rfl⟩
abbrev main_v18 : Ref sig .tc := ⟨.hbm, 38, rfl⟩
abbrev main_cst_10 : Ref sig .tc := ⟨.hbm, 39, rfl⟩
abbrev main_v19 : Ref sig .tc := ⟨.hbm, 40, rfl⟩
abbrev main_cst_11 : Ref sig .tc := ⟨.hbm, 41, rfl⟩
abbrev main_v20 : Ref sig .tc := ⟨.hbm, 42, rfl⟩
abbrev main_v21 : Ref sig .tc := ⟨.hbm, 43, rfl⟩
abbrev main_cst_12 : Ref sig .tc := ⟨.hbm, 44, rfl⟩
abbrev main_v22 : Ref sig .tc := ⟨.hbm, 45, rfl⟩
abbrev main_cst_13 : Ref sig .tc := ⟨.hbm, 46, rfl⟩
abbrev main_v23 : Ref sig .tc := ⟨.hbm, 47, rfl⟩
abbrev main_v24 : Ref sig .tc := ⟨.hbm, 48, rfl⟩
abbrev main_cst_14 : Ref sig .tc := ⟨.hbm, 49, rfl⟩
abbrev main_v25 : Ref sig .tc := ⟨.hbm, 50, rfl⟩
abbrev main_v26 : Ref sig .tc := ⟨.hbm, 51, rfl⟩
abbrev main_cst_15 : Ref sig .tc := ⟨.hbm, 52, rfl⟩
abbrev main_v27 : Ref sig .tc := ⟨.hbm, 53, rfl⟩
abbrev main_v28 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [BitOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x45 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x45 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S1x10_S1x10_0_0 : ∀ a, (![0, 0] : Fin 2 → Nat) a + S1x10.size a ≤ S1x10.size a
  h_S1x10 : 0 < S1x10.numel
  inb_S1x9_S1x9_0_0 : ∀ a, (![0, 0] : Fin 2 → Nat) a + S1x9.size a ≤ S1x9.size a
  h_S1x9 : 0 < S1x9.numel
  inb_S1x8_S1x8_0_0 : ∀ a, (![0, 0] : Fin 2 → Nat) a + S1x8.size a ≤ S1x8.size a
  h_S1x8 : 0 < S1x8.numel
  inb_S1x45_S1x45_0_0 : ∀ a, (![0, 0] : Fin 2 → Nat) a + S1x45.size a ≤ S1x45.size a
  h_S1x45 : 0 < S1x45.numel
  inb_S2048x10_S2048x10_0_0 : ∀ a, (![0, 0] : Fin 2 → Nat) a + S2048x10.size a ≤ S2048x10.size a
  h_S2048x10 : 0 < S2048x10.numel
  inb_S10_S10_0 : ∀ a, (![0] : Fin 1 → Nat) a + S10.size a ≤ S10.size a
  h_S10 : 0 < S10.numel
  shapeCasts_S10_S1x10 : S10.ShapeCasts S1x10
  broadcasts_S1x10_S2048x10 : S1x10.Broadcasts S2048x10
  shapeCasts_S1x10_S1x10 : S1x10.ShapeCasts S1x10
  reduces_S2048x10_S10 : S2048x10.Reduces [0] S10
  slices_S2048x10_o0_1_S2048x9 : S2048x10.Slices ![0, 1] S2048x9
  slices_S2048x10_o0_0_S2048x9 : S2048x10.Slices ![0, 0] S2048x9
  natLt_1_32 : 1 < 32
  shapeCasts_S1x9_S1x9 : S1x9.ShapeCasts S1x9
  reduces_S2048x9_S9 : S2048x9.Reduces [0] S9
  shapeCasts_S9_S1x9 : S9.ShapeCasts S1x9
  slices_S2048x10_o0_2_S2048x8 : S2048x10.Slices ![0, 2] S2048x8
  slices_S2048x10_o0_1_S2048x8 : S2048x10.Slices ![0, 1] S2048x8
  slices_S2048x10_o0_0_S2048x8 : S2048x10.Slices ![0, 0] S2048x8
  shapeCasts_S1x8_S1x8 : S1x8.ShapeCasts S1x8
  reduces_S2048x8_S8 : S2048x8.Reduces [0] S8
  shapeCasts_S8_S1x8 : S8.ShapeCasts S1x8
  slices_S2048x10_o0_0_S2048x1 : S2048x10.Slices ![0, 0] S2048x1
  slices_S2048x10_o0_1_S2048x1 : S2048x10.Slices ![0, 1] S2048x1
  slices_S2048x10_o0_2_S2048x1 : S2048x10.Slices ![0, 2] S2048x1
  slices_S2048x10_o0_3_S2048x1 : S2048x10.Slices ![0, 3] S2048x1
  slices_S2048x10_o0_4_S2048x1 : S2048x10.Slices ![0, 4] S2048x1
  slices_S2048x10_o0_5_S2048x1 : S2048x10.Slices ![0, 5] S2048x1
  slices_S2048x10_o0_6_S2048x1 : S2048x10.Slices ![0, 6] S2048x1
  slices_S2048x10_o0_7_S2048x1 : S2048x10.Slices ![0, 7] S2048x1
  slices_S2048x10_o0_8_S2048x1 : S2048x10.Slices ![0, 8] S2048x1
  concatenates_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x45_d1 : Shape.Concatenates (S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: S2048x1 :: []) S2048x45 1
  slices_S2048x10_o0_9_S2048x1 : S2048x10.Slices ![0, 9] S2048x1
  shapeCasts_S1x45_S1x45 : S1x45.ShapeCasts S1x45
  reduces_S2048x45_S45 : S2048x45.Reduces [0] S45
  shapeCasts_S45_S1x45 : S45.ShapeCasts S1x45
  reducesTo_S1x10_S_d0_1 : S1x10.ReducesTo [0, 1] S_
  h_S_ : 0 < S_.numel
  reducesTo_S1x9_S_d0_1 : S1x9.ReducesTo [0, 1] S_
  reducesTo_S1x8_S_d0_1 : S1x8.ReducesTo [0, 1] S_
  shapeCasts_S1x45_S45 : S1x45.ShapeCasts S45
  bcast_S_S45 : S_.BroadcastsInDim S45 (![] : Fin 0 → Fin S45.rank)
  reducesTo_S45_S_d0 : S45.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S1048576x10.size a
  hwx0_0 : ∀ i : grid0.Coords, EltTy.bits .f32 = 32 ∨ (Rect.block (s := S1048576x10) S2048x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x10.size a ≤ S1048576x10.size a
  hwx0_1 : ∀ i : grid0.Coords, EltTy.bits .f32 = 32 ∨ (Rect.block (s := S1048576x10) S2048x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10.size a ≤ S10.size a
  hwx0_2 : ∀ i : grid0.Coords, EltTy.bits .f32 = 32 ∨ (Rect.block (s := S10) S10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x9.size a ≤ S1x9.size a
  hwx0_4 : ∀ i : grid0.Coords, EltTy.bits .f32 = 32 ∨ (Rect.block (s := S1x9) S1x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x45.size a ≤ S1x45.size a
  hwx0_6 : ∀ i : grid0.Coords, EltTy.bits .f32 = 32 ∨ (Rect.block (s := S1x45) S1x45.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x45.size a ≤ S1x45.size a
  hwx0_7 : ∀ i : grid0.Coords, EltTy.bits .f32 = 32 ∨ (Rect.block (s := S1x45) S1x45.size (cc0_transform_7 i) (hinb0_7 i)).WholeWords (EltTy.packing .f32)

variable [Facts₀]

abbrev win0_0 : Pipeline.Window sig grid0 :=
  Pipeline.Window.ofSpec (Memref.whole main_arg0) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x10.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x9.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x8.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x45.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x45.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S10 : Shape := ⟨1, ![10]⟩
abbrev S45 : Shape := ⟨1, ![45]⟩
abbrev S1x10 : Shape := ⟨2, ![1, 10]⟩
abbrev S_ : Shape := ⟨0, ![]⟩
abbrev S1048576x9 : Shape := ⟨2, ![1048576, 9]⟩
abbrev S1048576x8 : Shape := ⟨2, ![1048576, 8]⟩
abbrev S45x1 : Shape := ⟨2, ![45, 1]⟩
abbrev S1048576x45 : Shape := ⟨2, ![1048576, 45]⟩

abbrev nBuf : Space → Nat
  | .hbm => 140
  | .vmem => 0
  | .smem => 0
  | _ => 0

abbrev hbmTy0_0 (i : Nat) : BufTy := match i % 128 with
  | 0 => ⟨S1048576x10, .f32⟩
  | 1 => ⟨S1048576x10, .f32⟩
  | 2 => ⟨S10, .f32⟩
  | 3 => ⟨S45, .i32⟩
  | 4 => ⟨S45, .i1⟩
  | 5 => ⟨S45, .i32⟩
  | 6 => ⟨S45, .i1⟩
  | 7 => ⟨S45, .i1⟩
  | 8 => ⟨S45, .i1⟩
  | 9 => ⟨S1048576x10, .f32⟩
  | 10 => ⟨S1048576x10, .f32⟩
  | 11 => ⟨S1x10, .f32⟩
  | 12 => ⟨S1048576x10, .f32⟩
  | 13 => ⟨S1048576x10, .f32⟩
  | 14 => ⟨S_, .f32⟩
  | 15 => ⟨S_, .f32⟩
  | 16 => ⟨S_, .f32⟩
  | 17 => ⟨S_, .f32⟩
  | 18 => ⟨S1048576x9, .f32⟩
  | 19 => ⟨S1048576x9, .f32⟩
  | 20 => ⟨S1048576x9, .f32⟩
  | 21 => ⟨S1048576x9, .f32⟩
  | 22 => ⟨S1048576x9, .f32⟩
  | 23 => ⟨S1048576x9, .f32⟩
  | 24 => ⟨S1048576x9, .f32⟩
  | 25 => ⟨S1048576x9, .f32⟩
  | 26 => ⟨S1048576x9, .i1⟩
  | 27 => ⟨S1048576x9, .f32⟩
  | 28 => ⟨S1048576x9, .f32⟩
  | 29 => ⟨S_, .f32⟩
  | 30 => ⟨S1048576x9, .f32⟩
  | 31 => ⟨S1048576x9, .f32⟩
  | 32 => ⟨S1048576x9, .f32⟩
  | 33 => ⟨S_, .f32⟩
  | 34 => ⟨S_, .f32⟩
  | 35 => ⟨S_, .f32⟩
  | 36 => ⟨S_, .f32⟩
  | 37 => ⟨S1048576x8, .f32⟩
  | 38 => ⟨S1048576x8, .f32⟩
  | 39 => ⟨S_, .f32⟩
  | 40 => ⟨S1048576x8, .f32⟩
  | 41 => ⟨S1048576x8, .f32⟩
  | 42 => ⟨S1048576x8, .f32⟩
  | 43 => ⟨S1048576x8, .f32⟩
  | 44 => ⟨S1048576x8, .f32⟩
  | 45 => ⟨S1048576x8, .f32⟩
  | 46 => ⟨S1048576x8, .f32⟩
  | 47 => ⟨S_, .f32⟩
  | 48 => ⟨S1048576x8, .f32⟩
  | 49 => ⟨S1048576x8, .f32⟩
  | 50 => ⟨S1048576x8, .f32⟩
  | 51 => ⟨S1048576x8, .f32⟩
  | 52 => ⟨S1048576x8, .f32⟩
  | 53 => ⟨S1048576x8, .f32⟩
  | 54 => ⟨S1048576x8, .f32⟩
  | 55 => ⟨S_, .f32⟩
  | 56 => ⟨S_, .f32⟩
  | 57 => ⟨S_, .f32⟩
  | 58 => ⟨S_, .f32⟩
  | 59 => ⟨S_, .i32⟩
  | 60 => ⟨S45, .i32⟩
  | 61 => ⟨S45, .i32⟩
  | 62 => ⟨S45, .i32⟩
  | 63 => ⟨S45x1, .i32⟩
  | 64 => ⟨S1048576x45, .f32⟩
  | 65 => ⟨S_, .i32⟩
  | 66 => ⟨S45, .i32⟩
  | 67 => ⟨S45, .i32⟩
  | 68 => ⟨S45, .i32⟩
  | 69 => ⟨S45x1, .i32⟩
  | 70 => ⟨S1048576x45, .f32⟩
  | 71 => ⟨S1048576x45, .f32⟩
  | 72 => ⟨S_, .i32⟩
  | 73 => ⟨S45, .i32⟩
  | 74 => ⟨S45, .i32⟩
  | 75 => ⟨S45, .i32⟩
  | 76 => ⟨S45x1, .i32⟩
  | 77 => ⟨S1048576x45, .f32⟩
  | 78 => ⟨S_, .i32⟩
  | 79 => ⟨S45, .i32⟩
  | 80 => ⟨S45, .i32⟩
  | 81 => ⟨S45, .i32⟩
  | 82 => ⟨S45x1, .i32⟩
  | 83 => ⟨S1048576x45, .f32⟩
  | 84 => ⟨S1048576x45, .f32⟩
  | 85 => ⟨S1048576x45, .f32⟩
  | 86 => ⟨S_, .f32⟩
  | 87 => ⟨S1048576x45, .f32⟩
  | 88 => ⟨S1048576x45, .i1⟩
  | 89 => ⟨S1048576x45, .f32⟩
  | 90 => ⟨S1048576x45, .f32⟩
  | 91 => ⟨S1048576x45, .f32⟩
  | 92 => ⟨S_, .f32⟩
  | 93 => ⟨S1048576x45, .f32⟩
  | 94 => ⟨S1048576x45, .f32⟩
  | 95 => ⟨S1048576x45, .f32⟩
  | 96 => ⟨S_, .f32⟩
  | 97 => ⟨S1048576x45, .f32⟩
  | 98 => ⟨S1048576x45, .f32⟩
  | 99 => ⟨S_, .f32⟩
  | 100 => ⟨S1048576x45, .f32⟩
  | 101 => ⟨S1048576x45, .f32⟩
  | 102 => ⟨S_, .f32⟩
  | 103 => ⟨S45, .f32⟩
  | 104 => ⟨S_, .f32⟩
  | 105 => ⟨S45, .f32⟩
  | 106 => ⟨S45, .i1⟩
  | 107 => ⟨S1048576x45, .f32⟩
  | 108 => ⟨S_, .f32⟩
  | 109 => ⟨S45, .f32⟩
  | 110 => ⟨S_, .f32⟩
  | 111 => ⟨S45, .f32⟩
  | 112 => ⟨S45, .f32⟩
  | 113 => ⟨S45, .f32⟩
  | 114 => ⟨S_, .f32⟩
  | 115 => ⟨S_, .f32⟩
  | 116 => ⟨S45, .f32⟩
  | 117 => ⟨S45, .f32⟩
  | 118 => ⟨S_, .f32⟩
  | 119 => ⟨S45, .f32⟩
  | 120 => ⟨S45, .i1⟩
  | 121 => ⟨S45, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1048576x10, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S1048576x10, .f32⟩

abbrev hbmTy (i : Nat) : BufTy := match i / 128 with
  | 0 => hbmTy0_0 i
  | 1 => hbmTy0_1 i
  | _ => ⟨S1048576x10, .f32⟩

abbrev bufTy : (tb : Table) → Fin (tcTables nBuf tb) → BufTy
  | .hbm, ⟨i, _⟩ => hbmTy i
  | _, _ => ⟨S1048576x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_c_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_14 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_15 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_16 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_19 : Ref sig .tc := ⟨.hbm, 96, rfl⟩
abbrev main_v72 : Ref sig .tc := ⟨.hbm, 97, rfl⟩
abbrev main_v73 : Ref sig .tc := ⟨.hbm, 98, rfl⟩
abbrev main_call0_cst : Ref sig .tc := ⟨.hbm, 99, rfl⟩
abbrev main_call0_v0 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_cst_21 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_22 : Ref sig .tc := ⟨.hbm, 108, rfl⟩
abbrev main_v79 : Ref sig .tc := ⟨.hbm, 109, rfl⟩
abbrev main_cst_23 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_24 : Ref sig .tc := ⟨.hbm, 114, rfl⟩
abbrev main_call1_v0 : Ref sig .tc := ⟨.hbm, 115, rfl⟩
abbrev main_call1_v1 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_26 : Ref sig .tc := ⟨.hbm, 122, rfl⟩
abbrev main_v87 : Ref sig .tc := ⟨.hbm, 123, rfl⟩
abbrev main_cst_27 : Ref sig .tc := ⟨.hbm, 124, rfl⟩
abbrev main_v88 : Ref sig .tc := ⟨.hbm, 125, rfl⟩
abbrev main_cst_28 : Ref sig .tc := ⟨.hbm, 126, rfl⟩
abbrev main_v89 : Ref sig .tc := ⟨.hbm, 127, rfl⟩
abbrev main_v90 : Ref sig .tc := ⟨.hbm, 128, rfl⟩
abbrev main_cst_29 : Ref sig .tc := ⟨.hbm, 129, rfl⟩
abbrev main_v91 : Ref sig .tc := ⟨.hbm, 130, rfl⟩
abbrev main_cst_30 : Ref sig .tc := ⟨.hbm, 131, rfl⟩
abbrev main_v92 : Ref sig .tc := ⟨.hbm, 132, rfl⟩
abbrev main_v93 : Ref sig .tc := ⟨.hbm, 133, rfl⟩
abbrev main_cst_31 : Ref sig .tc := ⟨.hbm, 134, rfl⟩
abbrev main_v94 : Ref sig .tc := ⟨.hbm, 135, rfl⟩
abbrev main_v95 : Ref sig .tc := ⟨.hbm, 136, rfl⟩
abbrev main_cst_32 : Ref sig .tc := ⟨.hbm, 137, rfl⟩
abbrev main_v96 : Ref sig .tc := ⟨.hbm, 138, rfl⟩
abbrev main_v97 : Ref sig .tc := ⟨.hbm, 139, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  reducesTo_S1048576x10_S_d0_1 : S1048576x10.ReducesTo [0, 1] S_
  h_S_ : 0 < S_.numel
  slices_S1048576x10_S1048576x9_0_1 : S1048576x10.Slices ![0, 1] S1048576x9
  slices_S1048576x10_S1048576x9_0_0 : S1048576x10.Slices ![0, 0] S1048576x9
  bcast_S_S1048576x9 : S_.BroadcastsInDim S1048576x9 (![] : Fin 0 → Fin S1048576x9.rank)
  reducesTo_S1048576x9_S_d0_1 : S1048576x9.ReducesTo [0, 1] S_
  slices_S1048576x10_S1048576x8_0_2 : S1048576x10.Slices ![0, 2] S1048576x8
  slices_S1048576x10_S1048576x8_0_1 : S1048576x10.Slices ![0, 1] S1048576x8
  bcast_S_S1048576x8 : S_.BroadcastsInDim S1048576x8 (![] : Fin 0 → Fin S1048576x8.rank)
  slices_S1048576x10_S1048576x8_0_0 : S1048576x10.Slices ![0, 0] S1048576x8
  reducesTo_S1048576x8_S_d0_1 : S1048576x8.ReducesTo [0, 1] S_
  bcast_S_S45 : S_.BroadcastsInDim S45 (![] : Fin 0 → Fin S45.rank)
  bcast_S45_S45x1_0 : S45.BroadcastsInDim S45x1 (![0] : Fin 1 → Fin S45x1.rank)
  bcast_S_S1048576x45 : S_.BroadcastsInDim S1048576x45 (![] : Fin 0 → Fin S1048576x45.rank)
  reducesTo_S1048576x45_S45_d0 : S1048576x45.ReducesTo [0] S45
  reducesTo_S45_S_d0 : S45.ReducesTo [0] S_
  gather_S1048576x10_S45x1_S1048576x45_0_1_n_n_1_1_10485761_wf : GatherDims.WF S1048576x10 S45x1 S1048576x45 [0] [1] [] [1] [] 1 ![1048576, 1]

variable [Facts₀]

def gather_S1048576x10_S45x1_S1048576x45_0_1_n_n_1_1_10485761 : GatherDims S1048576x10 S45x1 S1048576x45 where
  offsetDims := [0]
  collapsedSliceDims := [1]
  operandBatchingDims := []
  startIndicesBatchingDims := []
  startIndexMap := [1]
  indexVectorDim := 1
  sliceSizes := ![1048576, 1]
  wf := gather_S1048576x10_S45x1_S1048576x45_0_1_n_n_1_1_10485761_wf

class Facts : Prop extends Facts₀ where

variable [Facts]
-- ==== Proof.LossTerms.lean ====
/-
  The quantities both programs compute, written once over the extended reals.

  For a row p, t of ten predictions and ten targets and ten column weights w:
    * the weighted squared error at column k:            (p k - t k)² · w k
    * the direction term at k < 9: with Δp = p (k+1) - p k and Δt = t (k+1) - t k it is
      [sign Δp ≠ sign Δt] · (1 + |Δt|)
    * the second-difference term at k < 8:               ((p (k+2) - 2 p (k+1) + p k) - (t (k+2) - 2 t (k+1) + t k))²
    * for each of the 45 pairs a < b of columns: the significance bit [|t a - t b| > θ] and the hinge
      max (1 - (t a - t b)(p a - p b) / (|t a - t b| + ε)) 0 times that bit.
  The loss is a fixed function (`tail`) of five column-wise totals of these over all rows: three scalars (the three
  means' numerators) and two 45-vectors (per pair: the summed hinge and the count). `tail` is spelt in the host's own
  operations so that both programs' closing lines ARE it; it is never opened.
-/
import Idealize.ShloMosaic.PureOps.Ideal
import Idealize.ShloMosaic.PureOps.Ideal.Laws
import Idealize.ShloMosaic.PureOps
import Idealize.ShloMosaic.Lib.ValueIdx

noncomputable section

open Idealize.ShloMosaic Idealize.ShloMosaic.ValueIdx

namespace Cert.Loss

/-! ## Constants, as the words both programs print -/

def zeroW : EReal := Ideal.ofBits .f32 0x00000000#32
def oneW : EReal := Ideal.ofBits .f32 0x3F800000#32
def twoW : EReal := Ideal.ofBits .f32 0x40000000#32
/-- the significance threshold θ -/
def thrW : EReal := Ideal.ofBits .f32 0x3C23D70A#32
/-- the hinge's ε -/
def epsW : EReal := Ideal.ofBits .f32 0x322BCC77#32

/-- A one-bit word as the number 0 or 1. -/
def bit (b : BitVec 1) : EReal := ((b.toNat : ℝ) : EReal)

/-- The absolute value on the extended reals. -/
def absE (x : EReal) : EReal := max x (-x)

/-! ## One entry's terms -/

def baseT (p t w : EReal) : EReal := (p - t) * (p - t) * w

def dirT (p1 p0 t1 t0 : EReal) : EReal :=
  bit (Ideal.cmp .une (Ideal.sign (p1 - p0)) (Ideal.sign (t1 - t0))) * (oneW + absE (t1 - t0))

def trendT (p2 p1 p0 t2 t1 t0 : EReal) : EReal :=
  ((p2 - twoW * p1 + p0) - (t2 - twoW * t1 + t0)) * ((p2 - twoW * p1 + p0) - (t2 - twoW * t1 + t0))

def sigT (ta tb : EReal) : EReal := bit (Ideal.cmp .ogt (absE (ta - tb)) thrW)

def errT (pa pb ta tb : EReal) : EReal :=
  max (oneW - Ideal.div ((ta - tb) * (pa - pb)) (absE (ta - tb) + epsW)) zeroW

def errsigT (pa pb ta tb : EReal) : EReal := errT pa pb ta tb * sigT ta tb

/-! ## Columns -/

/-- column k+1 of ten, for k < 9 -/
def up1 (k : Fin 9) : Fin 10 := ⟨k.val + 1, by omega⟩
/-- column k of ten, for k < 9 -/
def lo9 (k : Fin 9) : Fin 10 := ⟨k.val, by omega⟩
/-- columns k+2, k+1, k of ten, for k < 8 -/
def up2 (k : Fin 8) : Fin 10 := ⟨k.val + 2, by omega⟩
def mid8 (k : Fin 8) : Fin 10 := ⟨k.val + 1, by omega⟩
def lo8 (k : Fin 8) : Fin 10 := ⟨k.val, by omega⟩

/-- The first column of the j-th pair a < b, the pairs in lexicographic order. -/
def pairA : Fin 45 → Fin 10
  | ⟨0, _⟩ => ⟨0, by decide⟩
  | ⟨1, _⟩ => ⟨0, by decide⟩
  | ⟨2, _⟩ => ⟨0, by decide⟩
  | ⟨3, _⟩ => ⟨0, by decide⟩
  | ⟨4, _⟩ => ⟨0, by decide⟩
  | ⟨5, _⟩ => ⟨0, by decide⟩
  | ⟨6, _⟩ => ⟨0, by decide⟩
  | ⟨7, _⟩ => ⟨0, by decide⟩
  | ⟨8, _⟩ => ⟨0, by decide⟩
  | ⟨9, _⟩ => ⟨1, by decide⟩
  | ⟨10, _⟩ => ⟨1, by decide⟩
  | ⟨11, _⟩ => ⟨1, by decide⟩
  | ⟨12, _⟩ => ⟨1, by decide⟩
  | ⟨13, _⟩ => ⟨1, by decide⟩
  | ⟨14, _⟩ => ⟨1, by decide⟩
  | ⟨15, _⟩ => ⟨1, by decide⟩
  | ⟨16, _⟩ => ⟨1, by decide⟩
  | ⟨17, _⟩ => ⟨2, by decide⟩
  | ⟨18, _⟩ => ⟨2, by decide⟩
  | ⟨19, _⟩ => ⟨2, by decide⟩
  | ⟨20, _⟩ => ⟨2, by decide⟩
  | ⟨21, _⟩ => ⟨2, by decide⟩
  | ⟨22, _⟩ => ⟨2, by decide⟩
  | ⟨23, _⟩ => ⟨2, by decide⟩
  | ⟨24, _⟩ => ⟨3, by decide⟩
  | ⟨25, _⟩ => ⟨3, by decide⟩
  | ⟨26, _⟩ => ⟨3, by decide⟩
  | ⟨27, _⟩ => ⟨3, by decide⟩
  | ⟨28, _⟩ => ⟨3, by decide⟩
  | ⟨29, _⟩ => ⟨3, by decide⟩
  | ⟨30, _⟩ => ⟨4, by decide⟩
  | ⟨31, _⟩ => ⟨4, by decide⟩
  | ⟨32, _⟩ => ⟨4, by decide⟩
  | ⟨33, _⟩ => ⟨4, by decide⟩
  | ⟨34, _⟩ => ⟨4, by decide⟩
  | ⟨35, _⟩ => ⟨5, by decide⟩
  | ⟨36, _⟩ => ⟨5, by decide⟩
  | ⟨37, _⟩ => ⟨5, by decide⟩
  | ⟨38, _⟩ => ⟨5, by decide⟩
  | ⟨39, _⟩ => ⟨6, by decide⟩
  | ⟨40, _⟩ => ⟨6, by decide⟩
  | ⟨41, _⟩ => ⟨6, by decide⟩
  | ⟨42, _⟩ => ⟨7, by decide⟩
  | ⟨43, _⟩ => ⟨7, by decide⟩
  | ⟨44, _⟩ => ⟨8, by decide⟩
  | ⟨_ + 45, h⟩ => absurd h (by omega)

/-- The second column of the j-th pair. -/
def pairB : Fin 45 → Fin 10
  | ⟨0, _⟩ => ⟨1, by decide⟩
  | ⟨1, _⟩ => ⟨2, by decide⟩
  | ⟨2, _⟩ => ⟨3, by decide⟩
  | ⟨3, _⟩ => ⟨4, by decide⟩
  | ⟨4, _⟩ => ⟨5, by decide⟩
  | ⟨5, _⟩ => ⟨6, by decide⟩
  | ⟨6, _⟩ => ⟨7, by decide⟩
  | ⟨7, _⟩ => ⟨8, by decide⟩
  | ⟨8, _⟩ => ⟨9, by decide⟩
  | ⟨9, _⟩ => ⟨2, by decide⟩
  | ⟨10, _⟩ => ⟨3, by decide⟩
  | ⟨11, _⟩ => ⟨4, by decide⟩
  | ⟨12, _⟩ => ⟨5, by decide⟩
  | ⟨13, _⟩ => ⟨6, by decide⟩
  | ⟨14, _⟩ => ⟨7, by decide⟩
  | ⟨15, _⟩ => ⟨8, by decide⟩
  | ⟨16, _⟩ => ⟨9, by decide⟩
  | ⟨17, _⟩ => ⟨3, by decide⟩
  | ⟨18, _⟩ => ⟨4, by decide⟩
  | ⟨19, _⟩ => ⟨5, by decide⟩
  | ⟨20, _⟩ => ⟨6, by decide⟩
  | ⟨21, _⟩ => ⟨7, by decide⟩
  | ⟨22, _⟩ => ⟨8, by decide⟩
  | ⟨23, _⟩ => ⟨9, by decide⟩
  | ⟨24, _⟩ => ⟨4, by decide⟩
  | ⟨25, _⟩ => ⟨5, by decide⟩
  | ⟨26, _⟩ => ⟨6, by decide⟩
  | ⟨27, _⟩ => ⟨7, by decide⟩
  | ⟨28, _⟩ => ⟨8, by decide⟩
  | ⟨29, _⟩ => ⟨9, by decide⟩
  | ⟨30, _⟩ => ⟨5, by decide⟩
  | ⟨31, _⟩ => ⟨6, by decide⟩
  | ⟨32, _⟩ => ⟨7, by decide⟩
  | ⟨33, _⟩ => ⟨8, by decide⟩
  | ⟨34, _⟩ => ⟨9, by decide⟩
  | ⟨35, _⟩ => ⟨6, by decide⟩
  | ⟨36, _⟩ => ⟨7, by decide⟩
  | ⟨37, _⟩ => ⟨8, by decide⟩
  | ⟨38, _⟩ => ⟨9, by decide⟩
  | ⟨39, _⟩ => ⟨7, by decide⟩
  | ⟨40, _⟩ => ⟨8, by decide⟩
  | ⟨41, _⟩ => ⟨9, by decide⟩
  | ⟨42, _⟩ => ⟨8, by decide⟩
  | ⟨43, _⟩ => ⟨9, by decide⟩
  | ⟨44, _⟩ => ⟨9, by decide⟩
  | ⟨_ + 45, h⟩ => absurd h (by omega)

/-! ## The terms of row r of an n-row array -/

section Rows
variable {n : Nat}

def baseA (P T : (⟨2, ![n, 10]⟩ : Shape).Idx → EReal) (W : (⟨1, ![10]⟩ : Shape).Idx → EReal) (r : Fin n) (k : Fin 10) : EReal :=
  baseT (P (ix2 r k)) (T (ix2 r k)) (W (ix1 k))

def dirA (P T : (⟨2, ![n, 10]⟩ : Shape).Idx → EReal) (r : Fin n) (k : Fin 9) : EReal :=
  dirT (P (ix2 r (up1 k))) (P (ix2 r (lo9 k))) (T (ix2 r (up1 k))) (T (ix2 r (lo9 k)))

def trendA (P T : (⟨2, ![n, 10]⟩ : Shape).Idx → EReal) (r : Fin n) (k : Fin 8) : EReal :=
  trendT (P (ix2 r (up2 k))) (P (ix2 r (mid8 k))) (P (ix2 r (lo8 k))) (T (ix2 r (up2 k))) (T (ix2 r (mid8 k))) (T (ix2 r (lo8 k)))

def sigA (T : (⟨2, ![n, 10]⟩ : Shape).Idx → EReal) (r : Fin n) (j : Fin 45) : EReal :=
  sigT (T (ix2 r (pairA j))) (T (ix2 r (pairB j)))

def errsigA (P T : (⟨2, ![n, 10]⟩ : Shape).Idx → EReal) (r : Fin n) (j : Fin 45) : EReal :=
  errsigT (P (ix2 r (pairA j))) (P (ix2 r (pairB j))) (T (ix2 r (pairA j))) (T (ix2 r (pairB j)))

end Rows

/-! ## From the five totals to the loss -/

abbrev Sc : Shape := ⟨0, ![]⟩
abbrev S45v : Shape := ⟨1, ![45]⟩

/-- The closing lines both programs share, as one function of the three scalar totals `sb sd st` and the two per-pair
    totals `es` (summed hinge) and `cnt` (count): each scalar over its number of entries; per pair the mean hinge where the
    count is positive, else 0; the mean of those over the pairs with a positive count (at least 1); the weighted sum. -/
def tail (hb : Sc.BroadcastsInDim S45v (![] : Fin 0 → Fin S45v.rank)) (hr : S45v.ReducesTo [0] Sc) (h0 : 0 < Sc.numel)
    (sb sd st : FVec Ideal Sc .f32) (es cnt : FVec Ideal S45v .f32) : FVec Ideal Sc .f32 :=
  addf
    (addf
      (addf
        (mulf (constant Sc .f32 0x3F800000#32) (Host.divf sb (constant Sc .f32 0x4B200000#32)))
        (mulf (constant Sc .f32 0x3E99999A#32) (Host.divf sd (constant Sc .f32 0x4B100000#32))))
      (mulf (constant Sc .f32 0x3E4CCCCD#32) (Host.divf st (constant Sc .f32 0x4B000000#32))))
    (mulf (constant Sc .f32 0x3DCCCCCD#32)
      (Host.divf
        (Host.reduceAdd
          (select (cmpf .ogt cnt (broadcastInDim S45v ![] hb (constant Sc .f32 0x00000000#32)))
            (Host.divf es (maximumf cnt (broadcastInDim S45v ![] hb (constant Sc .f32 0x3F800000#32))))
            (broadcastInDim S45v ![] hb (id (constant Sc .f32 0x00000000#32))))
          (constant Sc .f32 0x00000000#32) hr h0)
        (maximumf
          (Host.reduceAdd
            (uitofp .f32 (cmpf .ogt cnt (broadcastInDim S45v ![] hb (constant Sc .f32 0x00000000#32))))
            (constant Sc .f32 0x00000000#32) hr h0)
          (constant Sc .f32 0x3F800000#32))))

/-- The loss of the whole n-row arrays: `tail` of the five totals, each `0 +` the sum over all rows (and, for the three
    scalars, over the columns). -/
def loss {n : Nat} (hb : Sc.BroadcastsInDim S45v (![] : Fin 0 → Fin S45v.rank)) (hr : S45v.ReducesTo [0] Sc) (h0 : 0 < Sc.numel)
    (P T : (⟨2, ![n, 10]⟩ : Shape).Idx → EReal) (W : (⟨1, ![10]⟩ : Shape).Idx → EReal) : FVec Ideal Sc .f32 :=
  tail hb hr h0
    (fun _ => zeroW + ∑ r : Fin n, ∑ k : Fin 10, baseA P T W r k)
    (fun _ => zeroW + ∑ r : Fin n, ∑ k : Fin 9, dirA P T r k)
    (fun _ => zeroW + ∑ r : Fin n, ∑ k : Fin 8, trendA P T r k)
    (fun j => zeroW + ∑ r : Fin n, errsigA P T r (j 0))
    (fun j => zeroW + ∑ r : Fin n, sigA T r (j 0))

end Cert.Loss

end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.SumRegroup.lean ====
/-
  Two facts about finite sums in a commutative monoid (the extended reals included; nothing is asked to be finite).

  * A total that is set to `z + s 0` at the first step and has `s (n+1)` added on the right at every later step is,
    after step `n`, `z` plus the sum of `s 0, …, s n`.
  * The rows `0, …, 1048575` of an array are 512 consecutive blocks of 2048 rows: summing a function of the row over all
    rows is summing, block by block, over the rows of each block.
-/
import Mathlib.Algebra.BigOperators.Fin
import Mathlib.Algebra.BigOperators.Group.Finset.Basic
import Mathlib.Data.Fintype.BigOperators
import Mathlib.Logic.Equiv.Fin.Basic
import proofs.«164012_j67534065762422_2_alg».proof.Proof.LibGemmSplit

open scoped BigOperators

namespace Cert.Regroup

variable {M : Type*} [AddCommMonoid M]

/-- The running total: `z + s 0` after step 0, then `+ s (n+1)`. -/
def acc (z : M) (s : ℕ → M) : ℕ → M
  | 0 => z + s 0
  | n + 1 => acc z s n + s (n + 1)

theorem acc_eq (z : M) (s : ℕ → M) : ∀ n : ℕ, acc z s n = z + ∑ t : Fin (n + 1), s t.val
  | 0 => by
    show z + s 0 = z + ∑ t : Fin 1, s t.val
    rw [Fin.sum_univ_one]
    rfl
  | n + 1 => by
    rw [acc, acc_eq z s n, Fin.sum_univ_castSucc (n := n + 1), add_assoc]
    rfl

/-- Row `r` of block `t`, as a row of the whole array (taken modulo the number of rows, so that it is defined for every
    `t` and `r`; for `t < 512` and `r < 2048` nothing wraps). -/
def rowOf (t r : ℕ) : Fin 1048576 := ⟨(2048 * t + r) % 1048576, Nat.mod_lt _ (by decide)⟩

theorem rowOf_val {t r : ℕ} (ht : t < 512) (hr : r < 2048) : (rowOf t r).val = 2048 * t + r :=
  Nat.mod_eq_of_lt (by omega)

/-- All rows, block by block. -/
theorem sum_rows (f : Fin 1048576 → M) :
    ∑ r : Fin 1048576, f r = ∑ t : Fin 512, ∑ r : Fin 2048, f (rowOf t.val r.val) := by
  have h : (512 : ℕ) * 2048 = 1048576 := by decide
  rw [Cert.LibGemmSplit.sum_blocks h f]
  exact Finset.sum_congr rfl fun t _ => Finset.sum_congr rfl fun r _ =>
    congrArg f (Fin.ext (rowOf_val t.isLt r.isLt).symm)

/-- The same under a second, outer or inner, finite sum over columns. -/
theorem sum_rows_cols {K : ℕ} (f : Fin 1048576 → Fin K → M) :
    ∑ r : Fin 1048576, ∑ k : Fin K, f r k = ∑ k : Fin K, ∑ t : Fin 512, ∑ r : Fin 2048, f (rowOf t.val r.val) k := by
  rw [Finset.sum_comm]
  exact Finset.sum_congr rfl fun k _ => sum_rows fun r => f r k

end Cert.Regroup
-- ==== Proof.KChain.lean ====
/-
  The kernel's five output blocks after the whole grid, and its result.

  Every grid point t reads rows 2048 t … 2048 t + 2047 of the predictions and targets (and the ten weights). Output w's one
  block is cleared at point 0 and has this block's column sums of its term added at every point, so after point n it
  holds, entry by entry, the running total `acc 0 s n` of the per-block sums `s t`; only the last point (511) writes the
  block back, and the block is the whole output array. The closing host lines then apply `Cert.Loss.tail` to the five
  arrays' totals; regrouping the rows block by block (`Cert.Regroup.sum_rows`) these are the totals over all 1048576 rows,
  so the result is `Cert.Loss.loss` of the three argument arrays. What one point leaves (`BodyVals`) is taken as a
  hypothesis here and proved from the kernel's body elsewhere.
-/
import proofs.«164012_j67534065762422_2_alg».proof.Proof.Gen.KernelIdeal.Frame
import proofs.«164012_j67534065762422_2_alg».proof.Proof.LossTerms
import proofs.«164012_j67534065762422_2_alg».proof.Proof.SumRegroup
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Loss Cert.Regroup

/-- What one grid point leaves in each output block, entry by entry: at the first point `0 +` the block's column sum of
    the output's term, at every later point what the block held `+` that column sum. -/
structure BodyVals : Prop where
  A3 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
      (x0 x1 : Vec Ideal S2048x10 .f32) (x2 : Vec Ideal S10 .f32) (k : Fin 10),
      out0_A_3 (F := Ideal) c i arg1 harg1 arg2 harg2 arg3 harg3 arg4 harg4 arg5 harg5 arg6 harg6 arg7 harg7 arg8 harg8 hc0 x0 x1 x2 (ix2 (0 : Fin 1) k) = zeroW + ∑ r : Fin 2048, baseA x0 x1 x2 r k
  B3 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
      (x0 x1 : Vec Ideal S2048x10 .f32) (x2 : Vec Ideal S10 .f32) (xo3 : Vec Ideal S1x10 .f32) (xo4 : Vec Ideal S1x9 .f32) (xo5 : Vec Ideal S1x8 .f32) (xo6 : Vec Ideal S1x45 .f32) (xo7 : Vec Ideal S1x45 .f32) (k : Fin 10),
      out0_B_3 (F := Ideal) c i arg1 harg1 arg2 harg2 arg3 harg3 arg4 harg4 arg5 harg5 arg6 harg6 arg7 harg7 arg8 harg8 hc0 x0 x1 x2 xo3 xo4 xo5 xo6 xo7 (ix2 (0 : Fin 1) k) = xo3 (ix2 (0 : Fin 1) k) + ∑ r : Fin 2048, baseA x0 x1 x2 r k
  A4 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
      (x0 x1 : Vec Ideal S2048x10 .f32) (x2 : Vec Ideal S10 .f32) (k : Fin 9),
      out0_A_4 (F := Ideal) c i arg1 harg1 arg2 harg2 arg3 harg3 arg4 harg4 arg5 harg5 arg6 harg6 arg7 harg7 arg8 harg8 hc0 x0 x1 x2 (ix2 (0 : Fin 1) k) = zeroW + ∑ r : Fin 2048, dirA x0 x1 r k
  B4 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
      (x0 x1 : Vec Ideal S2048x10 .f32) (x2 : Vec Ideal S10 .f32) (xo3 : Vec Ideal S1x10 .f32) (xo4 : Vec Ideal S1x9 .f32) (xo5 : Vec Ideal S1x8 .f32) (xo6 : Vec Ideal S1x45 .f32) (xo7 : Vec Ideal S1x45 .f32) (k : Fin 9),
      out0_B_4 (F := Ideal) c i arg1 harg1 arg2 harg2 arg3 harg3 arg4 harg4 arg5 harg5 arg6 harg6 arg7 harg7 arg8 harg8 hc0 x0 x1 x2 xo3 xo4 xo5 xo6 xo7 (ix2 (0 : Fin 1) k) = xo4 (ix2 (0 : Fin 1) k) + ∑ r : Fin 2048, dirA x0 x1 r k
  A5 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
      (x0 x1 : Vec Ideal S2048x10 .f32) (x2 : Vec Ideal S10 .f32) (k : Fin 8),
      out0_A_5 (F := Ideal) c i arg1 harg1 arg2 harg2 arg3 harg3 arg4 harg4 arg5 harg5 arg6 harg6 arg7 harg7 arg8 harg8 hc0 x0 x1 x2 (ix2 (0 : Fin 1) k) = zeroW + ∑ r : Fin 2048, trendA x0 x1 r k
  B5 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
      (x0 x1 : Vec Ideal S2048x10 .f32) (x2 : Vec Ideal S10 .f32) (xo3 : Vec Ideal S1x10 .f32) (xo4 : Vec Ideal S1x9 .f32) (xo5 : Vec Ideal S1x8 .f32) (xo6 : Vec Ideal S1x45 .f32) (xo7 : Vec Ideal S1x45 .f32) (k : Fin 8),
      out0_B_5 (F := Ideal) c i arg1 harg1 arg2 harg2 arg3 harg3 arg4 harg4 arg5 harg5 arg6 harg6 arg7 harg7 arg8 harg8 hc0 x0 x1 x2 xo3 xo4 xo5 xo6 xo7 (ix2 (0 : Fin 1) k) = xo5 (ix2 (0 : Fin 1) k) + ∑ r : Fin 2048, trendA x0 x1 r k
  A6 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
      (x0 x1 : Vec Ideal S2048x10 .f32) (x2 : Vec Ideal S10 .f32) (j : Fin 45),
      out0_A_6 (F := Ideal) c i arg1 harg1 arg2 harg2 arg3 harg3 arg4 harg4 arg5 harg5 arg6 harg6 arg7 harg7 arg8 harg8 hc0 x0 x1 x2 (ix2 (0 : Fin 1) j) = zeroW + ∑ r : Fin 2048, errsigA x0 x1 r j
  B6 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
      (x0 x1 : Vec Ideal S2048x10 .f32) (x2 : Vec Ideal S10 .f32) (xo3 : Vec Ideal S1x10 .f32) (xo4 : Vec Ideal S1x9 .f32) (xo5 : Vec Ideal S1x8 .f32) (xo6 : Vec Ideal S1x45 .f32) (xo7 : Vec Ideal S1x45 .f32) (j : Fin 45),
      out0_B_6 (F := Ideal) c i arg1 harg1 arg2 harg2 arg3 harg3 arg4 harg4 arg5 harg5 arg6 harg6 arg7 harg7 arg8 harg8 hc0 x0 x1 x2 xo3 xo4 xo5 xo6 xo7 (ix2 (0 : Fin 1) j) = xo6 (ix2 (0 : Fin 1) j) + ∑ r : Fin 2048, errsigA x0 x1 r j
  A7 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
      (x0 x1 : Vec Ideal S2048x10 .f32) (x2 : Vec Ideal S10 .f32) (j : Fin 45),
      out0_A_7 (F := Ideal) c i arg1 harg1 arg2 harg2 arg3 harg3 arg4 harg4 arg5 harg5 arg6 harg6 arg7 harg7 arg8 harg8 hc0 x0 x1 x2 (ix2 (0 : Fin 1) j) = zeroW + ∑ r : Fin 2048, sigA x1 r j
  B7 : ∀ (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
      (x0 x1 : Vec Ideal S2048x10 .f32) (x2 : Vec Ideal S10 .f32) (xo3 : Vec Ideal S1x10 .f32) (xo4 : Vec Ideal S1x9 .f32) (xo5 : Vec Ideal S1x8 .f32) (xo6 : Vec Ideal S1x45 .f32) (xo7 : Vec Ideal S1x45 .f32) (j : Fin 45),
      out0_B_7 (F := Ideal) c i arg1 harg1 arg2 harg2 arg3 harg3 arg4 harg4 arg5 harg5 arg6 harg6 arg7 harg7 arg8 harg8 hc0 x0 x1 x2 xo3 xo4 xo5 xo6 xo7 (ix2 (0 : Fin 1) j) = xo7 (ix2 (0 : Fin 1) j) + ∑ r : Fin 2048, sigA x1 r j

variable (m : (ℓ : Loc nD τ sig) → Buf (Elt Ideal) ℓ) (ρ : Dev nD → PrngReg)

/-- The three argument arrays on core c. -/
abbrev argP (c : Dev nD) : FVec Ideal S1048576x10 .f32 := m ((c : Thread nD τ).loc main_arg0)
abbrev argT (c : Dev nD) : FVec Ideal S1048576x10 .f32 := m ((c : Thread nD τ).loc main_arg1)
abbrev argW (c : Dev nD) : FVec Ideal S10 .f32 := m ((c : Thread nD τ).loc main_arg2)

theorem zeroW_eq : zeroW = 0 := Ideal.ofBits_zero_f32

/-! ## The blocks a point reads -/

theorem idx01 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ win0_2.index t (0 : Fin 1) = 0 :=
  (by decide +kernel : ∀ t : Fin grid0.N, _)

theorem lt512 (t : Fin cfg0.N) : t.val < 512 := by
  have hN : cfg0.N = 512 := N_0
  have := t.isLt
  omega

/-- Entry (r, k) of the prediction block at point t is entry (2048 t + r, k) of the predictions. -/
theorem iblk0_apply (c : Dev nD) (t : Fin cfg0.N) (r : Fin 2048) (k : Fin 10) :
    (iblk m c 0 t : Vec Ideal S2048x10 .f32) (ix2 r k) = argP m c (ix2 (rowOf t.val r.val) k) := by
  have hi := (idx01 t).1
  unfold iblk
  rw [View.read_apply]
  show V m c main_arg0 _ = m (c.tc.loc main_arg0) _
  unfold V
  congr 1
  funext a
  apply Fin.ext
  match a with
  | ⟨0, _⟩ => show win0_0.index t 0 * 2048 + 1 * r.val = (rowOf t.val r.val).val; rw [hi.1, rowOf_val (lt512 t) r.isLt]; omega
  | ⟨1, _⟩ => show win0_0.index t 1 * 10 + 1 * k.val = k.val; rw [hi.2]; omega

/-- The same of the target block. -/
theorem iblk1_apply (c : Dev nD) (t : Fin cfg0.N) (r : Fin 2048) (k : Fin 10) :
    (iblk m c 1 t : Vec Ideal S2048x10 .f32) (ix2 r k) = argT m c (ix2 (rowOf t.val r.val) k) := by
  have hi := (idx01 t).2.1
  unfold iblk
  rw [View.read_apply]
  show V m c main_arg1 _ = m (c.tc.loc main_arg1) _
  unfold V
  congr 1
  funext a
  apply Fin.ext
  match a with
  | ⟨0, _⟩ => show win0_1.index t 0 * 2048 + 1 * r.val = (rowOf t.val r.val).val; rw [hi.1, rowOf_val (lt512 t) r.isLt]; omega
  | ⟨1, _⟩ => show win0_1.index t 1 * 10 + 1 * k.val = k.val; rw [hi.2]; omega

/-- Every point reads the whole weight vector. -/
theorem iblk2_apply (c : Dev nD) (t : Fin cfg0.N) (k : Fin 10) :
    (iblk m c 2 t : Vec Ideal S10 .f32) (ix1 k) = argW m c (ix1 k) := by
  have hi := (idx01 t).2.2
  unfold iblk
  rw [View.read_apply]
  show V m c main_arg2 _ = m (c.tc.loc main_arg2) _
  unfold V
  congr 1
  funext a
  apply Fin.ext
  match a with
  | ⟨0, _⟩ => show win0_2.index t 0 * 10 + 1 * k.val = k.val; rw [hi]; omega

/-! ## The per-block column sums, and the blocks' sums as sums over rows of the arguments -/

def s3 (c : Dev nD) (k : Fin 10) (t : ℕ) : EReal := ∑ r : Fin 2048, baseA (argP m c) (argT m c) (argW m c) (rowOf t r.val) k
def s4 (c : Dev nD) (k : Fin 9) (t : ℕ) : EReal := ∑ r : Fin 2048, dirA (argP m c) (argT m c) (rowOf t r.val) k
def s5 (c : Dev nD) (k : Fin 8) (t : ℕ) : EReal := ∑ r : Fin 2048, trendA (argP m c) (argT m c) (rowOf t r.val) k
def s6 (c : Dev nD) (j : Fin 45) (t : ℕ) : EReal := ∑ r : Fin 2048, errsigA (argP m c) (argT m c) (rowOf t r.val) j
def s7 (c : Dev nD) (j : Fin 45) (t : ℕ) : EReal := ∑ r : Fin 2048, sigA (argT m c) (rowOf t r.val) j

theorem blk3 (c : Dev nD) (t : Fin cfg0.N) (k : Fin 10) :
    (∑ r : Fin 2048, baseA (iblk m c 0 t) (iblk m c 1 t) (iblk m c 2 t) r k) = s3 m c k t.val :=
  Finset.sum_congr rfl fun r _ => by
    unfold baseA
    simp only [iblk0_apply, iblk1_apply, iblk2_apply]

theorem blk4 (c : Dev nD) (t : Fin cfg0.N) (k : Fin 9) :
    (∑ r : Fin 2048, dirA (iblk m c 0 t) (iblk m c 1 t) r k) = s4 m c k t.val :=
  Finset.sum_congr rfl fun r _ => by
    unfold dirA
    simp only [iblk0_apply, iblk1_apply, iblk2_apply]

theorem blk5 (c : Dev nD) (t : Fin cfg0.N) (k : Fin 8) :
    (∑ r : Fin 2048, trendA (iblk m c 0 t) (iblk m c 1 t) r k) = s5 m c k t.val :=
  Finset.sum_congr rfl fun r _ => by
    unfold trendA
    simp only [iblk0_apply, iblk1_apply, iblk2_apply]

theorem blk6 (c : Dev nD) (t : Fin cfg0.N) (j : Fin 45) :
    (∑ r : Fin 2048, errsigA (iblk m c 0 t) (iblk m c 1 t) r j) = s6 m c j t.val :=
  Finset.sum_congr rfl fun r _ => by
    unfold errsigA
    simp only [iblk0_apply, iblk1_apply, iblk2_apply]

theorem blk7 (c : Dev nD) (t : Fin cfg0.N) (j : Fin 45) :
    (∑ r : Fin 2048, sigA (iblk m c 1 t) r j) = s7 m c j t.val :=
  Finset.sum_congr rfl fun r _ => by
    unfold sigA
    simp only [iblk0_apply, iblk1_apply, iblk2_apply]

/-! ## What the outputs hold after point n -/

/-- After point n, output 3's entry is the running total of its per-block sums: by induction on the point. -/
theorem outs3_eq (hB : BodyVals) (c : Dev nD) : ∀ (n : ℕ) (h : n < cfg0.N) (k : Fin 10),
    (outsAt0 m c n h).1 (ix2 (0 : Fin 1) k) = acc zeroW (s3 m c k) n
  | 0, h, k => by
    have h0 : (⟨0, h⟩ : Fin cfg0.N).val % 512 = 0 := rfl
    have e := outsAt0_A m c ⟨0, h⟩ h0
    refine (congrFun (congrArg (fun p => p.1) e) (ix2 (0 : Fin 1) k)).trans ?_
    refine (hB.A3 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 ⟨0, h⟩).mpr h0) (iblk m c 0 (⟨0, h⟩ : Fin cfg0.N)) (iblk m c 1 (⟨0, h⟩ : Fin cfg0.N)) (iblk m c 2 (⟨0, h⟩ : Fin cfg0.N)) k).trans ?_
    show zeroW + _ = zeroW + s3 m c k 0
    rw [blk3 m c ⟨0, h⟩ k]
  | n + 1, h, k => by
    have hN : cfg0.N = 512 := N_0
    have hB' : ¬(⟨n + 1, h⟩ : Fin cfg0.N).val % 512 = 0 := by dsimp only; omega
    have e := outsAt0_B m c ⟨n + 1, h⟩ hB'
    refine (congrFun (congrArg (fun p => p.1) e) (ix2 (0 : Fin 1) k)).trans ?_
    refine (hB.B3 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB' ((hcond0_0 ⟨n + 1, h⟩).mp hh)) (iblk m c 0 (⟨n + 1, h⟩ : Fin cfg0.N)) (iblk m c 1 (⟨n + 1, h⟩ : Fin cfg0.N)) (iblk m c 2 (⟨n + 1, h⟩ : Fin cfg0.N))
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2 k).trans ?_
    show _ + _ = acc zeroW (s3 m c k) n + s3 m c k (n + 1)
    rw [outs3_eq hB c n (Nat.lt_of_succ_lt h) k, blk3 m c ⟨n + 1, h⟩ k]

/-- After point n, output 4's entry is the running total of its per-block sums: by induction on the point. -/
theorem outs4_eq (hB : BodyVals) (c : Dev nD) : ∀ (n : ℕ) (h : n < cfg0.N) (k : Fin 9),
    (outsAt0 m c n h).2.1 (ix2 (0 : Fin 1) k) = acc zeroW (s4 m c k) n
  | 0, h, k => by
    have h0 : (⟨0, h⟩ : Fin cfg0.N).val % 512 = 0 := rfl
    have e := outsAt0_A m c ⟨0, h⟩ h0
    refine (congrFun (congrArg (fun p => p.2.1) e) (ix2 (0 : Fin 1) k)).trans ?_
    refine (hB.A4 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 ⟨0, h⟩).mpr h0) (iblk m c 0 (⟨0, h⟩ : Fin cfg0.N)) (iblk m c 1 (⟨0, h⟩ : Fin cfg0.N)) (iblk m c 2 (⟨0, h⟩ : Fin cfg0.N)) k).trans ?_
    show zeroW + _ = zeroW + s4 m c k 0
    rw [blk4 m c ⟨0, h⟩ k]
  | n + 1, h, k => by
    have hN : cfg0.N = 512 := N_0
    have hB' : ¬(⟨n + 1, h⟩ : Fin cfg0.N).val % 512 = 0 := by dsimp only; omega
    have e := outsAt0_B m c ⟨n + 1, h⟩ hB'
    refine (congrFun (congrArg (fun p => p.2.1) e) (ix2 (0 : Fin 1) k)).trans ?_
    refine (hB.B4 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB' ((hcond0_0 ⟨n + 1, h⟩).mp hh)) (iblk m c 0 (⟨n + 1, h⟩ : Fin cfg0.N)) (iblk m c 1 (⟨n + 1, h⟩ : Fin cfg0.N)) (iblk m c 2 (⟨n + 1, h⟩ : Fin cfg0.N))
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2 k).trans ?_
    show _ + _ = acc zeroW (s4 m c k) n + s4 m c k (n + 1)
    rw [outs4_eq hB c n (Nat.lt_of_succ_lt h) k, blk4 m c ⟨n + 1, h⟩ k]

/-- After point n, output 5's entry is the running total of its per-block sums: by induction on the point. -/
theorem outs5_eq (hB : BodyVals) (c : Dev nD) : ∀ (n : ℕ) (h : n < cfg0.N) (k : Fin 8),
    (outsAt0 m c n h).2.2.1 (ix2 (0 : Fin 1) k) = acc zeroW (s5 m c k) n
  | 0, h, k => by
    have h0 : (⟨0, h⟩ : Fin cfg0.N).val % 512 = 0 := rfl
    have e := outsAt0_A m c ⟨0, h⟩ h0
    refine (congrFun (congrArg (fun p => p.2.2.1) e) (ix2 (0 : Fin 1) k)).trans ?_
    refine (hB.A5 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 ⟨0, h⟩).mpr h0) (iblk m c 0 (⟨0, h⟩ : Fin cfg0.N)) (iblk m c 1 (⟨0, h⟩ : Fin cfg0.N)) (iblk m c 2 (⟨0, h⟩ : Fin cfg0.N)) k).trans ?_
    show zeroW + _ = zeroW + s5 m c k 0
    rw [blk5 m c ⟨0, h⟩ k]
  | n + 1, h, k => by
    have hN : cfg0.N = 512 := N_0
    have hB' : ¬(⟨n + 1, h⟩ : Fin cfg0.N).val % 512 = 0 := by dsimp only; omega
    have e := outsAt0_B m c ⟨n + 1, h⟩ hB'
    refine (congrFun (congrArg (fun p => p.2.2.1) e) (ix2 (0 : Fin 1) k)).trans ?_
    refine (hB.B5 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB' ((hcond0_0 ⟨n + 1, h⟩).mp hh)) (iblk m c 0 (⟨n + 1, h⟩ : Fin cfg0.N)) (iblk m c 1 (⟨n + 1, h⟩ : Fin cfg0.N)) (iblk m c 2 (⟨n + 1, h⟩ : Fin cfg0.N))
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2 k).trans ?_
    show _ + _ = acc zeroW (s5 m c k) n + s5 m c k (n + 1)
    rw [outs5_eq hB c n (Nat.lt_of_succ_lt h) k, blk5 m c ⟨n + 1, h⟩ k]

/-- After point n, output 6's entry is the running total of its per-block sums: by induction on the point. -/
theorem outs6_eq (hB : BodyVals) (c : Dev nD) : ∀ (n : ℕ) (h : n < cfg0.N) (j : Fin 45),
    (outsAt0 m c n h).2.2.2.1 (ix2 (0 : Fin 1) j) = acc zeroW (s6 m c j) n
  | 0, h, j => by
    have h0 : (⟨0, h⟩ : Fin cfg0.N).val % 512 = 0 := rfl
    have e := outsAt0_A m c ⟨0, h⟩ h0
    refine (congrFun (congrArg (fun p => p.2.2.2.1) e) (ix2 (0 : Fin 1) j)).trans ?_
    refine (hB.A6 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 ⟨0, h⟩).mpr h0) (iblk m c 0 (⟨0, h⟩ : Fin cfg0.N)) (iblk m c 1 (⟨0, h⟩ : Fin cfg0.N)) (iblk m c 2 (⟨0, h⟩ : Fin cfg0.N)) j).trans ?_
    show zeroW + _ = zeroW + s6 m c j 0
    rw [blk6 m c ⟨0, h⟩ j]
  | n + 1, h, j => by
    have hN : cfg0.N = 512 := N_0
    have hB' : ¬(⟨n + 1, h⟩ : Fin cfg0.N).val % 512 = 0 := by dsimp only; omega
    have e := outsAt0_B m c ⟨n + 1, h⟩ hB'
    refine (congrFun (congrArg (fun p => p.2.2.2.1) e) (ix2 (0 : Fin 1) j)).trans ?_
    refine (hB.B6 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB' ((hcond0_0 ⟨n + 1, h⟩).mp hh)) (iblk m c 0 (⟨n + 1, h⟩ : Fin cfg0.N)) (iblk m c 1 (⟨n + 1, h⟩ : Fin cfg0.N)) (iblk m c 2 (⟨n + 1, h⟩ : Fin cfg0.N))
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2 j).trans ?_
    show _ + _ = acc zeroW (s6 m c j) n + s6 m c j (n + 1)
    rw [outs6_eq hB c n (Nat.lt_of_succ_lt h) j, blk6 m c ⟨n + 1, h⟩ j]

/-- After point n, output 7's entry is the running total of its per-block sums: by induction on the point. -/
theorem outs7_eq (hB : BodyVals) (c : Dev nD) : ∀ (n : ℕ) (h : n < cfg0.N) (j : Fin 45),
    (outsAt0 m c n h).2.2.2.2 (ix2 (0 : Fin 1) j) = acc zeroW (s7 m c j) n
  | 0, h, j => by
    have h0 : (⟨0, h⟩ : Fin cfg0.N).val % 512 = 0 := rfl
    have e := outsAt0_A m c ⟨0, h⟩ h0
    refine (congrFun (congrArg (fun p => p.2.2.2.2) e) (ix2 (0 : Fin 1) j)).trans ?_
    refine (hB.A7 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 ⟨0, h⟩).mpr h0) (iblk m c 0 (⟨0, h⟩ : Fin cfg0.N)) (iblk m c 1 (⟨0, h⟩ : Fin cfg0.N)) (iblk m c 2 (⟨0, h⟩ : Fin cfg0.N)) j).trans ?_
    show zeroW + _ = zeroW + s7 m c j 0
    rw [blk7 m c ⟨0, h⟩ j]
  | n + 1, h, j => by
    have hN : cfg0.N = 512 := N_0
    have hB' : ¬(⟨n + 1, h⟩ : Fin cfg0.N).val % 512 = 0 := by dsimp only; omega
    have e := outsAt0_B m c ⟨n + 1, h⟩ hB'
    refine (congrFun (congrArg (fun p => p.2.2.2.2) e) (ix2 (0 : Fin 1) j)).trans ?_
    refine (hB.B7 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB' ((hcond0_0 ⟨n + 1, h⟩).mp hh)) (iblk m c 0 (⟨n + 1, h⟩ : Fin cfg0.N)) (iblk m c 1 (⟨n + 1, h⟩ : Fin cfg0.N)) (iblk m c 2 (⟨n + 1, h⟩ : Fin cfg0.N))
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2 j).trans ?_
    show _ + _ = acc zeroW (s7 m c j) n + s7 m c j (n + 1)
    rw [outs7_eq hB c n (Nat.lt_of_succ_lt h) j, blk7 m c ⟨n + 1, h⟩ j]

/-! ## The output arrays after the run -/

theorem outs_cast (c : Dev nD) {n n' : ℕ} (h : n < cfg0.N) (h' : n' < cfg0.N) (e : n = n') :
    outsAt0 m c n h = outsAt0 m c n' h' := by subst e; rfl

/-- Every output window's block index is (0, 0) at every grid point. -/
theorem idxOut : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem n511 : 511 < cfg0.N := by rw [show cfg0.N = 512 from N_0]; decide

/-- The last grid point, the one that writes the output blocks back. -/
abbrev last : Fin cfg0.N := ⟨511, n511⟩

/-- What output 3's block holds after the last point, as contents of the output array (the block is the array). -/
abbrev O3 (c : Dev nD) : Buf (Elt Ideal) ((c : Thread nD τ).loc main_v0_0) := (outsAt0 m c 511 n511).1

theorem flushed3 (c : Dev nD) (t : Fin cfg0.N) (hf : (cfg0.win 3).flush t = true) :
    (dats m 0 c).flushed 3 t = ((cfg0.win 3).blk t).view.read (Elt Ideal) (O3 m c) := by
  have hN : cfg0.N = 512 := N_0
  have h3 : t.val = 511 := by have := (flush0_3 t).mp hf; have := t.isLt; omega
  have hi := (idxOut t).1
  show (cfg0.win 3).cut (grid0.coords t) ((dats m 0 c).after 3 t) = _
  rw [after0_3, outs_cast m c t.isLt n511 h3]
  funext y
  rw [View.read_apply]
  show (outsAt0 m c 511 n511).1 _ = (outsAt0 m c 511 n511).1 _
  refine congrArg (outsAt0 m c 511 n511).1 (funext fun a => Fin.ext ?_)
  match a with
  | ⟨0, h0⟩ => show (y ⟨0, h0⟩).val = win0_3.index t 0 * 1 + 1 * (y ⟨0, h0⟩).val; rw [hi.1]; omega
  | ⟨1, h1⟩ => show (y ⟨1, h1⟩).val = win0_3.index t 1 * 10 + 1 * (y ⟨1, h1⟩).val; rw [hi.2]; omega

theorem final3 (c : Dev nD) : (dats m 0 c).arrAt 3 cfg0.N = O3 m c :=
  (dats m 0 c).arrAt_eq_of_cover 3 (O3 m c) (flushed3 m c) fun i =>
    ⟨last, (flush0_3 last).mpr rfl, by
      show i ∈ ((View.whole main_v0_0).slice (win0_3.rect last)).set
      rw [View.set_slice_whole, Rect.mem_set_unit]
      intro a
      have h0 : (i 0 : Nat) < 1 := (i 0).isLt
      have h1 : (i 1 : Nat) < 10 := (i 1).isLt
      match a with
      | ⟨0, _⟩ =>
        show win0_3.index last 0 * win0_3.size 0 ≤ (i 0 : Nat) ∧ (i 0 : Nat) < win0_3.index last 0 * win0_3.size 0 + win0_3.xsize (grid0.coords last) 0
        rw [show win0_3.index last 0 * win0_3.size 0 = 0 from by decide +kernel, show win0_3.xsize (grid0.coords last) 0 = 1 from by decide +kernel]; omega
      | ⟨1, _⟩ =>
        show win0_3.index last 1 * win0_3.size 1 ≤ (i 1 : Nat) ∧ (i 1 : Nat) < win0_3.index last 1 * win0_3.size 1 + win0_3.xsize (grid0.coords last) 1
        rw [show win0_3.index last 1 * win0_3.size 1 = 0 from by decide +kernel, show win0_3.xsize (grid0.coords last) 1 = 10 from by decide +kernel]; omega⟩

/-- What output 4's block holds after the last point, as contents of the output array (the block is the array). -/
abbrev O4 (c : Dev nD) : Buf (Elt Ideal) ((c : Thread nD τ).loc main_v0_1) := (outsAt0 m c 511 n511).2.1

theorem flushed4 (c : Dev nD) (t : Fin cfg0.N) (hf : (cfg0.win 4).flush t = true) :
    (dats m 0 c).flushed 4 t = ((cfg0.win 4).blk t).view.read (Elt Ideal) (O4 m c) := by
  have hN : cfg0.N = 512 := N_0
  have h3 : t.val = 511 := by have := (flush0_4 t).mp hf; have := t.isLt; omega
  have hi := (idxOut t).2.1
  show (cfg0.win 4).cut (grid0.coords t) ((dats m 0 c).after 4 t) = _
  rw [after0_4, outs_cast m c t.isLt n511 h3]
  funext y
  rw [View.read_apply]
  show (outsAt0 m c 511 n511).2.1 _ = (outsAt0 m c 511 n511).2.1 _
  refine congrArg (outsAt0 m c 511 n511).2.1 (funext fun a => Fin.ext ?_)
  match a with
  | ⟨0, h0⟩ => show (y ⟨0, h0⟩).val = win0_4.index t 0 * 1 + 1 * (y ⟨0, h0⟩).val; rw [hi.1]; omega
  | ⟨1, h1⟩ => show (y ⟨1, h1⟩).val = win0_4.index t 1 * 9 + 1 * (y ⟨1, h1⟩).val; rw [hi.2]; omega

theorem final4 (c : Dev nD) : (dats m 0 c).arrAt 4 cfg0.N = O4 m c :=
  (dats m 0 c).arrAt_eq_of_cover 4 (O4 m c) (flushed4 m c) fun i =>
    ⟨last, (flush0_4 last).mpr rfl, by
      show i ∈ ((View.whole main_v0_1).slice (win0_4.rect last)).set
      rw [View.set_slice_whole, Rect.mem_set_unit]
      intro a
      have h0 : (i 0 : Nat) < 1 := (i 0).isLt
      have h1 : (i 1 : Nat) < 9 := (i 1).isLt
      match a with
      | ⟨0, _⟩ =>
        show win0_4.index last 0 * win0_4.size 0 ≤ (i 0 : Nat) ∧ (i 0 : Nat) < win0_4.index last 0 * win0_4.size 0 + win0_4.xsize (grid0.coords last) 0
        rw [show win0_4.index last 0 * win0_4.size 0 = 0 from by decide +kernel, show win0_4.xsize (grid0.coords last) 0 = 1 from by decide +kernel]; omega
      | ⟨1, _⟩ =>
        show win0_4.index last 1 * win0_4.size 1 ≤ (i 1 : Nat) ∧ (i 1 : Nat) < win0_4.index last 1 * win0_4.size 1 + win0_4.xsize (grid0.coords last) 1
        rw [show win0_4.index last 1 * win0_4.size 1 = 0 from by decide +kernel, show win0_4.xsize (grid0.coords last) 1 = 9 from by decide +kernel]; omega⟩

/-- What output 5's block holds after the last point, as contents of the output array (the block is the array). -/
abbrev O5 (c : Dev nD) : Buf (Elt Ideal) ((c : Thread nD τ).loc main_v0_2) := (outsAt0 m c 511 n511).2.2.1

theorem flushed5 (c : Dev nD) (t : Fin cfg0.N) (hf : (cfg0.win 5).flush t = true) :
    (dats m 0 c).flushed 5 t = ((cfg0.win 5).blk t).view.read (Elt Ideal) (O5 m c) := by
  have hN : cfg0.N = 512 := N_0
  have h3 : t.val = 511 := by have := (flush0_5 t).mp hf; have := t.isLt; omega
  have hi := (idxOut t).2.2.1
  show (cfg0.win 5).cut (grid0.coords t) ((dats m 0 c).after 5 t) = _
  rw [after0_5, outs_cast m c t.isLt n511 h3]
  funext y
  rw [View.read_apply]
  show (outsAt0 m c 511 n511).2.2.1 _ = (outsAt0 m c 511 n511).2.2.1 _
  refine congrArg (outsAt0 m c 511 n511).2.2.1 (funext fun a => Fin.ext ?_)
  match a with
  | ⟨0, h0⟩ => show (y ⟨0, h0⟩).val = win0_5.index t 0 * 1 + 1 * (y ⟨0, h0⟩).val; rw [hi.1]; omega
  | ⟨1, h1⟩ => show (y ⟨1, h1⟩).val = win0_5.index t 1 * 8 + 1 * (y ⟨1, h1⟩).val; rw [hi.2]; omega

theorem final5 (c : Dev nD) : (dats m 0 c).arrAt 5 cfg0.N = O5 m c :=
  (dats m 0 c).arrAt_eq_of_cover 5 (O5 m c) (flushed5 m c) fun i =>
    ⟨last, (flush0_5 last).mpr rfl, by
      show i ∈ ((View.whole main_v0_2).slice (win0_5.rect last)).set
      rw [View.set_slice_whole, Rect.mem_set_unit]
      intro a
      have h0 : (i 0 : Nat) < 1 := (i 0).isLt
      have h1 : (i 1 : Nat) < 8 := (i 1).isLt
      match a with
      | ⟨0, _⟩ =>
        show win0_5.index last 0 * win0_5.size 0 ≤ (i 0 : Nat) ∧ (i 0 : Nat) < win0_5.index last 0 * win0_5.size 0 + win0_5.xsize (grid0.coords last) 0
        rw [show win0_5.index last 0 * win0_5.size 0 = 0 from by decide +kernel, show win0_5.xsize (grid0.coords last) 0 = 1 from by decide +kernel]; omega
      | ⟨1, _⟩ =>
        show win0_5.index last 1 * win0_5.size 1 ≤ (i 1 : Nat) ∧ (i 1 : Nat) < win0_5.index last 1 * win0_5.size 1 + win0_5.xsize (grid0.coords last) 1
        rw [show win0_5.index last 1 * win0_5.size 1 = 0 from by decide +kernel, show win0_5.xsize (grid0.coords last) 1 = 8 from by decide +kernel]; omega⟩

/-- What output 6's block holds after the last point, as contents of the output array (the block is the array). -/
abbrev O6 (c : Dev nD) : Buf (Elt Ideal) ((c : Thread nD τ).loc main_v0_3) := (outsAt0 m c 511 n511).2.2.2.1

theorem flushed6 (c : Dev nD) (t : Fin cfg0.N) (hf : (cfg0.win 6).flush t = true) :
    (dats m 0 c).flushed 6 t = ((cfg0.win 6).blk t).view.read (Elt Ideal) (O6 m c) := by
  have hN : cfg0.N = 512 := N_0
  have h3 : t.val = 511 := by have := (flush0_6 t).mp hf; have := t.isLt; omega
  have hi := (idxOut t).2.2.2.1
  show (cfg0.win 6).cut (grid0.coords t) ((dats m 0 c).after 6 t) = _
  rw [after0_6, outs_cast m c t.isLt n511 h3]
  funext y
  rw [View.read_apply]
  show (outsAt0 m c 511 n511).2.2.2.1 _ = (outsAt0 m c 511 n511).2.2.2.1 _
  refine congrArg (outsAt0 m c 511 n511).2.2.2.1 (funext fun a => Fin.ext ?_)
  match a with
  | ⟨0, h0⟩ => show (y ⟨0, h0⟩).val = win0_6.index t 0 * 1 + 1 * (y ⟨0, h0⟩).val; rw [hi.1]; omega
  | ⟨1, h1⟩ => show (y ⟨1, h1⟩).val = win0_6.index t 1 * 45 + 1 * (y ⟨1, h1⟩).val; rw [hi.2]; omega

theorem final6 (c : Dev nD) : (dats m 0 c).arrAt 6 cfg0.N = O6 m c :=
  (dats m 0 c).arrAt_eq_of_cover 6 (O6 m c) (flushed6 m c) fun i =>
    ⟨last, (flush0_6 last).mpr rfl, by
      show i ∈ ((View.whole main_v0_3).slice (win0_6.rect last)).set
      rw [View.set_slice_whole, Rect.mem_set_unit]
      intro a
      have h0 : (i 0 : Nat) < 1 := (i 0).isLt
      have h1 : (i 1 : Nat) < 45 := (i 1).isLt
      match a with
      | ⟨0, _⟩ =>
        show win0_6.index last 0 * win0_6.size 0 ≤ (i 0 : Nat) ∧ (i 0 : Nat) < win0_6.index last 0 * win0_6.size 0 + win0_6.xsize (grid0.coords last) 0
        rw [show win0_6.index last 0 * win0_6.size 0 = 0 from by decide +kernel, show win0_6.xsize (grid0.coords last) 0 = 1 from by decide +kernel]; omega
      | ⟨1, _⟩ =>
        show win0_6.index last 1 * win0_6.size 1 ≤ (i 1 : Nat) ∧ (i 1 : Nat) < win0_6.index last 1 * win0_6.size 1 + win0_6.xsize (grid0.coords last) 1
        rw [show win0_6.index last 1 * win0_6.size 1 = 0 from by decide +kernel, show win0_6.xsize (grid0.coords last) 1 = 45 from by decide +kernel]; omega⟩

/-- What output 7's block holds after the last point, as contents of the output array (the block is the array). -/
abbrev O7 (c : Dev nD) : Buf (Elt Ideal) ((c : Thread nD τ).loc main_v0_4) := (outsAt0 m c 511 n511).2.2.2.2

theorem flushed7 (c : Dev nD) (t : Fin cfg0.N) (hf : (cfg0.win 7).flush t = true) :
    (dats m 0 c).flushed 7 t = ((cfg0.win 7).blk t).view.read (Elt Ideal) (O7 m c) := by
  have hN : cfg0.N = 512 := N_0
  have h3 : t.val = 511 := by have := (flush0_7 t).mp hf; have := t.isLt; omega
  have hi := (idxOut t).2.2.2.2
  show (cfg0.win 7).cut (grid0.coords t) ((dats m 0 c).after 7 t) = _
  rw [after0_7, outs_cast m c t.isLt n511 h3]
  funext y
  rw [View.read_apply]
  show (outsAt0 m c 511 n511).2.2.2.2 _ = (outsAt0 m c 511 n511).2.2.2.2 _
  refine congrArg (outsAt0 m c 511 n511).2.2.2.2 (funext fun a => Fin.ext ?_)
  match a with
  | ⟨0, h0⟩ => show (y ⟨0, h0⟩).val = win0_7.index t 0 * 1 + 1 * (y ⟨0, h0⟩).val; rw [hi.1]; omega
  | ⟨1, h1⟩ => show (y ⟨1, h1⟩).val = win0_7.index t 1 * 45 + 1 * (y ⟨1, h1⟩).val; rw [hi.2]; omega

theorem final7 (c : Dev nD) : (dats m 0 c).arrAt 7 cfg0.N = O7 m c :=
  (dats m 0 c).arrAt_eq_of_cover 7 (O7 m c) (flushed7 m c) fun i =>
    ⟨last, (flush0_7 last).mpr rfl, by
      show i ∈ ((View.whole main_v0_4).slice (win0_7.rect last)).set
      rw [View.set_slice_whole, Rect.mem_set_unit]
      intro a
      have h0 : (i 0 : Nat) < 1 := (i 0).isLt
      have h1 : (i 1 : Nat) < 45 := (i 1).isLt
      match a with
      | ⟨0, _⟩ =>
        show win0_7.index last 0 * win0_7.size 0 ≤ (i 0 : Nat) ∧ (i 0 : Nat) < win0_7.index last 0 * win0_7.size 0 + win0_7.xsize (grid0.coords last) 0
        rw [show win0_7.index last 0 * win0_7.size 0 = 0 from by decide +kernel, show win0_7.xsize (grid0.coords last) 0 = 1 from by decide +kernel]; omega
      | ⟨1, _⟩ =>
        show win0_7.index last 1 * win0_7.size 1 ≤ (i 1 : Nat) ∧ (i 1 : Nat) < win0_7.index last 1 * win0_7.size 1 + win0_7.xsize (grid0.coords last) 1
        rw [show win0_7.index last 1 * win0_7.size 1 = 0 from by decide +kernel, show win0_7.xsize (grid0.coords last) 1 = 45 from by decide +kernel]; omega⟩

/-! ## The closing host lines -/

/-- The 47 host operations after the region, read at the result from any contents of the buffers: `Cert.Loss.tail` of
    the three small arrays' totals and the two 45-entry rows. -/
theorem tail_read (Wv : Valuation τ sig (Elt Ideal)) :
    StableHlo.after (List.flatten [hostOps1 (F := Ideal), hostOps1_1, hostOps1_2]) Wv (Proc.devRef .tc main_v28)
      = Cert.Loss.tail bcast_S_S45 reducesTo_S45_S_d0 h_S_
          (Host.reduceAdd (F := Ideal) (Wv (Proc.devRef .tc main_v0_0)) (constant (F := Ideal) S_ .f32 0x00000000#32) reducesTo_S1x10_S_d0_1 h_S_)
          (Host.reduceAdd (F := Ideal) (Wv (Proc.devRef .tc main_v0_1)) (constant (F := Ideal) S_ .f32 0x00000000#32) reducesTo_S1x9_S_d0_1 h_S_)
          (Host.reduceAdd (F := Ideal) (Wv (Proc.devRef .tc main_v0_2)) (constant (F := Ideal) S_ .f32 0x00000000#32) reducesTo_S1x8_S_d0_1 h_S_)
          (shapeCast S45 (Wv (Proc.devRef .tc main_v0_3)) shapeCasts_S1x45_S45)
          (shapeCast S45 (Wv (Proc.devRef .tc main_v0_4)) shapeCasts_S1x45_S45) := by
  simp only [hostOps1, hostOps1_1, hostOps1_2, List.flatten_cons, List.flatten_nil, List.append_nil, List.cons_append, List.nil_append]
  after_results_simp
  rfl

/-! ## The five totals are the totals over all rows -/

theorem tot3 (hB : BodyVals) (c : Dev nD) :
    Host.reduceAdd (F := Ideal) (O3 m c) (constant (F := Ideal) S_ .f32 0x00000000#32) reducesTo_S1x10_S_d0_1 h_S_
      = fun _ => zeroW + ∑ r : Fin 1048576, ∑ k : Fin 10, baseA (argP m c) (argT m c) (argW m c) r k := by
  funext i
  show Ideal.hostReduceAdd reducesTo_S1x10_S_d0_1 (O3 m c) zeroW i = _
  rw [Ideal.hostReduceAdd_total _ (fun b => b.elim0), sum_idx2, Fin.sum_univ_one, sum_rows_cols]
  refine congrArg (zeroW + ·) (Finset.sum_congr rfl fun k _ => ?_)
  refine (outs3_eq m hB c 511 n511 k).trans ?_
  rw [acc_eq, zeroW_eq, zero_add]
  rfl

theorem tot4 (hB : BodyVals) (c : Dev nD) :
    Host.reduceAdd (F := Ideal) (O4 m c) (constant (F := Ideal) S_ .f32 0x00000000#32) reducesTo_S1x9_S_d0_1 h_S_
      = fun _ => zeroW + ∑ r : Fin 1048576, ∑ k : Fin 9, dirA (argP m c) (argT m c) r k := by
  funext i
  show Ideal.hostReduceAdd reducesTo_S1x9_S_d0_1 (O4 m c) zeroW i = _
  rw [Ideal.hostReduceAdd_total _ (fun b => b.elim0), sum_idx2, Fin.sum_univ_one, sum_rows_cols]
  refine congrArg (zeroW + ·) (Finset.sum_congr rfl fun k _ => ?_)
  refine (outs4_eq m hB c 511 n511 k).trans ?_
  rw [acc_eq, zeroW_eq, zero_add]
  rfl

theorem tot5 (hB : BodyVals) (c : Dev nD) :
    Host.reduceAdd (F := Ideal) (O5 m c) (constant (F := Ideal) S_ .f32 0x00000000#32) reducesTo_S1x8_S_d0_1 h_S_
      = fun _ => zeroW + ∑ r : Fin 1048576, ∑ k : Fin 8, trendA (argP m c) (argT m c) r k := by
  funext i
  show Ideal.hostReduceAdd reducesTo_S1x8_S_d0_1 (O5 m c) zeroW i = _
  rw [Ideal.hostReduceAdd_total _ (fun b => b.elim0), sum_idx2, Fin.sum_univ_one, sum_rows_cols]
  refine congrArg (zeroW + ·) (Finset.sum_congr rfl fun k _ => ?_)
  refine (outs5_eq m hB c 511 n511 k).trans ?_
  rw [acc_eq, zeroW_eq, zero_add]
  rfl

theorem tot6 (hB : BodyVals) (c : Dev nD) :
    shapeCast S45 (O6 m c) shapeCasts_S1x45_S45
      = fun j => zeroW + ∑ r : Fin 1048576, errsigA (argP m c) (argT m c) r (j 0) := by
  funext j
  obtain ⟨j', rfl⟩ : ∃ j' : Fin 45, j = ix1 j' := ⟨j 0, eq_ix1 j⟩
  rw [shapeCast_1a_a_apply]
  refine (outs6_eq m hB c 511 n511 j').trans ?_
  rw [acc_eq, sum_rows]
  rfl

theorem tot7 (hB : BodyVals) (c : Dev nD) :
    shapeCast S45 (O7 m c) shapeCasts_S1x45_S45
      = fun j => zeroW + ∑ r : Fin 1048576, sigA (argT m c) r (j 0) := by
  funext j
  obtain ⟨j', rfl⟩ : ∃ j' : Fin 45, j = ix1 j' := ⟨j 0, eq_ix1 j⟩
  rw [shapeCast_1a_a_apply]
  refine (outs7_eq m hB c 511 n511 j').trans ?_
  rw [acc_eq, sum_rows]
  rfl

/-! ## The result -/

/-- The result buffer after the closing lines is the loss of the three argument arrays. -/
theorem tail_val (hB : BodyVals) (c : Dev nD) :
    Pipeline.afterTail₀ cfgs (dats m) 0 (V0 m) [hostOps1, hostOps1_1, hostOps1_2] c main_v28
      = Cert.Loss.loss (n := 1048576) bcast_S_S45 reducesTo_S45_S_d0 h_S_ (argP m c) (argT m c) (argW m c) := by
  have a3 : Pipeline.withArrays (cfgs 0).spec c (V0 m c) (fun w => (dats m 0 c).arrAt w (cfgs 0).N) (Proc.devRef .tc main_v0_0) = O3 m c :=
    (Pipeline.withArrays_arr spec0 launch0.win.arr_inj c (V0 m c) (fun w => (dats m 0 c).arrAt w cfg0.N) 3).trans (final3 m c)
  have a4 : Pipeline.withArrays (cfgs 0).spec c (V0 m c) (fun w => (dats m 0 c).arrAt w (cfgs 0).N) (Proc.devRef .tc main_v0_1) = O4 m c :=
    (Pipeline.withArrays_arr spec0 launch0.win.arr_inj c (V0 m c) (fun w => (dats m 0 c).arrAt w cfg0.N) 4).trans (final4 m c)
  have a5 : Pipeline.withArrays (cfgs 0).spec c (V0 m c) (fun w => (dats m 0 c).arrAt w (cfgs 0).N) (Proc.devRef .tc main_v0_2) = O5 m c :=
    (Pipeline.withArrays_arr spec0 launch0.win.arr_inj c (V0 m c) (fun w => (dats m 0 c).arrAt w cfg0.N) 5).trans (final5 m c)
  have a6 : Pipeline.withArrays (cfgs 0).spec c (V0 m c) (fun w => (dats m 0 c).arrAt w (cfgs 0).N) (Proc.devRef .tc main_v0_3) = O6 m c :=
    (Pipeline.withArrays_arr spec0 launch0.win.arr_inj c (V0 m c) (fun w => (dats m 0 c).arrAt w cfg0.N) 6).trans (final6 m c)
  have a7 : Pipeline.withArrays (cfgs 0).spec c (V0 m c) (fun w => (dats m 0 c).arrAt w (cfgs 0).N) (Proc.devRef .tc main_v0_4) = O7 m c :=
    (Pipeline.withArrays_arr spec0 launch0.win.arr_inj c (V0 m c) (fun w => (dats m 0 c).arrAt w cfg0.N) 7).trans (final7 m c)
  unfold Pipeline.afterTail₀
  rw [tail_read, a3, a4, a5, a6, a7, tot3 m hB c, tot4 m hB c, tot5 m hB c, tot6 m hB c, tot7 m hB c]
  rfl

/-- The kernel's run, read: the result buffer at the loss of the arguments, the arguments unchanged. -/
theorem run (hB : BodyVals) : θ_run defs (onTc (τ := τ) (main (F := Ideal))) ⟨m, fun _ => 0, ρ⟩ fun r => ∀ c : Dev nD,
      r.2.mem ((c : Thread nD τ).loc main_v28)
        = Cert.Loss.loss (n := 1048576) bcast_S_S45 reducesTo_S45_S_d0 h_S_ (argP m c) (argT m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v28 (Pipeline.mem_restRefs_of main_v28 rfl (fun w => by fin_cases w <;> decide))).trans (tail_val m hB c),
        ((h c).1 0).trans ((dats m 0 c).arrAt_in 0 rfl _),
        ((h c).1 1).trans ((dats m 0 c).arrAt_in 1 rfl _),
        ((h c).1 2).trans ((dats m 0 c).arrAt_in 2 rfl _)⟩)
    (run_main m ρ)

end Cert.KernelIdeal.Value

end
-- ==== Proof.KBodyPieces.lean ====
/-
  What one grid point leaves in each of the five accumulator blocks, as a pure term of the blocks it read.

  The body stores each accumulator exactly once, through the whole block, so what it leaves there is that
  store's payload: the block's previous contents (the zero block just stored, at the first grid point) plus
  the column sums of this block's terms. Generic in the float instance.
-/
import proofs.«164012_j67534065762422_2_alg».proof.Proof.Gen.KernelIdeal.Frame
import proofs.«164012_j67534065762422_2_alg».proof.Proof.LossTerms
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Loss Idealize.ShloMosaic Idealize.ShloMosaic.ValueIdx

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- The predictions' first-of-pair columns, joined: column j is column (pairA j) of the block. -/
def predI (x0 : Vec F S2048x10 .f32) : FVec F S2048x45 .f32 :=
  k0_pay25 x0 (k0_pay13 x0) (k0_pay14 x0) (k0_pay15 x0) (k0_pay16 x0) (k0_pay17 x0) (k0_pay18 x0) (k0_pay19 x0) (k0_pay20 x0) (k0_pay21 x0) (k0_pay22 x0) (k0_pay23 x0) (k0_pay24 x0)

/-- The predictions' second-of-pair columns, joined. -/
def predJ (x0 : Vec F S2048x10 .f32) : FVec F S2048x45 .f32 :=
  k0_pay52 x0 (k0_pay26 x0) (k0_pay27 x0) (k0_pay28 x0) (k0_pay29 x0) (k0_pay30 x0) (k0_pay31 x0) (k0_pay32 x0) (k0_pay33 x0) (k0_pay34 x0) (k0_pay35 x0) (k0_pay36 x0) (k0_pay37 x0) (k0_pay38 x0) (k0_pay39 x0) (k0_pay40 x0) (k0_pay41 x0) (k0_pay42 x0) (k0_pay43 x0) (k0_pay44 x0) (k0_pay45 x0) (k0_pay46 x0) (k0_pay47 x0) (k0_pay48 x0) (k0_pay49 x0) (k0_pay50 x0) (k0_pay51 x0)

/-- The targets' pair differences t_a - t_b, per pair. -/
def tdiff (x1 : Vec F S2048x10 .f32) : FVec F S2048x45 .f32 :=
  k0_pay94 x1 (k0_pay53 x1) (k0_pay54 x1) (k0_pay55 x1) (k0_pay56 x1) (k0_pay57 x1) (k0_pay58 x1) (k0_pay59 x1) (k0_pay60 x1) (k0_pay61 x1) (k0_pay62 x1) (k0_pay63 x1) (k0_pay64 x1) (k0_pay65 x1) (k0_pay66 x1) (k0_pay67 x1) (k0_pay68 x1) (k0_pay69 x1) (k0_pay70 x1) (k0_pay71 x1) (k0_pay72 x1) (k0_pay73 x1) (k0_pay74 x1) (k0_pay75 x1) (k0_pay76 x1) (k0_pay77 x1) (k0_pay78 x1) (k0_pay79 x1) (k0_pay80 x1) (k0_pay81 x1) (k0_pay82 x1) (k0_pay83 x1) (k0_pay84 x1) (k0_pay85 x1) (k0_pay86 x1) (k0_pay87 x1) (k0_pay88 x1) (k0_pay89 x1) (k0_pay90 x1) (k0_pay91 x1) (k0_pay92 x1)

/-- The significance bits [|t_a - t_b| > θ] as floats, per pair. -/
def sigV (x1 : Vec F S2048x10 .f32) : FVec F S2048x45 .f32 :=
  k0_pay95 x1 (k0_pay53 x1) (k0_pay54 x1) (k0_pay55 x1) (k0_pay56 x1) (k0_pay57 x1) (k0_pay58 x1) (k0_pay59 x1) (k0_pay60 x1) (k0_pay61 x1) (k0_pay62 x1) (k0_pay63 x1) (k0_pay64 x1) (k0_pay65 x1) (k0_pay66 x1) (k0_pay67 x1) (k0_pay68 x1) (k0_pay69 x1) (k0_pay70 x1) (k0_pay71 x1) (k0_pay72 x1) (k0_pay73 x1) (k0_pay74 x1) (k0_pay75 x1) (k0_pay76 x1) (k0_pay77 x1) (k0_pay78 x1) (k0_pay79 x1) (k0_pay80 x1) (k0_pay81 x1) (k0_pay82 x1) (k0_pay83 x1) (k0_pay84 x1) (k0_pay85 x1) (k0_pay86 x1) (k0_pay87 x1) (k0_pay88 x1) (k0_pay89 x1) (k0_pay90 x1) (k0_pay91 x1) (k0_pay92 x1)

/-- Every other grid point: block 3 holds its previous contents plus this block's column sums. -/
theorem pieceB3 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec F S2048x10 .f32) (x2 : Vec F S10 .f32) (xo3 : Vec F S1x10 .f32) (xo4 : Vec F S1x9 .f32) (xo5 : Vec F S1x8 .f32) (xo6 xo7 : Vec F S1x45 .f32) :
    out0_B_3 c i arg1 harg1 arg2 harg2 arg3 harg3 arg4 harg4 arg5 harg5 arg6 harg6 arg7 harg7 arg8 harg8 hc0 x0 x1 x2 xo3 xo4 xo5 xo6 xo7 = k0_pay8 x0 x1 x2 xo3 := by
  unfold out0_B_3
  rw [View.read_writes_eq_canon _ _ _ (cover0_B_3 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x10) hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]

/-- The first grid point: block 3 is cleared, read back, and holds zero plus this block's column sums. -/
theorem pieceA3 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec F S2048x10 .f32) (x2 : Vec F S10 .f32) :
    out0_A_3 c i arg1 harg1 arg2 harg2 arg3 harg3 arg4 harg4 arg5 harg5 arg6 harg6 arg7 harg7 arg8 harg8 hc0 x0 x1 x2 = k0_pay8 x0 x1 x2 k0_pay3 := by
  unfold out0_A_3
  rw [View.read_writes_eq_canon _ _ _ (cover0_A_3 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x10) hz2, View.readCov_unit_zero (S := S1x10) _ hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]

/-- Every other grid point: block 4 holds its previous contents plus this block's column sums. -/
theorem pieceB4 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec F S2048x10 .f32) (x2 : Vec F S10 .f32) (xo3 : Vec F S1x10 .f32) (xo4 : Vec F S1x9 .f32) (xo5 : Vec F S1x8 .f32) (xo6 xo7 : Vec F S1x45 .f32) :
    out0_B_4 c i arg1 harg1 arg2 harg2 arg3 harg3 arg4 harg4 arg5 harg5 arg6 harg6 arg7 harg7 arg8 harg8 hc0 x0 x1 x2 xo3 xo4 xo5 xo6 xo7 = k0_pay11 (k0_pay9 x1) (k0_pay10 x0 x1) xo4 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x9) hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]

/-- The first grid point: block 4 is cleared, read back, and holds zero plus this block's column sums. -/
theorem pieceA4 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec F S2048x10 .f32) (x2 : Vec F S10 .f32) :
    out0_A_4 c i arg1 harg1 arg2 harg2 arg3 harg3 arg4 harg4 arg5 harg5 arg6 harg6 arg7 harg7 arg8 harg8 hc0 x0 x1 x2 = k0_pay11 (k0_pay9 x1) (k0_pay10 x0 x1) k0_pay4 := by
  unfold out0_A_4
  rw [View.read_writes_eq_canon _ _ _ (cover0_A_4 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x9) hz2, View.readCov_unit_zero (S := S1x9) _ hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]

/-- Every other grid point: block 5 holds its previous contents plus this block's column sums. -/
theorem pieceB5 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec F S2048x10 .f32) (x2 : Vec F S10 .f32) (xo3 : Vec F S1x10 .f32) (xo4 : Vec F S1x9 .f32) (xo5 : Vec F S1x8 .f32) (xo6 xo7 : Vec F S1x45 .f32) :
    out0_B_5 c i arg1 harg1 arg2 harg2 arg3 harg3 arg4 harg4 arg5 harg5 arg6 harg6 arg7 harg7 arg8 harg8 hc0 x0 x1 x2 xo3 xo4 xo5 xo6 xo7 = k0_pay12 x0 x1 xo5 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x8) hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]

/-- The first grid point: block 5 is cleared, read back, and holds zero plus this block's column sums. -/
theorem pieceA5 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec F S2048x10 .f32) (x2 : Vec F S10 .f32) :
    out0_A_5 c i arg1 harg1 arg2 harg2 arg3 harg3 arg4 harg4 arg5 harg5 arg6 harg6 arg7 harg7 arg8 harg8 hc0 x0 x1 x2 = k0_pay12 x0 x1 k0_pay5 := by
  unfold out0_A_5
  rw [View.read_writes_eq_canon _ _ _ (cover0_A_5 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x8) hz2, View.readCov_unit_zero (S := S1x8) _ hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]

/-- Every other grid point: block 6 holds its previous contents plus this block's column sums. -/
theorem pieceB6 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec F S2048x10 .f32) (x2 : Vec F S10 .f32) (xo3 : Vec F S1x10 .f32) (xo4 : Vec F S1x9 .f32) (xo5 : Vec F S1x8 .f32) (xo6 xo7 : Vec F S1x45 .f32) :
    out0_B_6 c i arg1 harg1 arg2 harg2 arg3 harg3 arg4 harg4 arg5 harg5 arg6 harg6 arg7 harg7 arg8 harg8 hc0 x0 x1 x2 xo3 xo4 xo5 xo6 xo7 = k0_pay1 (k0_pay93 (predI x0) (predJ x0)) (tdiff x1) (sigV x1) xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x45) hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]
  rfl

/-- The first grid point: block 6 is cleared, read back, and holds zero plus this block's column sums. -/
theorem pieceA6 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec F S2048x10 .f32) (x2 : Vec F S10 .f32) :
    out0_A_6 c i arg1 harg1 arg2 harg2 arg3 harg3 arg4 harg4 arg5 harg5 arg6 harg6 arg7 harg7 arg8 harg8 hc0 x0 x1 x2 = k0_pay1 (k0_pay93 (predI x0) (predJ x0)) (tdiff x1) (sigV x1) k0_pay6 := by
  unfold out0_A_6
  rw [View.read_writes_eq_canon _ _ _ (cover0_A_6 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x45) hz2, View.readCov_unit_zero (S := S1x45) _ hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]
  rfl

/-- Every other grid point: block 7 holds its previous contents plus this block's column sums. -/
theorem pieceB7 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec F S2048x10 .f32) (x2 : Vec F S10 .f32) (xo3 : Vec F S1x10 .f32) (xo4 : Vec F S1x9 .f32) (xo5 : Vec F S1x8 .f32) (xo6 xo7 : Vec F S1x45 .f32) :
    out0_B_7 c i arg1 harg1 arg2 harg2 arg3 harg3 arg4 harg4 arg5 harg5 arg6 harg6 arg7 harg7 arg8 harg8 hc0 x0 x1 x2 xo3 xo4 xo5 xo6 xo7 = k0_pay2 (sigV x1) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x45) hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]
  rfl

/-- The first grid point: block 7 is cleared, read back, and holds zero plus this block's column sums. -/
theorem pieceA7 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec F S2048x10 .f32) (x2 : Vec F S10 .f32) :
    out0_A_7 c i arg1 harg1 arg2 harg2 arg3 harg3 arg4 harg4 arg5 harg5 arg6 harg6 arg7 harg7 arg8 harg8 hc0 x0 x1 x2 = k0_pay2 (sigV x1) k0_pay7 := by
  unfold out0_A_7
  rw [View.read_writes_eq_canon _ _ _ (cover0_A_7 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x45) hz2, View.readCov_unit_zero (S := S1x45) _ hz2]
  simp only [View.readAt_eq_ld, harg1.read_unread, harg2.read_unread, harg3.read_unread, harg4.read_unread, harg5.read_unread, harg6.read_unread, harg7.read_unread, harg8.read_unread, View.ld_unit_zero (S := S2048x10) hz2, View.ld_unit_zero (S := S10) hz1, View.ld_unit_zero (S := S1x10) hz2, View.ld_unit_zero (S := S1x9) hz2, View.ld_unit_zero (S := S1x8) hz2, View.ld_unit_zero (S := S1x45) hz2]
  rfl

end Cert.KernelIdeal.Body
end
-- ==== Proof.KBodyLib.lean ====
/-
  Reading steps shared by the five accumulators, over the extended reals.

  * an accumulator row plus the column sums of an m-row block, read at a column, is the row's entry plus the sum
    over the block's rows of that column's entries;
  * a one-bit comparison result widened to 32 bits and converted as a signed integer is the number 0 or 1;
  * columns [m, 1] joined along axis 1: the joined array at (r, j) is the j-th column at (r, 0).
-/
import proofs.«164012_j67534065762422_2_alg».proof.Proof.Gen.KernelIdeal.Frame
import proofs.«164012_j67534065762422_2_alg».proof.Proof.LossTerms

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Loss Idealize.ShloMosaic Idealize.ShloMosaic.ValueIdx

/-- An accumulator row plus the column sums of an m-row block, read at column k. -/
theorem acc_colsum_apply {m n : ℕ} (v : FVec Ideal ⟨2, ![m, n]⟩ .f32) (acc : FVec Ideal ⟨2, ![1, n]⟩ .f32)
    (h1 : (⟨2, ![1, n]⟩ : Shape).ShapeCasts ⟨2, ![1, n]⟩) (h2 : (⟨1, ![n]⟩ : Shape).ShapeCasts ⟨2, ![1, n]⟩)
    (hr : (⟨2, ![m, n]⟩ : Shape).Reduces [0] ⟨1, ![n]⟩) (hφ : FKind.Formats .f32)
    (hacc : (0x00000000#32 : BitVec 32) = FKind.add.neutral .f32 hφ) (k : Fin n) :
    addf (shapeCast ⟨2, ![1, n]⟩ acc h1)
        (shapeCast ⟨2, ![1, n]⟩ (multiReduction .add [0] ⟨1, ![n]⟩ v 0x00000000#32 hr hφ hacc) h2) (ix2 (0 : Fin 1) k)
      = acc (ix2 (0 : Fin 1) k) + ∑ r : Fin m, v (ix2 r k) := by
  rw [addf_apply, shapeCast_self, shapeCast_a_1a_apply, Ideal.multiReduction_add_single]
  congr 1
  refine Finset.sum_congr rfl fun r _ => congrArg v ?_
  funext a
  match a with
  | ⟨0, _⟩ => rfl
  | ⟨1, _⟩ => rfl

/-- A one-bit word widened to 32 bits and read as a signed integer is the number 0 or 1. -/
theorem sitofp_extui_bit (b : BitVec 1) (h : 1 < 32) :
    (FloatOps.sitofp (F := Ideal) .f32 (b.setWidth 32) : Ideal .f32) = bit b := by
  have e : (b.setWidth 32).toInt = (b.toNat : ℤ) := by
    by_cases hb : b = 1#1
    · subst hb; decide
    · obtain rfl := eq_zero_of_ne_one hb; decide
  show (((b.setWidth 32).toInt : ℝ) : EReal) = ((b.toNat : ℝ) : EReal)
  rw [e, Int.cast_natCast]

end Cert.KernelIdeal.Body
end
-- ==== Proof.KBodyBase.lean ====
/-
  The weighted squared error's accumulator: after one grid point, column k holds what it held (zero at the first
  point) plus the sum over the block's 2048 rows of (p - t)² · w at column k.
-/
import proofs.«164012_j67534065762422_2_alg».proof.Proof.Gen.KernelIdeal.Frame
import proofs.«164012_j67534065762422_2_alg».proof.Proof.LossTerms
import proofs.«164012_j67534065762422_2_alg».proof.Proof.KBodyPieces
import proofs.«164012_j67534065762422_2_alg».proof.Proof.KBodyLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Loss Idealize.ShloMosaic Idealize.ShloMosaic.ValueIdx

/-- The store's payload at column k. -/
theorem pay8_apply (x0 x1 : Vec Ideal S2048x10 .f32) (x2 : Vec Ideal S10 .f32) (acc : Vec Ideal S1x10 .f32) (k : Fin 10) :
    k0_pay8 x0 x1 x2 acc (ix2 (0 : Fin 1) k) = acc (ix2 (0 : Fin 1) k) + ∑ r : Fin 2048, baseA x0 x1 x2 r k := by
  unfold k0_pay8
  refine (acc_colsum_apply _ acc _ _ _ _ _ k).trans ?_
  congr 1
  refine Finset.sum_congr rfl fun r _ => ?_
  show (x0 (ix2 r k) - x1 (ix2 r k)) * (x0 (ix2 r k) - x1 (ix2 r k))
      * broadcastTo S2048x10 (shapeCast S1x10 x2 shapeCasts_S10_S1x10) broadcasts_S1x10_S2048x10 (ix2 r k) = _
  rw [broadcastTo_1b_ab_apply, shapeCast_a_1a_apply]
  rfl

theorem outB3 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec Ideal S2048x10 .f32) (x2 : Vec Ideal S10 .f32) (xo3 : Vec Ideal S1x10 .f32) (xo4 : Vec Ideal S1x9 .f32) (xo5 : Vec Ideal S1x8 .f32) (xo6 xo7 : Vec Ideal S1x45 .f32) (k : Fin 10) :
    out0_B_3 (F := Ideal) c i arg1 harg1 arg2 harg2 arg3 harg3 arg4 harg4 arg5 harg5 arg6 harg6 arg7 harg7 arg8 harg8 hc0 x0 x1 x2 xo3 xo4 xo5 xo6 xo7 (ix2 (0 : Fin 1) k)
      = xo3 (ix2 (0 : Fin 1) k) + ∑ r : Fin 2048, baseA x0 x1 x2 r k :=
  (congrFun (pieceB3 (F := Ideal) c i arg1 harg1 arg2 harg2 arg3 harg3 arg4 harg4 arg5 harg5 arg6 harg6 arg7 harg7 arg8 harg8 hc0 x0 x1 x2 xo3 xo4 xo5 xo6 xo7) (ix2 (0 : Fin 1) k)).trans (pay8_apply x0 x1 x2 xo3 k)

theorem outA3 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec Ideal S2048x10 .f32) (x2 : Vec Ideal S10 .f32) (k : Fin 10) :
    out0_A_3 (F := Ideal) c i arg1 harg1 arg2 harg2 arg3 harg3 arg4 harg4 arg5 harg5 arg6 harg6 arg7 harg7 arg8 harg8 hc0 x0 x1 x2 (ix2 (0 : Fin 1) k)
      = zeroW + ∑ r : Fin 2048, baseA x0 x1 x2 r k :=
  (congrFun (pieceA3 (F := Ideal) c i arg1 harg1 arg2 harg2 arg3 harg3 arg4 harg4 arg5 harg5 arg6 harg6 arg7 harg7 arg8 harg8 hc0 x0 x1 x2) (ix2 (0 : Fin 1) k)).trans (pay8_apply x0 x1 x2 (k0_pay3 (F := Ideal)) k)

end Cert.KernelIdeal.Body
end
-- ==== Proof.KBodyDir.lean ====
/-
  The direction term's accumulator: after one grid point, column k < 9 holds what it held (zero at the first point)
  plus the sum over the block's 2048 rows of [sign Δp ≠ sign Δt] · (1 + |Δt|), the differences between columns k+1, k.

  The kernel's sign is the selection "if |v| > 0 then (if v < 0 then -1 else 1) else v", which is the sign function at
  every extended real; its "ordered and not equal" comparison is the disequality, as no extended real is unordered.
-/
import proofs.«164012_j67534065762422_2_alg».proof.Proof.Gen.KernelIdeal.Frame
import proofs.«164012_j67534065762422_2_alg».proof.Proof.LossTerms
import proofs.«164012_j67534065762422_2_alg».proof.Proof.KBodyPieces
import proofs.«164012_j67534065762422_2_alg».proof.Proof.KBodyLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Loss Idealize.ShloMosaic Idealize.ShloMosaic.ValueIdx

theorem absf_apply' {s : Shape} (a : FVec Ideal s .f32) (i : s.Idx) : absf a i = absE (a i) := rfl
theorem absf_apply {s : Shape} (a : FVec Ideal s .f32) (i : s.Idx) : absf a i = FloatOps.absf (a i) := rfl

/-- The adjacent-column difference of a block at (r, k). -/
theorem pay9_apply (x1 : Vec Ideal S2048x10 .f32) (r : Fin 2048) (k : Fin 9) :
    k0_pay9 x1 (ix2 r k) = x1 (ix2 r (up1 k)) - x1 (ix2 r (lo9 k)) := by
  unfold k0_pay9
  rw [subf_apply, slice2_axis1_apply 1 x1 slices_S2048x10_o0_1_S2048x9 r k (up1 k) (Nat.add_comm _ _),
    slice2_axis1_apply 0 x1 slices_S2048x10_o0_0_S2048x9 r k (lo9 k) (Nat.zero_add _).symm]

/-- The two signs compared, as scalars. -/
theorem sign_ne_apply (a b : Ideal .f32) :
    FloatOps.cmpf .one
        (Scalar.select (FloatOps.cmpf .ogt (FloatOps.absf a) (Scalar.ofBits .f32 0x00000000#32))
          (Scalar.select (FloatOps.cmpf .olt a (Scalar.ofBits .f32 0x00000000#32)) (Scalar.ofBits .f32 0xBF800000#32)
            (Scalar.ofBits .f32 0x3F800000#32)) a)
        (Scalar.select (FloatOps.cmpf .ogt (FloatOps.absf b) (Scalar.ofBits .f32 0x00000000#32))
          (Scalar.select (FloatOps.cmpf .olt b (Scalar.ofBits .f32 0x00000000#32)) (Scalar.ofBits .f32 0xBF800000#32)
            (Scalar.ofBits .f32 0x3F800000#32)) b)
      = Ideal.cmp .une (Ideal.sign a) (Ideal.sign b) := by
  rw [Ideal.jnp_sign_eq_sign_f32, Ideal.jnp_sign_eq_sign_f32]
  rfl

/-- The mismatch bit, widened, at (r, k). -/
theorem pay10_apply (x0 x1 : Vec Ideal S2048x10 .f32) (r : Fin 2048) (k : Fin 9) :
    k0_pay10 x0 x1 (ix2 r k)
      = (Ideal.cmp .une (Ideal.sign (x0 (ix2 r (up1 k)) - x0 (ix2 r (lo9 k))))
          (Ideal.sign (x1 (ix2 r (up1 k)) - x1 (ix2 r (lo9 k))))).setWidth 32 := by
  have e0 := pay9_apply x0 r k
  have e1 := pay9_apply x1 r k
  unfold k0_pay9 at e0
  unfold k0_pay10
  simp only [extui_apply, cmpf_apply, select_apply, broadcast_apply, constant_apply, absf_apply, e0, e1]
  exact congrArg (BitVec.setWidth 32) (sign_ne_apply _ _)

/-- The store's payload at column k. -/
theorem pay11_apply (x0 x1 : Vec Ideal S2048x10 .f32) (acc : Vec Ideal S1x9 .f32) (k : Fin 9) :
    k0_pay11 (k0_pay9 x1) (k0_pay10 x0 x1) acc (ix2 (0 : Fin 1) k)
      = acc (ix2 (0 : Fin 1) k) + ∑ r : Fin 2048, dirA x0 x1 r k := by
  unfold k0_pay11
  refine (acc_colsum_apply _ acc _ _ _ _ _ k).trans ?_
  congr 1
  refine Finset.sum_congr rfl fun r _ => ?_
  rw [mulf_apply, sitofp_apply, addf_apply, broadcast_apply, absf_apply', pay10_apply, pay9_apply, sitofp_extui_bit _ natLt_1_32]
  rfl

theorem outB4 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec Ideal S2048x10 .f32) (x2 : Vec Ideal S10 .f32) (xo3 : Vec Ideal S1x10 .f32) (xo4 : Vec Ideal S1x9 .f32) (xo5 : Vec Ideal S1x8 .f32) (xo6 xo7 : Vec Ideal S1x45 .f32) (k : Fin 9) :
    out0_B_4 (F := Ideal) c i arg1 harg1 arg2 harg2 arg3 harg3 arg4 harg4 arg5 harg5 arg6 harg6 arg7 harg7 arg8 harg8 hc0 x0 x1 x2 xo3 xo4 xo5 xo6 xo7 (ix2 (0 : Fin 1) k)
      = xo4 (ix2 (0 : Fin 1) k) + ∑ r : Fin 2048, dirA x0 x1 r k :=
  (congrFun (pieceB4 (F := Ideal) c i arg1 harg1 arg2 harg2 arg3 harg3 arg4 harg4 arg5 harg5 arg6 harg6 arg7 harg7 arg8 harg8 hc0 x0 x1 x2 xo3 xo4 xo5 xo6 xo7) (ix2 (0 : Fin 1) k)).trans (pay11_apply x0 x1 xo4 k)

theorem outA4 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec Ideal S2048x10 .f32) (x2 : Vec Ideal S10 .f32) (k : Fin 9) :
    out0_A_4 (F := Ideal) c i arg1 harg1 arg2 harg2 arg3 harg3 arg4 harg4 arg5 harg5 arg6 harg6 arg7 harg7 arg8 harg8 hc0 x0 x1 x2 (ix2 (0 : Fin 1) k)
      = zeroW + ∑ r : Fin 2048, dirA x0 x1 r k :=
  (congrFun (pieceA4 (F := Ideal) c i arg1 harg1 arg2 harg2 arg3 harg3 arg4 harg4 arg5 harg5 arg6 harg6 arg7 harg7 arg8 harg8 hc0 x0 x1 x2) (ix2 (0 : Fin 1) k)).trans (pay11_apply x0 x1 (k0_pay4 (F := Ideal)) k)

end Cert.KernelIdeal.Body
end
-- ==== Proof.KBodyTrend.lean ====
/-
  The second-difference term's accumulator: after one grid point, column k < 8 holds what it held (zero at the first
  point) plus the sum over the block's 2048 rows of ((p₂ - 2p₁ + p₀) - (t₂ - 2t₁ + t₀))² at columns k+2, k+1, k.
-/
import proofs.«164012_j67534065762422_2_alg».proof.Proof.Gen.KernelIdeal.Frame
import proofs.«164012_j67534065762422_2_alg».proof.Proof.LossTerms
import proofs.«164012_j67534065762422_2_alg».proof.Proof.KBodyPieces
import proofs.«164012_j67534065762422_2_alg».proof.Proof.KBodyLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Loss Idealize.ShloMosaic Idealize.ShloMosaic.ValueIdx

/-- The store's payload at column k. -/
theorem pay12_apply (x0 x1 : Vec Ideal S2048x10 .f32) (acc : Vec Ideal S1x8 .f32) (k : Fin 8) :
    k0_pay12 x0 x1 acc (ix2 (0 : Fin 1) k) = acc (ix2 (0 : Fin 1) k) + ∑ r : Fin 2048, trendA x0 x1 r k := by
  unfold k0_pay12
  refine (acc_colsum_apply _ acc _ _ _ _ _ k).trans ?_
  congr 1
  refine Finset.sum_congr rfl fun r _ => ?_
  have s2 : ∀ X : Vec Ideal S2048x10 .f32,
      extractStridedSlice S2048x8 ![0, 2] X slices_S2048x10_o0_2_S2048x8 (ix2 r k) = X (ix2 r (up2 k)) :=
    fun X => slice2_axis1_apply 2 X slices_S2048x10_o0_2_S2048x8 r k (up2 k) (Nat.add_comm _ _)
  have s1 : ∀ X : Vec Ideal S2048x10 .f32,
      extractStridedSlice S2048x8 ![0, 1] X slices_S2048x10_o0_1_S2048x8 (ix2 r k) = X (ix2 r (mid8 k)) :=
    fun X => slice2_axis1_apply 1 X slices_S2048x10_o0_1_S2048x8 r k (mid8 k) (Nat.add_comm _ _)
  have s0 : ∀ X : Vec Ideal S2048x10 .f32,
      extractStridedSlice S2048x8 ![0, 0] X slices_S2048x10_o0_0_S2048x8 (ix2 r k) = X (ix2 r (lo8 k)) :=
    fun X => slice2_axis1_apply 0 X slices_S2048x10_o0_0_S2048x8 r k (lo8 k) (Nat.zero_add _).symm
  simp only [mulf_apply, subf_apply, addf_apply, broadcast_apply, s2, s1, s0]
  rfl

theorem outB5 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec Ideal S2048x10 .f32) (x2 : Vec Ideal S10 .f32) (xo3 : Vec Ideal S1x10 .f32) (xo4 : Vec Ideal S1x9 .f32) (xo5 : Vec Ideal S1x8 .f32) (xo6 xo7 : Vec Ideal S1x45 .f32) (k : Fin 8) :
    out0_B_5 (F := Ideal) c i arg1 harg1 arg2 harg2 arg3 harg3 arg4 harg4 arg5 harg5 arg6 harg6 arg7 harg7 arg8 harg8 hc0 x0 x1 x2 xo3 xo4 xo5 xo6 xo7 (ix2 (0 : Fin 1) k)
      = xo5 (ix2 (0 : Fin 1) k) + ∑ r : Fin 2048, trendA x0 x1 r k :=
  (congrFun (pieceB5 (F := Ideal) c i arg1 harg1 arg2 harg2 arg3 harg3 arg4 harg4 arg5 harg5 arg6 harg6 arg7 harg7 arg8 harg8 hc0 x0 x1 x2 xo3 xo4 xo5 xo6 xo7) (ix2 (0 : Fin 1) k)).trans (pay12_apply x0 x1 xo5 k)

theorem outA5 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec Ideal S2048x10 .f32) (x2 : Vec Ideal S10 .f32) (k : Fin 8) :
    out0_A_5 (F := Ideal) c i arg1 harg1 arg2 harg2 arg3 harg3 arg4 harg4 arg5 harg5 arg6 harg6 arg7 harg7 arg8 harg8 hc0 x0 x1 x2 (ix2 (0 : Fin 1) k)
      = zeroW + ∑ r : Fin 2048, trendA x0 x1 r k :=
  (congrFun (pieceA5 (F := Ideal) c i arg1 harg1 arg2 harg2 arg3 harg3 arg4 harg4 arg5 harg5 arg6 harg6 arg7 harg7 arg8 harg8 hc0 x0 x1 x2) (ix2 (0 : Fin 1) k)).trans (pay12_apply x0 x1 (k0_pay5 (F := Ideal)) k)

end Cert.KernelIdeal.Body
end
-- ==== Proof.LibJoinColumns.lean ====
/-
  Columns joined along axis 1 (for any row count m, any number N of columns and any element type).

  A list of arrays of shape [m, 1] concatenated along axis 1 into an [m, N] array, read at (r, j), is the j-th array of
  the list read at (r, 0): every piece has extent 1 along the axis, so the j pieces before the j-th take up j places.
-/

import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.JoinColumns

open Idealize.ShloMosaic Idealize.ShloMosaic.ValueIdx

/-- The extents along axis 1 of shapes that are all [m, 1] sum to their number. -/
theorem sum_unit_extents {m N : ℕ} : ∀ (l : List Shape), (∀ s ∈ l, s = (⟨2, ![m, 1]⟩ : Shape)) →
    (l.map fun s : Shape => if h : s.rank = (⟨2, ![m, N]⟩ : Shape).rank
        then s.size ((1 : Fin (⟨2, ![m, N]⟩ : Shape).rank).cast h.symm) else 0).sum = l.length
  | [], _ => rfl
  | s :: l, hl => by
    have hs : s = ⟨2, ![m, 1]⟩ := hl s (List.mem_cons_self ..)
    subst hs
    rw [List.map_cons, List.sum_cons, sum_unit_extents l (fun s hs => hl s (List.mem_cons_of_mem _ hs)), List.length_cons,
      dif_pos rfl]
    show 1 + l.length = l.length + 1
    omega

/-- Columns [m, 1] joined along axis 1, read at (r, j): the j-th column at (r, 0). -/
theorem concat_cols_apply {α : Type} {m N : ℕ} (xs : List ((s : Shape) × (s.Idx → α)))
    (h : Shape.Concatenates (xs.map (·.1)) ⟨2, ![m, N]⟩ 1)
    (hall : xs.map (·.1) = List.replicate xs.length (⟨2, ![m, 1]⟩ : Shape))
    (r : Fin m) (j : Fin N) (hj : j.val < xs.length) (x₁ : (⟨2, ![m, 1]⟩ : Shape).Idx → α)
    (hx : xs[j.val] = ⟨⟨2, ![m, 1]⟩, x₁⟩) :
    concatenate ⟨2, ![m, N]⟩ 1 xs h (ix2 r j) = x₁ (ix2 r (0 : Fin 1)) := by
  have hall' : ∀ s ∈ xs.map (·.1), s = (⟨2, ![m, 1]⟩ : Shape) := fun s hs => by
    rw [hall] at hs; exact List.eq_of_mem_replicate hs
  refine concatenate_apply_piece (1 : Fin (⟨2, ![m, N]⟩ : Shape).rank) xs h (ix2 r j) j.val hj ⟨2, ![m, 1]⟩ x₁ hx rfl j.val ?_
    (ix2 r (0 : Fin 1)) ?_ ?_
  · rw [List.map_take, sum_unit_extents _ (fun s hs => hall' s (List.mem_of_mem_take hs)), List.length_take, List.length_map]
    exact Nat.min_eq_left (le_of_lt hj)
  · intro b hb
    match b with
    | ⟨0, _⟩ => rfl
    | ⟨1, _⟩ => exact absurd (Fin.ext rfl) hb
  · rfl

end Cert.JoinColumns
end
-- ==== Proof.KBodyPairs.lean ====
/-
  The pair terms' two accumulators (the summed hinge and the count of significant pairs).

  The kernel gathers, for the 45 column pairs a < b in lexicographic order, the columns a and the columns b of the
  predictions and of the targets into four [2048, 45] arrays by joining 45 one-column slices. Column j of each join is
  column (pairA j), respectively (pairB j), of the block. With that, the pair difference, the significance bit and the
  hinge at (r, j) are the terms sigT and errsigT of row r at the pair j, and each accumulator's store leaves what it
  held plus the sum of its term over the block's rows.
-/
import proofs.«164012_j67534065762422_2_alg».proof.Proof.Gen.KernelIdeal.Frame
import proofs.«164012_j67534065762422_2_alg».proof.Proof.LossTerms
import proofs.«164012_j67534065762422_2_alg».proof.Proof.KBodyPieces
import proofs.«164012_j67534065762422_2_alg».proof.Proof.KBodyLib
import proofs.«164012_j67534065762422_2_alg».proof.Proof.LibJoinColumns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Loss Idealize.ShloMosaic Idealize.ShloMosaic.ValueIdx Cert.JoinColumns

theorem absf_at {s : Shape} (a : FVec Ideal s .f32) (i : s.Idx) : absf a i = absE (a i) := rfl

/-- The join lemma with the list's length given as an equation. -/
theorem join_cols {α : Type} {m N : ℕ} (xs : List ((s : Shape) × (s.Idx → α)))
    (h : Shape.Concatenates (xs.map (·.1)) ⟨2, ![m, N]⟩ 1)
    (hall : xs.map (·.1) = List.replicate xs.length (⟨2, ![m, 1]⟩ : Shape)) (hlen : xs.length = N)
    (r : Fin m) (j : Fin N) (x₁ : (⟨2, ![m, 1]⟩ : Shape).Idx → α)
    (hx : xs[j.val]'(lt_of_lt_of_eq j.isLt hlen.symm) = ⟨⟨2, ![m, 1]⟩, x₁⟩) :
    concatenate ⟨2, ![m, N]⟩ 1 xs h (ix2 r j) = x₁ (ix2 r (0 : Fin 1)) :=
  concat_cols_apply xs h hall r j (lt_of_lt_of_eq j.isLt hlen.symm) x₁ hx

/-- Column j of the predictions' first-of-pair join is column (pairA j) of the block. -/
theorem predI_apply (x0 : Vec Ideal S2048x10 .f32) (r : Fin 2048) (j : Fin 45) :
    predI x0 (ix2 r j) = x0 (ix2 r (pairA j)) := by
  unfold predI k0_pay25
  fin_cases j <;>
  · refine (join_cols _ _ (by rfl) (by rfl) r _ _ (by rfl)).trans ?_
    refine slice2_axis1_apply _ x0 (by decide) r 0 _ ?_
    rfl

/-- Column j of the predictions' second-of-pair join is column (pairB j) of the block. -/
theorem predJ_apply (x0 : Vec Ideal S2048x10 .f32) (r : Fin 2048) (j : Fin 45) :
    predJ x0 (ix2 r j) = x0 (ix2 r (pairB j)) := by
  unfold predJ k0_pay52
  fin_cases j <;>
  · refine (join_cols _ _ (by rfl) (by rfl) r _ _ (by rfl)).trans ?_
    refine slice2_axis1_apply _ x0 (by decide) r 0 _ ?_
    rfl

/-- The targets' pair difference at (r, j). -/
theorem tdiff_apply (x1 : Vec Ideal S2048x10 .f32) (r : Fin 2048) (j : Fin 45) :
    tdiff x1 (ix2 r j) = x1 (ix2 r (pairA j)) - x1 (ix2 r (pairB j)) := by
  unfold tdiff k0_pay94
  show subf _ _ (ix2 r j) = _
  rw [subf_apply]
  fin_cases j <;>
  · refine congrArg₂ (fun a b : Ideal .f32 => a - b) ?_ ?_
    · refine (join_cols _ _ (by rfl) (by rfl) r _ _ (by rfl)).trans ?_
      refine slice2_axis1_apply _ x1 (by decide) r 0 _ ?_
      rfl
    · refine (join_cols _ _ (by rfl) (by rfl) r _ _ (by rfl)).trans ?_
      refine slice2_axis1_apply _ x1 (by decide) r 0 _ ?_
      rfl

/-- The significance bit at (r, j), as a number. -/
theorem sigV_apply (x1 : Vec Ideal S2048x10 .f32) (r : Fin 2048) (j : Fin 45) :
    sigV x1 (ix2 r j) = sigA x1 r j := by
  show FloatOps.sitofp .f32
      ((FloatOps.cmpf .ogt (FloatOps.absf (tdiff x1 (ix2 r j))) (Scalar.ofBits .f32 0x3C23D70A#32)).setWidth 32) = _
  rw [tdiff_apply, sitofp_extui_bit _ (by decide)]
  rfl

theorem pay93_apply (a b : FVec Ideal S2048x45 .f32) (i : S2048x45.Idx) : k0_pay93 a b i = a i - b i := rfl

/-- The count's store at pair j. -/
theorem pay2_apply (x1 : Vec Ideal S2048x10 .f32) (acc : Vec Ideal S1x45 .f32) (j : Fin 45) :
    k0_pay2 (sigV x1) acc (ix2 (0 : Fin 1) j) = acc (ix2 (0 : Fin 1) j) + ∑ r : Fin 2048, sigA x1 r j := by
  unfold k0_pay2
  refine (acc_colsum_apply _ acc _ _ _ _ _ j).trans ?_
  refine congrArg (fun s : Ideal .f32 => acc (ix2 (0 : Fin 1) j) + s) ?_
  exact Finset.sum_congr rfl fun r _ => sigV_apply x1 r j

/-- The summed hinge's store at pair j. -/
theorem pay1_apply (x0 x1 : Vec Ideal S2048x10 .f32) (acc : Vec Ideal S1x45 .f32) (j : Fin 45) :
    k0_pay1 (k0_pay93 (predI x0) (predJ x0)) (tdiff x1) (sigV x1) acc (ix2 (0 : Fin 1) j)
      = acc (ix2 (0 : Fin 1) j) + ∑ r : Fin 2048, errsigA x0 x1 r j := by
  unfold k0_pay1
  refine (acc_colsum_apply _ acc _ _ _ _ _ j).trans ?_
  refine congrArg (fun s : Ideal .f32 => acc (ix2 (0 : Fin 1) j) + s) ?_
  refine Finset.sum_congr rfl fun r _ => ?_
  simp only [mulf_apply, maximumf_apply, subf_apply, divf_apply, addf_apply, absf_at, broadcast_apply, pay93_apply,
    predI_apply, predJ_apply, tdiff_apply, sigV_apply]
  rfl

theorem outB6 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec Ideal S2048x10 .f32) (x2 : Vec Ideal S10 .f32) (xo3 : Vec Ideal S1x10 .f32) (xo4 : Vec Ideal S1x9 .f32) (xo5 : Vec Ideal S1x8 .f32) (xo6 xo7 : Vec Ideal S1x45 .f32) (j : Fin 45) :
    out0_B_6 (F := Ideal) c i arg1 harg1 arg2 harg2 arg3 harg3 arg4 harg4 arg5 harg5 arg6 harg6 arg7 harg7 arg8 harg8 hc0 x0 x1 x2 xo3 xo4 xo5 xo6 xo7 (ix2 (0 : Fin 1) j)
      = xo6 (ix2 (0 : Fin 1) j) + ∑ r : Fin 2048, errsigA x0 x1 r j :=
  (congrFun (pieceB6 (F := Ideal) c i arg1 harg1 arg2 harg2 arg3 harg3 arg4 harg4 arg5 harg5 arg6 harg6 arg7 harg7 arg8 harg8 hc0 x0 x1 x2 xo3 xo4 xo5 xo6 xo7) (ix2 (0 : Fin 1) j)).trans (pay1_apply x0 x1 xo6 j)

theorem outA6 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec Ideal S2048x10 .f32) (x2 : Vec Ideal S10 .f32) (j : Fin 45) :
    out0_A_6 (F := Ideal) c i arg1 harg1 arg2 harg2 arg3 harg3 arg4 harg4 arg5 harg5 arg6 harg6 arg7 harg7 arg8 harg8 hc0 x0 x1 x2 (ix2 (0 : Fin 1) j)
      = zeroW + ∑ r : Fin 2048, errsigA x0 x1 r j :=
  (congrFun (pieceA6 (F := Ideal) c i arg1 harg1 arg2 harg2 arg3 harg3 arg4 harg4 arg5 harg5 arg6 harg6 arg7 harg7 arg8 harg8 hc0 x0 x1 x2) (ix2 (0 : Fin 1) j)).trans (pay1_apply x0 x1 (k0_pay6 (F := Ideal)) j)

theorem outB7 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 x1 : Vec Ideal S2048x10 .f32) (x2 : Vec Ideal S10 .f32) (xo3 : Vec Ideal S1x10 .f32) (xo4 : Vec Ideal S1x9 .f32) (xo5 : Vec Ideal S1x8 .f32) (xo6 xo7 : Vec Ideal S1x45 .f32) (j : Fin 45) :
    out0_B_7 (F := Ideal) c i arg1 harg1 arg2 harg2 arg3 harg3 arg4 harg4 arg5 harg5 arg6 harg6 arg7 harg7 arg8 harg8 hc0 x0 x1 x2 xo3 xo4 xo5 xo6 xo7 (ix2 (0 : Fin 1) j)
      = xo7 (ix2 (0 : Fin 1) j) + ∑ r : Fin 2048, sigA x1 r j :=
  (congrFun (pieceB7 (F := Ideal) c i arg1 harg1 arg2 harg2 arg3 harg3 arg4 harg4 arg5 harg5 arg6 harg6 arg7 harg7 arg8 harg8 hc0 x0 x1 x2 xo3 xo4 xo5 xo6 xo7) (ix2 (0 : Fin 1) j)).trans (pay2_apply x1 xo7 j)

theorem outA7 (c : Dev nD) (i : grid0.Coords) (arg1 : Memref sig .tc .vmem S2048x10 .f32) (harg1 : arg1.IsWhole) (arg2 : Memref sig .tc .vmem S2048x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 x1 : Vec Ideal S2048x10 .f32) (x2 : Vec Ideal S10 .f32) (j : Fin 45) :
    out0_A_7 (F := Ideal) c i arg1 harg1 arg2 harg2 arg3 harg3 arg4 harg4 arg5 harg5 arg6 harg6 arg7 harg7 arg8 harg8 hc0 x0 x1 x2 (ix2 (0 : Fin 1) j)
      = zeroW + ∑ r : Fin 2048, sigA x1 r j :=
  (congrFun (pieceA7 (F := Ideal) c i arg1 harg1 arg2 harg2 arg3 harg3 arg4 harg4 arg5 harg5 arg6 harg6 arg7 harg7 arg8 harg8 hc0 x0 x1 x2) (ix2 (0 : Fin 1) j)).trans (pay2_apply x1 (k0_pay7 (F := Ideal)) j)

end Cert.KernelIdeal.Body
end
-- ==== Proof.RefOps.lean ====
/-
  The reference program's @main as a list of its host operations, in order, and its run read back.

  @main is a straight line: each statement one operation that writes one buffer; the two module-local functions it calls
  (the rectifier, and the three-way choice) are listed inline at their call sites, their operations over the buffers of that
  call's record. From any memory with zero counters every weakly fair execution terminates, and each buffer then holds
  the fold of the operations over the contents at launch.
-/
import proofs.«164012_j67534065762422_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 137 operations, in order (the two calls' operations inline). -/
abbrev ops : List (HloOp τ sig (Elt F)) :=
  [ nullary main_c (fun i => lit0 (S45.rowMajor i)),
    nullary main_c_0 (constantI S45 1 0#1),
    nullary main_c_1 (fun i => lit1 (S45.rowMajor i)),
    nullary main_c_2 (constantI S45 1 0#1),
    nullary main_c_3 (constantI S45 1 0#1),
    nullary main_c_4 (constantI S45 1 0#1),
    binary main_arg0 main_arg1 main_v0 (subf : (⟨S1048576x10, .f32⟩ : BufTy).Contents (Elt F) → (⟨S1048576x10, .f32⟩ : BufTy).Contents (Elt F) → (⟨S1048576x10, .f32⟩ : BufTy).Contents (Elt F)),
    binary main_v0 main_v0 main_v1 (mulf : (⟨S1048576x10, .f32⟩ : BufTy).Contents (Elt F) → (⟨S1048576x10, .f32⟩ : BufTy).Contents (Elt F) → (⟨S1048576x10, .f32⟩ : BufTy).Contents (Elt F)),
    unary main_arg2 main_v2 (broadcastInDim S1x10 ![1] bcast_S10_S1x10_1 : (⟨S10, .f32⟩ : BufTy).Contents (Elt F) → (⟨S1x10, .f32⟩ : BufTy).Contents (Elt F)),
    unary main_v2 main_v3 (broadcastInDim S1048576x10 ![0, 1] bcast_S1x10_S1048576x10_0_1 : (⟨S1x10, .f32⟩ : BufTy).Contents (Elt F) → (⟨S1048576x10, .f32⟩ : BufTy).Contents (Elt F)),
    binary main_v1 main_v3 main_v4 (mulf : (⟨S1048576x10, .f32⟩ : BufTy).Contents (Elt F) → (⟨S1048576x10, .f32⟩ : BufTy).Contents (Elt F) → (⟨S1048576x10, .f32⟩ : BufTy).Contents (Elt F)),
    nullary main_cst (constant S_ .f32 0x00000000#32),
    binary main_v4 main_cst main_v5 ((fun x v => Host.reduceAdd x v reducesTo_S1048576x10_S_d0_1 h_S_) : (⟨S1048576x10, .f32⟩ : BufTy).Contents (Elt F) → (⟨S_, .f32⟩ : BufTy).Contents (Elt F) → (⟨S_, .f32⟩ : BufTy).Contents (Elt F)),
    nullary main_cst_5 (constant S_ .f32 0x4B200000#32),
    binary main_v5 main_cst_5 main_v6 (Host.divf : (⟨S_, .f32⟩ : BufTy).Contents (Elt F) → (⟨S_, .f32⟩ : BufTy).Contents (Elt F) → (⟨S_, .f32⟩ : BufTy).Contents (Elt F)),
    unary main_arg0 main_v7 ((extractStridedSlice S1048576x9 ![0, 1] · slices_S1048576x10_S1048576x9_0_1) : (⟨S1048576x10, .f32⟩ : BufTy).Contents (Elt F) → (⟨S1048576x9, .f32⟩ : BufTy).Contents (Elt F)),
    unary main_arg0 main_v8 ((extractStridedSlice S1048576x9 ![0, 0] · slices_S1048576x10_S1048576x9_0_0) : (⟨S1048576x10, .f32⟩ : BufTy).Contents (Elt F) → (⟨S1048576x9, .f32⟩ : BufTy).Contents (Elt F)),
    binary main_v7 main_v8 main_v9 (subf : (⟨S1048576x9, .f32⟩ : BufTy).Contents (Elt F) → (⟨S1048576x9, .f32⟩ : BufTy).Contents (Elt F) → (⟨S1048576x9, .f32⟩ : BufTy).Contents (Elt F)),
    unary main_arg1 main_v10 ((extractStridedSlice S1048576x9 ![0, 1] · slices_S1048576x10_S1048576x9_0_1) : (⟨S1048576x10, .f32⟩ : BufTy).Contents (Elt F) → (⟨S1048576x9, .f32⟩ : BufTy).Contents (Elt F)),
    unary main_arg1 main_v11 ((extractStridedSlice S1048576x9 ![0, 0] · slices_S1048576x10_S1048576x9_0_0) : (⟨S1048576x10, .f32⟩ : BufTy).Contents (Elt F) → (⟨S1048576x9, .f32⟩ : BufTy).Contents (Elt F)),
    binary main_v10 main_v11 main_v12 (subf : (⟨S1048576x9, .f32⟩ : BufTy).Contents (Elt F) → (⟨S1048576x9, .f32⟩ : BufTy).Contents (Elt F) → (⟨S1048576x9, .f32⟩ : BufTy).Contents (Elt F)),
    unary main_v9 main_v13 (Host.sign : (⟨S1048576x9, .f32⟩ : BufTy).Contents (Elt F) → (⟨S1048576x9, .f32⟩ : BufTy).Contents (Elt F)),
    unary main_v12 main_v14 (Host.sign : (⟨S1048576x9, .f32⟩ : BufTy).Contents (Elt F) → (⟨S1048576x9, .f32⟩ : BufTy).Contents (Elt F)),
    binary main_v13 main_v14 main_v15 (cmpf .une : (⟨S1048576x9, .f32⟩ : BufTy).Contents (Elt F) → (⟨S1048576x9, .f32⟩ : BufTy).Contents (Elt F) → (⟨S1048576x9, .i1⟩ : BufTy).Contents (Elt F)),
    unary main_v15 main_v16 (uitofp .f32 : (⟨S1048576x9, .i1⟩ : BufTy).Contents (Elt F) → (⟨S1048576x9, .f32⟩ : BufTy).Contents (Elt F)),
    unary main_v12 main_v17 (Host.absf : (⟨S1048576x9, .f32⟩ : BufTy).Contents (Elt F) → (⟨S1048576x9, .f32⟩ : BufTy).Contents (Elt F)),
    nullary main_cst_6 (constant S_ .f32 0x3F800000#32),
    unary main_cst_6 main_v18 (broadcastInDim S1048576x9 ![] bcast_S_S1048576x9 : (⟨S_, .f32⟩ : BufTy).Contents (Elt F) → (⟨S1048576x9, .f32⟩ : BufTy).Contents (Elt F)),
    binary main_v18 main_v17 main_v19 (addf : (⟨S1048576x9, .f32⟩ : BufTy).Contents (Elt F) → (⟨S1048576x9, .f32⟩ : BufTy).Contents (Elt F) → (⟨S1048576x9, .f32⟩ : BufTy).Contents (Elt F)),
    binary main_v16 main_v19 main_v20 (mulf : (⟨S1048576x9, .f32⟩ : BufTy).Contents (Elt F) → (⟨S1048576x9, .f32⟩ : BufTy).Contents (Elt F) → (⟨S1048576x9, .f32⟩ : BufTy).Contents (Elt F)),
    nullary main_cst_7 (constant S_ .f32 0x00000000#32),
    binary main_v20 main_cst_7 main_v21 ((fun x v => Host.reduceAdd x v reducesTo_S1048576x9_S_d0_1 h_S_) : (⟨S1048576x9, .f32⟩ : BufTy).Contents (Elt F) → (⟨S_, .f32⟩ : BufTy).Contents (Elt F) → (⟨S_, .f32⟩ : BufTy).Contents (Elt F)),
    nullary main_cst_8 (constant S_ .f32 0x4B100000#32),
    binary main_v21 main_cst_8 main_v22 (Host.divf : (⟨S_, .f32⟩ : BufTy).Contents (Elt F) → (⟨S_, .f32⟩ : BufTy).Contents (Elt F) → (⟨S_, .f32⟩ : BufTy).Contents (Elt F)),
    unary main_arg0 main_v23 ((extractStridedSlice S1048576x8 ![0, 2] · slices_S1048576x10_S1048576x8_0_2) : (⟨S1048576x10, .f32⟩ : BufTy).Contents (Elt F) → (⟨S1048576x8, .f32⟩ : BufTy).Contents (Elt F)),
    unary main_arg0 main_v24 ((extractStridedSlice S1048576x8 ![0, 1] · slices_S1048576x10_S1048576x8_0_1) : (⟨S1048576x10, .f32⟩ : BufTy).Contents (Elt F) → (⟨S1048576x8, .f32⟩ : BufTy).Contents (Elt F)),
    nullary main_cst_9 (constant S_ .f32 0x40000000#32),
    unary main_cst_9 main_v25 (broadcastInDim S1048576x8 ![] bcast_S_S1048576x8 : (⟨S_, .f32⟩ : BufTy).Contents (Elt F) → (⟨S1048576x8, .f32⟩ : BufTy).Contents (Elt F)),
    binary main_v25 main_v24 main_v26 (mulf : (⟨S1048576x8, .f32⟩ : BufTy).Contents (Elt F) → (⟨S1048576x8, .f32⟩ : BufTy).Contents (Elt F) → (⟨S1048576x8, .f32⟩ : BufTy).Contents (Elt F)),
    binary main_v23 main_v26 main_v27 (subf : (⟨S1048576x8, .f32⟩ : BufTy).Contents (Elt F) → (⟨S1048576x8, .f32⟩ : BufTy).Contents (Elt F) → (⟨S1048576x8, .f32⟩ : BufTy).Contents (Elt F)),
    unary main_arg0 main_v28 ((extractStridedSlice S1048576x8 ![0, 0] · slices_S1048576x10_S1048576x8_0_0) : (⟨S1048576x10, .f32⟩ : BufTy).Contents (Elt F) → (⟨S1048576x8, .f32⟩ : BufTy).Contents (Elt F)),
    binary main_v27 main_v28 main_v29 (addf : (⟨S1048576x8, .f32⟩ : BufTy).Contents (Elt F) → (⟨S1048576x8, .f32⟩ : BufTy).Contents (Elt F) → (⟨S1048576x8, .f32⟩ : BufTy).Contents (Elt F)),
    unary main_arg1 main_v30 ((extractStridedSlice S1048576x8 ![0, 2] · slices_S1048576x10_S1048576x8_0_2) : (⟨S1048576x10, .f32⟩ : BufTy).Contents (Elt F) → (⟨S1048576x8, .f32⟩ : BufTy).Contents (Elt F)),
    unary main_arg1 main_v31 ((extractStridedSlice S1048576x8 ![0, 1] · slices_S1048576x10_S1048576x8_0_1) : (⟨S1048576x10, .f32⟩ : BufTy).Contents (Elt F) → (⟨S1048576x8, .f32⟩ : BufTy).Contents (Elt F)),
    nullary main_cst_10 (constant S_ .f32 0x40000000#32),
    unary main_cst_10 main_v32 (broadcastInDim S1048576x8 ![] bcast_S_S1048576x8 : (⟨S_, .f32⟩ : BufTy).Contents (Elt F) → (⟨S1048576x8, .f32⟩ : BufTy).Contents (Elt F)),
    binary main_v32 main_v31 main_v33 (mulf : (⟨S1048576x8, .f32⟩ : BufTy).Contents (Elt F) → (⟨S1048576x8, .f32⟩ : BufTy).Contents (Elt F) → (⟨S1048576x8, .f32⟩ : BufTy).Contents (Elt F)),
    binary main_v30 main_v33 main_v34 (subf : (⟨S1048576x8, .f32⟩ : BufTy).Contents (Elt F) → (⟨S1048576x8, .f32⟩ : BufTy).Contents (Elt F) → (⟨S1048576x8, .f32⟩ : BufTy).Contents (Elt F)),
    unary main_arg1 main_v35 ((extractStridedSlice S1048576x8 ![0, 0] · slices_S1048576x10_S1048576x8_0_0) : (⟨S1048576x10, .f32⟩ : BufTy).Contents (Elt F) → (⟨S1048576x8, .f32⟩ : BufTy).Contents (Elt F)),
    binary main_v34 main_v35 main_v36 (addf : (⟨S1048576x8, .f32⟩ : BufTy).Contents (Elt F) → (⟨S1048576x8, .f32⟩ : BufTy).Contents (Elt F) → (⟨S1048576x8, .f32⟩ : BufTy).Contents (Elt F)),
    binary main_v29 main_v36 main_v37 (subf : (⟨S1048576x8, .f32⟩ : BufTy).Contents (Elt F) → (⟨S1048576x8, .f32⟩ : BufTy).Contents (Elt F) → (⟨S1048576x8, .f32⟩ : BufTy).Contents (Elt F)),
    binary main_v37 main_v37 main_v38 (mulf : (⟨S1048576x8, .f32⟩ : BufTy).Contents (Elt F) → (⟨S1048576x8, .f32⟩ : BufTy).Contents (Elt F) → (⟨S1048576x8, .f32⟩ : BufTy).Contents (Elt F)),
    nullary main_cst_11 (constant S_ .f32 0x00000000#32),
    binary main_v38 main_cst_11 main_v39 ((fun x v => Host.reduceAdd x v reducesTo_S1048576x8_S_d0_1 h_S_) : (⟨S1048576x8, .f32⟩ : BufTy).Contents (Elt F) → (⟨S_, .f32⟩ : BufTy).Contents (Elt F) → (⟨S_, .f32⟩ : BufTy).Contents (Elt F)),
    nullary main_cst_12 (constant S_ .f32 0x4B000000#32),
    binary main_v39 main_cst_12 main_v40 (Host.divf : (⟨S_, .f32⟩ : BufTy).Contents (Elt F) → (⟨S_, .f32⟩ : BufTy).Contents (Elt F) → (⟨S_, .f32⟩ : BufTy).Contents (Elt F)),
    nullary main_c_13 (constantI S_ 32 10#32),
    unary main_c_13 main_v41 (broadcastInDim S45 ![] bcast_S_S45 : (⟨S_, .i32⟩ : BufTy).Contents (Elt F) → (⟨S45, .i32⟩ : BufTy).Contents (Elt F)),
    binary main_c main_v41 main_v42 (addi : (⟨S45, .i32⟩ : BufTy).Contents (Elt F) → (⟨S45, .i32⟩ : BufTy).Contents (Elt F) → (⟨S45, .i32⟩ : BufTy).Contents (Elt F)),
    ternary main_c_0 main_v42 main_c main_v43 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v43 main_v44 (broadcastInDim S45x1 ![0] bcast_S45_S45x1_0 : (⟨S45, .i32⟩ : BufTy).Contents (Elt F) → (⟨S45x1, .i32⟩ : BufTy).Contents (Elt F)),
    binary main_arg1 main_v44 main_v45 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    nullary main_c_14 (constantI S_ 32 10#32),
    unary main_c_14 main_v46 (broadcastInDim S45 ![] bcast_S_S45 : (⟨S_, .i32⟩ : BufTy).Contents (Elt F) → (⟨S45, .i32⟩ : BufTy).Contents (Elt F)),
    binary main_c_1 main_v46 main_v47 (addi : (⟨S45, .i32⟩ : BufTy).Contents (Elt F) → (⟨S45, .i32⟩ : BufTy).Contents (Elt F) → (⟨S45, .i32⟩ : BufTy).Contents (Elt F)),
    ternary main_c_2 main_v47 main_c_1 main_v48 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v48 main_v49 (broadcastInDim S45x1 ![0] bcast_S45_S45x1_0 : (⟨S45, .i32⟩ : BufTy).Contents (Elt F) → (⟨S45x1, .i32⟩ : BufTy).Contents (Elt F)),
    binary main_arg1 main_v49 main_v50 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    binary main_v45 main_v50 main_v51 (subf : (⟨S1048576x45, .f32⟩ : BufTy).Contents (Elt F) → (⟨S1048576x45, .f32⟩ : BufTy).Contents (Elt F) → (⟨S1048576x45, .f32⟩ : BufTy).Contents (Elt F)),
    nullary main_c_15 (constantI S_ 32 10#32),
    unary main_c_15 main_v52 (broadcastInDim S45 ![] bcast_S_S45 : (⟨S_, .i32⟩ : BufTy).Contents (Elt F) → (⟨S45, .i32⟩ : BufTy).Contents (Elt F)),
    binary main_c main_v52 main_v53 (addi : (⟨S45, .i32⟩ : BufTy).Contents (Elt F) → (⟨S45, .i32⟩ : BufTy).Contents (Elt F) → (⟨S45, .i32⟩ : BufTy).Contents (Elt F)),
    ternary main_c_3 main_v53 main_c main_v54 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v54 main_v55 (broadcastInDim S45x1 ![0] bcast_S45_S45x1_0 : (⟨S45, .i32⟩ : BufTy).Contents (Elt F) → (⟨S45x1, .i32⟩ : BufTy).Contents (Elt F)),
    binary main_arg0 main_v55 main_v56 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    nullary main_c_16 (constantI S_ 32 10#32),
    unary main_c_16 main_v57 (broadcastInDim S45 ![] bcast_S_S45 : (⟨S_, .i32⟩ : BufTy).Contents (Elt F) → (⟨S45, .i32⟩ : BufTy).Contents (Elt F)),
    binary main_c_1 main_v57 main_v58 (addi : (⟨S45, .i32⟩ : BufTy).Contents (Elt F) → (⟨S45, .i32⟩ : BufTy).Contents (Elt F) → (⟨S45, .i32⟩ : BufTy).Contents (Elt F)),
    ternary main_c_4 main_v58 main_c_1 main_v59 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v59 main_v60 (broadcastInDim S45x1 ![0] bcast_S45_S45x1_0 : (⟨S45, .i32⟩ : BufTy).Contents (Elt F) → (⟨S45x1, .i32⟩ : BufTy).Contents (Elt F)),
    binary main_arg0 main_v60 main_v61 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    binary main_v56 main_v61 main_v62 (subf : (⟨S1048576x45, .f32⟩ : BufTy).Contents (Elt F) → (⟨S1048576x45, .f32⟩ : BufTy).Contents (Elt F) → (⟨S1048576x45, .f32⟩ : BufTy).Contents (Elt F)),
    unary main_v51 main_v63 (Host.absf : (⟨S1048576x45, .f32⟩ : BufTy).Contents (Elt F) → (⟨S1048576x45, .f32⟩ : BufTy).Contents (Elt F)),
    nullary main_cst_17 (constant S_ .f32 0x3C23D70A#32),
    unary main_cst_17 main_v64 (broadcastInDim S1048576x45 ![] bcast_S_S1048576x45 : (⟨S_, .f32⟩ : BufTy).Contents (Elt F) → (⟨S1048576x45, .f32⟩ : BufTy).Contents (Elt F)),
    binary main_v63 main_v64 main_v65 (cmpf .ogt : (⟨S1048576x45, .f32⟩ : BufTy).Contents (Elt F) → (⟨S1048576x45, .f32⟩ : BufTy).Contents (Elt F) → (⟨S1048576x45, .i1⟩ : BufTy).Contents (Elt F)),
    unary main_v65 main_v66 (uitofp .f32 : (⟨S1048576x45, .i1⟩ : BufTy).Contents (Elt F) → (⟨S1048576x45, .f32⟩ : BufTy).Contents (Elt F)),
    binary main_v51 main_v62 main_v67 (mulf : (⟨S1048576x45, .f32⟩ : BufTy).Contents (Elt F) → (⟨S1048576x45, .f32⟩ : BufTy).Contents (Elt F) → (⟨S1048576x45, .f32⟩ : BufTy).Contents (Elt F)),
    unary main_v51 main_v68 (Host.absf : (⟨S1048576x45, .f32⟩ : BufTy).Contents (Elt F) → (⟨S1048576x45, .f32⟩ : BufTy).Contents (Elt F)),
    nullary main_cst_18 (constant S_ .f32 0x322BCC77#32),
    unary main_cst_18 main_v69 (broadcastInDim S1048576x45 ![] bcast_S_S1048576x45 : (⟨S_, .f32⟩ : BufTy).Contents (Elt F) → (⟨S1048576x45, .f32⟩ : BufTy).Contents (Elt F)),
    binary main_v68 main_v69 main_v70 (addf : (⟨S1048576x45, .f32⟩ : BufTy).Contents (Elt F) → (⟨S1048576x45, .f32⟩ : BufTy).Contents (Elt F) → (⟨S1048576x45, .f32⟩ : BufTy).Contents (Elt F)),
    binary main_v67 main_v70 main_v71 (Host.divf : (⟨S1048576x45, .f32⟩ : BufTy).Contents (Elt F) → (⟨S1048576x45, .f32⟩ : BufTy).Contents (Elt F) → (⟨S1048576x45, .f32⟩ : BufTy).Contents (Elt F)),
    nullary main_cst_19 (constant S_ .f32 0x3F800000#32),
    unary main_cst_19 main_v72 (broadcastInDim S1048576x45 ![] bcast_S_S1048576x45 : (⟨S_, .f32⟩ : BufTy).Contents (Elt F) → (⟨S1048576x45, .f32⟩ : BufTy).Contents (Elt F)),
    binary main_v72 main_v71 main_v73 (subf : (⟨S1048576x45, .f32⟩ : BufTy).Contents (Elt F) → (⟨S1048576x45, .f32⟩ : BufTy).Contents (Elt F) → (⟨S1048576x45, .f32⟩ : BufTy).Contents (Elt F)),
    TRef.nullary main_call0.cst (constant S_ .f32 0x00000000#32),
    TRef.unary main_call0.cst main_call0.v0 (broadcastInDim S1048576x45 ![] bcast_S_S1048576x45),
    TRef.binary (.of main_v73) main_call0.v0 main_call0.v1 maximumf,
    nullary main_cst_20 (constant S_ .f32 0x00000000#32),
    binary main_v66 main_cst_20 main_v75 ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)),
    nullary main_cst_21 (constant S_ .f32 0x00000000#32),
    unary main_cst_21 main_v76 (broadcastInDim S45 ![] bcast_S_S45 : (⟨S_, .f32⟩ : BufTy).Contents (Elt F) → (⟨S45, .f32⟩ : BufTy).Contents (Elt F)),
    binary main_v75 main_v76 main_v77 (cmpf .ogt : (⟨S45, .f32⟩ : BufTy).Contents (Elt F) → (⟨S45, .f32⟩ : BufTy).Contents (Elt F) → (⟨S45, .i1⟩ : BufTy).Contents (Elt F)),
    binary main_v74 main_v66 main_v78 (mulf : (⟨S1048576x45, .f32⟩ : BufTy).Contents (Elt F) → (⟨S1048576x45, .f32⟩ : BufTy).Contents (Elt F) → (⟨S1048576x45, .f32⟩ : BufTy).Contents (Elt F)),
    nullary main_cst_22 (constant S_ .f32 0x00000000#32),
    binary main_v78 main_cst_22 main_v79 ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)),
    nullary main_cst_23 (constant S_ .f32 0x3F800000#32),
    unary main_cst_23 main_v80 (broadcastInDim S45 ![] bcast_S_S45 : (⟨S_, .f32⟩ : BufTy).Contents (Elt F) → (⟨S45, .f32⟩ : BufTy).Contents (Elt F)),
    binary main_v75 main_v80 main_v81 (maximumf : (⟨S45, .f32⟩ : BufTy).Contents (Elt F) → (⟨S45, .f32⟩ : BufTy).Contents (Elt F) → (⟨S45, .f32⟩ : BufTy).Contents (Elt F)),
    binary main_v79 main_v81 main_v82 (Host.divf : (⟨S45, .f32⟩ : BufTy).Contents (Elt F) → (⟨S45, .f32⟩ : BufTy).Contents (Elt F) → (⟨S45, .f32⟩ : BufTy).Contents (Elt F)),
    nullary main_cst_24 (constant S_ .f32 0x00000000#32),
    TRef.unary (.of main_cst_24) main_call1.v0 id,
    TRef.unary main_call1.v0 main_call1.v1 (broadcastInDim S45 ![] bcast_S_S45),
    TRef.ternary (.of main_v77) (.of main_v82) main_call1.v1 main_call1.v2 select,
    nullary main_cst_25 (constant S_ .f32 0x00000000#32),
    unary main_cst_25 main_v84 (broadcastInDim S45 ![] bcast_S_S45 : (⟨S_, .f32⟩ : BufTy).Contents (Elt F) → (⟨S45, .f32⟩ : BufTy).Contents (Elt F)),
    binary main_v75 main_v84 main_v85 (cmpf .ogt : (⟨S45, .f32⟩ : BufTy).Contents (Elt F) → (⟨S45, .f32⟩ : BufTy).Contents (Elt F) → (⟨S45, .i1⟩ : BufTy).Contents (Elt F)),
    unary main_v85 main_v86 (uitofp .f32 : (⟨S45, .i1⟩ : BufTy).Contents (Elt F) → (⟨S45, .f32⟩ : BufTy).Contents (Elt F)),
    nullary main_cst_26 (constant S_ .f32 0x00000000#32),
    binary main_v86 main_cst_26 main_v87 ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)),
    nullary main_cst_27 (constant S_ .f32 0x00000000#32),
    binary main_v83 main_cst_27 main_v88 ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)),
    nullary main_cst_28 (constant S_ .f32 0x3F800000#32),
    binary main_v87 main_cst_28 main_v89 (maximumf : (⟨S_, .f32⟩ : BufTy).Contents (Elt F) → (⟨S_, .f32⟩ : BufTy).Contents (Elt F) → (⟨S_, .f32⟩ : BufTy).Contents (Elt F)),
    binary main_v88 main_v89 main_v90 (Host.divf : (⟨S_, .f32⟩ : BufTy).Contents (Elt F) → (⟨S_, .f32⟩ : BufTy).Contents (Elt F) → (⟨S_, .f32⟩ : BufTy).Contents (Elt F)),
    nullary main_cst_29 (constant S_ .f32 0x3F800000#32),
    binary main_cst_29 main_v6 main_v91 (mulf : (⟨S_, .f32⟩ : BufTy).Contents (Elt F) → (⟨S_, .f32⟩ : BufTy).Contents (Elt F) → (⟨S_, .f32⟩ : BufTy).Contents (Elt F)),
    nullary main_cst_30 (constant S_ .f32 0x3E99999A#32),
    binary main_cst_30 main_v22 main_v92 (mulf : (⟨S_, .f32⟩ : BufTy).Contents (Elt F) → (⟨S_, .f32⟩ : BufTy).Contents (Elt F) → (⟨S_, .f32⟩ : BufTy).Contents (Elt F)),
    binary main_v91 main_v92 main_v93 (addf : (⟨S_, .f32⟩ : BufTy).Contents (Elt F) → (⟨S_, .f32⟩ : BufTy).Contents (Elt F) → (⟨S_, .f32⟩ : BufTy).Contents (Elt F)),
    nullary main_cst_31 (constant S_ .f32 0x3E4CCCCD#32),
    binary main_cst_31 main_v40 main_v94 (mulf : (⟨S_, .f32⟩ : BufTy).Contents (Elt F) → (⟨S_, .f32⟩ : BufTy).Contents (Elt F) → (⟨S_, .f32⟩ : BufTy).Contents (Elt F)),
    binary main_v93 main_v94 main_v95 (addf : (⟨S_, .f32⟩ : BufTy).Contents (Elt F) → (⟨S_, .f32⟩ : BufTy).Contents (Elt F) → (⟨S_, .f32⟩ : BufTy).Contents (Elt F)),
    nullary main_cst_32 (constant S_ .f32 0x3DCCCCCD#32),
    binary main_cst_32 main_v90 main_v96 (mulf : (⟨S_, .f32⟩ : BufTy).Contents (Elt F) → (⟨S_, .f32⟩ : BufTy).Contents (Elt F) → (⟨S_, .f32⟩ : BufTy).Contents (Elt F)),
    binary main_v95 main_v96 main_v97 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: its three windows and the two functions' bodies unfolded, both sides are one chain of
    operation steps once sequencing is reassociated. -/
theorem main_eq (c : Dev nD) : main (F := F) c = seq ops := by
  simp only [main, main_part0, main_part1, main_part2, fn_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., binary_bufs_sub .., binary_bufs_sub .., unary_bufs_sub .., unary_bufs_sub .., binary_bufs_sub .., nullary_bufs_sub .., binary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., binary_bufs_sub .., nullary_bufs_sub .., binary_bufs_sub .., nullary_bufs_sub .., binary_bufs_sub .., unary_bufs_sub .., unary_bufs_sub .., nullary_bufs_sub .., unary_bufs_sub .., binary_bufs_sub .., binary_bufs_sub .., unary_bufs_sub .., binary_bufs_sub .., unary_bufs_sub .., unary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩

set_option maxRecDepth 8192 in
/-- From any memory with zero counters every weakly fair execution of @main terminates, and every final state has each
    buffer at the operations' fold over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefArrays.lean ====
/-
  The reference program's five stage arrays as whole-array terms: each is the composition, operation for operation, of
  the lines of the program that compute it, over the predictions `P`, the targets `T` (both 1048576 × 10) and the ten
  column weights `W`, at the ideal instance (a float an extended real).

    * `baseArr P T W`   (1048576 × 10): (P − T)² times the weights, broadcast along the rows;
    * `dirArr P T`      (1048576 × 9):  [sign ΔP ≠ sign ΔT] · (1 + |ΔT|), Δ the difference of adjacent columns;
    * `trendArr P T`    (1048576 × 8):  the squared difference of the two second differences;
    * `sigArr T`        (1048576 × 45): [|T_a − T_b| > θ] over the 45 column pairs a < b, the columns gathered;
    * `errsigArr P T`   (1048576 × 45): max (1 − (T_a − T_b)(P_a − P_b) / (|T_a − T_b| + ε)) 0 times that bit.
-/
import proofs.«164012_j67534065762422_2_alg».proof.Proof.Gen.ReferenceIdeal
import Idealize.ShloMosaic.PureOps.Ideal

noncomputable section

namespace Cert.ReferenceIdeal.RefArr

open Cert.ReferenceIdeal Cert.ReferenceIdeal.Facts₀ Idealize.ShloMosaic

/-! ## The weighted squared error -/

/-- The weights as one row, then along every row. -/
def wArr (W : FVec Ideal S10 .f32) : FVec Ideal S1048576x10 .f32 :=
  broadcastInDim S1048576x10 ![0, 1] bcast_S1x10_S1048576x10_0_1 (broadcastInDim S1x10 ![1] bcast_S10_S1x10_1 W)

def baseArr (P T : FVec Ideal S1048576x10 .f32) (W : FVec Ideal S10 .f32) : FVec Ideal S1048576x10 .f32 :=
  mulf (mulf (subf P T) (subf P T)) (wArr W)

/-! ## The direction term -/

/-- Adjacent columns' difference: columns 1 … 9 minus columns 0 … 8. -/
def pcArr (X : FVec Ideal S1048576x10 .f32) : FVec Ideal S1048576x9 .f32 :=
  subf (extractStridedSlice S1048576x9 ![0, 1] X slices_S1048576x10_S1048576x9_0_1)
    (extractStridedSlice S1048576x9 ![0, 0] X slices_S1048576x10_S1048576x9_0_0)

def dirArr (P T : FVec Ideal S1048576x10 .f32) : FVec Ideal S1048576x9 .f32 :=
  mulf (uitofp .f32 (cmpf .une (Host.sign (pcArr P)) (Host.sign (pcArr T))))
    (addf (broadcastInDim S1048576x9 ![] bcast_S_S1048576x9 (constant S_ .f32 0x3F800000#32)) (Host.absf (pcArr T)))

/-! ## The second-difference term -/

/-- The second difference: columns 2 … 9, minus twice columns 1 … 8, plus columns 0 … 7. -/
def d2Arr (X : FVec Ideal S1048576x10 .f32) : FVec Ideal S1048576x8 .f32 :=
  addf
    (subf (extractStridedSlice S1048576x8 ![0, 2] X slices_S1048576x10_S1048576x8_0_2)
      (mulf (broadcastInDim S1048576x8 ![] bcast_S_S1048576x8 (constant S_ .f32 0x40000000#32))
        (extractStridedSlice S1048576x8 ![0, 1] X slices_S1048576x10_S1048576x8_0_1)))
    (extractStridedSlice S1048576x8 ![0, 0] X slices_S1048576x10_S1048576x8_0_0)

def trendArr (P T : FVec Ideal S1048576x10 .f32) : FVec Ideal S1048576x8 .f32 :=
  mulf (subf (d2Arr P) (d2Arr T)) (subf (d2Arr P) (d2Arr T))

/-! ## The 45 column pairs -/

/-- The two tables of column numbers, as the program holds them. -/
def tabA : IVec S45 32 := fun i => lit0 (S45.rowMajor i)
def tabB : IVec S45 32 := fun i => lit1 (S45.rowMajor i)

/-- A table as a column of start indices: where the (constant, false) wrap-around condition holds the entry plus ten,
    else the entry; then one index per row of a 45 × 1 array. -/
def idxCol (tab : IVec S45 32) : IVec S45x1 32 :=
  broadcastInDim S45x1 ![0] bcast_S45_S45x1_0
    (select (constantI S45 1 0#1) (addi tab (broadcastInDim S45 ![] bcast_S_S45 (constantI S_ 32 10#32))) tab)

def idxColA : IVec S45x1 32 := idxCol tabA
def idxColB : IVec S45x1 32 := idxCol tabB

/-- The columns of `X` the start indices name, one per pair. -/
def gatherCol (X : FVec Ideal S1048576x10 .f32) (idx : IVec S45x1 32) : FVec Ideal S1048576x45 .f32 :=
  Host.gather gather_S1048576x10_S45x1_S1048576x45_0_1_n_n_1_1_10485761 X idx

/-- Per pair a < b: column a minus column b. -/
def pairDiff (X : FVec Ideal S1048576x10 .f32) : FVec Ideal S1048576x45 .f32 :=
  subf (gatherCol X idxColA) (gatherCol X idxColB)

def sigArr (T : FVec Ideal S1048576x10 .f32) : FVec Ideal S1048576x45 .f32 :=
  uitofp .f32 (cmpf .ogt (Host.absf (pairDiff T))
    (broadcastInDim S1048576x45 ![] bcast_S_S1048576x45 (constant S_ .f32 0x3C23D70A#32)))

/-- The hinge, before the significance bit. -/
def errArr (P T : FVec Ideal S1048576x10 .f32) : FVec Ideal S1048576x45 .f32 :=
  maximumf
    (subf (broadcastInDim S1048576x45 ![] bcast_S_S1048576x45 (constant S_ .f32 0x3F800000#32))
      (Host.divf (mulf (pairDiff T) (pairDiff P))
        (addf (Host.absf (pairDiff T))
          (broadcastInDim S1048576x45 ![] bcast_S_S1048576x45 (constant S_ .f32 0x322BCC77#32)))))
    (broadcastInDim S1048576x45 ![] bcast_S_S1048576x45 (constant S_ .f32 0x00000000#32))

def errsigArr (P T : FVec Ideal S1048576x10 .f32) : FVec Ideal S1048576x45 .f32 :=
  mulf (errArr P T) (sigArr T)

end Cert.ReferenceIdeal.RefArr

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.LibTypedRef.lean ====
import Idealize.ShloMosaic.Lib.StableHlo.Run

/-! ## A function applied through identity transports

A host operation of a module-local function is stated over typed references: its function is wrapped in transports
along "this buffer's type is the value's type". At a literal reference both sides of that equation are the same type, so
the transports are the identity; these lemmas say so for an operation with no, one, two or three operands, WITHOUT
looking inside the function. (Closing such a goal by `rfl` instead can send the unifier into the function's body.) -/

namespace Idealize.ShloMosaic.StableHlo

universe u

theorem cast_app₀ {γ : Sort u} (hγ : γ = γ) (c : γ) : cast hγ c = c := rfl

theorem cast_app₁ {α γ : Sort u} (hα : α = α) (hγ : γ = γ) (f : α → γ) (x : α) :
    cast hγ (f (cast hα x)) = f x := rfl

theorem cast_app₂ {α β γ : Sort u} (hα : α = α) (hβ : β = β) (hγ : γ = γ) (f : α → β → γ) (x : α) (y : β) :
    cast hγ (f (cast hα x) (cast hβ y)) = f x y := rfl

theorem cast_app₃ {α β δ γ : Sort u} (hα : α = α) (hβ : β = β) (hδ : δ = δ) (hγ : γ = γ) (f : α → β → δ → γ)
    (x : α) (y : β) (z : δ) : cast hγ (f (cast hα x) (cast hβ y) (cast hδ z)) = f x y z := rfl

end Idealize.ShloMosaic.StableHlo
-- ==== Proof.RefStages.lean ====
/-
  The reference's straight line read back stage by stage.

  The line is in single-assignment form: every operation writes a buffer of its own that no later operation writes again.
  So what a buffer holds after the whole line is its operation's function of what the operand buffers hold after the
  whole line, one equation per operation. Composed, the five stage arrays are the whole-array terms of the three
  arguments, and the result is the closing function of the five totals of those arrays.
-/
import proofs.«164012_j67534065762422_2_alg».proof.Proof.RefOps
import proofs.«164012_j67534065762422_2_alg».proof.Proof.RefArrays
import proofs.«164012_j67534065762422_2_alg».proof.Proof.LossTerms
import proofs.«164012_j67534065762422_2_alg».proof.Proof.LibStageRead
import proofs.«164012_j67534065762422_2_alg».proof.Proof.LibTypedRef
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer each operation writes, in order. -/
abbrev dsts : List (Ref sig .tc) :=
  [ main_c, main_c_0, main_c_1, main_c_2, main_c_3, main_c_4, main_v0, main_v1, main_v2, main_v3,
    main_v4, main_cst, main_v5, main_cst_5, main_v6, main_v7, main_v8, main_v9, main_v10, main_v11,
    main_v12, main_v13, main_v14, main_v15, main_v16, main_v17, main_cst_6, main_v18, main_v19, main_v20,
    main_cst_7, main_v21, main_cst_8, main_v22, main_v23, main_v24, main_cst_9, main_v25, main_v26, main_v27,
    main_v28, main_v29, main_v30, main_v31, main_cst_10, main_v32, main_v33, main_v34, main_v35, main_v36,
    main_v37, main_v38, main_cst_11, main_v39, main_cst_12, main_v40, main_c_13, main_v41, main_v42, main_v43,
    main_v44, main_v45, main_c_14, main_v46, main_v47, main_v48, main_v49, main_v50, main_v51, main_c_15,
    main_v52, main_v53, main_v54, main_v55, main_v56, main_c_16, main_v57, main_v58, main_v59, main_v60,
    main_v61, main_v62, main_v63, main_cst_17, main_v64, main_v65, main_v66, main_v67, main_v68, main_cst_18,
    main_v69, main_v70, main_v71, main_cst_19, main_v72, main_v73, main_call0_cst, main_call0_v0, main_v74, main_cst_20,
    main_v75, main_cst_21, main_v76, main_v77, main_v78, main_cst_22, main_v79, main_cst_23, main_v80, main_v81,
    main_v82, main_cst_24, main_call1_v0, main_call1_v1, main_v83, main_cst_25, main_v84, main_v85, main_v86, main_cst_26,
    main_v87, main_cst_27, main_v88, main_cst_28, main_v89, main_v90, main_cst_29, main_v91, main_cst_30, main_v92,
    main_v93, main_cst_31, main_v94, main_v95, main_cst_32, main_v96, main_v97 ]

set_option maxRecDepth 8192 in
theorem writes : WritesAre (ops (F := F)) dsts := by
  unfold WritesAre
  repeat (first | exact List.Forall₂.nil | refine List.Forall₂.cons (Finset.Subset.refl _) ?_)

/-! ## The arguments are never written -/

theorem arg0_eq (V : Valuation τ sig (Elt F)) :
    after ops V (Proc.devRef (τ := τ) .tc main_arg0) = V (Proc.devRef (τ := τ) .tc main_arg0) :=
  after_keep_from writes 0 (by decide) V

theorem arg1_eq (V : Valuation τ sig (Elt F)) :
    after ops V (Proc.devRef (τ := τ) .tc main_arg1) = V (Proc.devRef (τ := τ) .tc main_arg1) :=
  after_keep_from writes 0 (by decide) V

theorem arg2_eq (V : Valuation τ sig (Elt F)) :
    after ops V (Proc.devRef (τ := τ) .tc main_arg2) = V (Proc.devRef (τ := τ) .tc main_arg2) :=
  after_keep_from writes 0 (by decide) V

/-! ## One equation per operation -/

theorem st_main_c (V : Valuation τ sig (Elt F)) :
    after ops V (Proc.devRef (τ := τ) .tc main_c)
      = (fun i => lit0 (S45.rowMajor i) : IVec S45 32) :=
  read_nullary writes 0 V rfl (by decide)

theorem st_main_c_0 (V : Valuation τ sig (Elt F)) :
    after ops V (Proc.devRef (τ := τ) .tc main_c_0)
      = (constantI S45 1 0#1) :=
  read_nullary writes 1 V rfl (by decide)

theorem st_main_c_1 (V : Valuation τ sig (Elt F)) :
    after ops V (Proc.devRef (τ := τ) .tc main_c_1)
      = (fun i => lit1 (S45.rowMajor i) : IVec S45 32) :=
  read_nullary writes 2 V rfl (by decide)

theorem st_main_c_2 (V : Valuation τ sig (Elt F)) :
    after ops V (Proc.devRef (τ := τ) .tc main_c_2)
      = (constantI S45 1 0#1) :=
  read_nullary writes 3 V rfl (by decide)

theorem st_main_c_3 (V : Valuation τ sig (Elt F)) :
    after ops V (Proc.devRef (τ := τ) .tc main_c_3)
      = (constantI S45 1 0#1) :=
  read_nullary writes 4 V rfl (by decide)

theorem st_main_c_4 (V : Valuation τ sig (Elt F)) :
    after ops V (Proc.devRef (τ := τ) .tc main_c_4)
      = (constantI S45 1 0#1) :=
  read_nullary writes 5 V rfl (by decide)

theorem st_main_v0 (V : Valuation τ sig (Elt F)) :
    after ops V (Proc.devRef (τ := τ) .tc main_v0)
      = (subf : (⟨S1048576x10, .f32⟩ : BufTy).Contents (Elt F) → (⟨S1048576x10, .f32⟩ : BufTy).Contents (Elt F) → (⟨S1048576x10, .f32⟩ : BufTy).Contents (Elt F)) (after ops V (Proc.devRef (τ := τ) .tc main_arg0)) (after ops V (Proc.devRef (τ := τ) .tc main_arg1)) :=
  read_binary writes 6 V rfl (by decide) (by decide) (by decide)

theorem st_main_v1 (V : Valuation τ sig (Elt F)) :
    after ops V (Proc.devRef (τ := τ) .tc main_v1)
      = (mulf : (⟨S1048576x10, .f32⟩ : BufTy).Contents (Elt F) → (⟨S1048576x10, .f32⟩ : BufTy).Contents (Elt F) → (⟨S1048576x10, .f32⟩ : BufTy).Contents (Elt F)) (after ops V (Proc.devRef (τ := τ) .tc main_v0)) (after ops V (Proc.devRef (τ := τ) .tc main_v0)) :=
  read_binary writes 7 V rfl (by decide) (by decide) (by decide)

theorem st_main_v2 (V : Valuation τ sig (Elt F)) :
    after ops V (Proc.devRef (τ := τ) .tc main_v2)
      = (broadcastInDim S1x10 ![1] bcast_S10_S1x10_1 : (⟨S10, .f32⟩ : BufTy).Contents (Elt F) → (⟨S1x10, .f32⟩ : BufTy).Contents (Elt F)) (after ops V (Proc.devRef (τ := τ) .tc main_arg2)) :=
  read_unary writes 8 V rfl (by decide) (by decide)

theorem st_main_v3 (V : Valuation τ sig (Elt F)) :
    after ops V (Proc.devRef (τ := τ) .tc main_v3)
      = (broadcastInDim S1048576x10 ![0, 1] bcast_S1x10_S1048576x10_0_1 : (⟨S1x10, .f32⟩ : BufTy).Contents (Elt F) → (⟨S1048576x10, .f32⟩ : BufTy).Contents (Elt F)) (after ops V (Proc.devRef (τ := τ) .tc main_v2)) :=
  read_unary writes 9 V rfl (by decide) (by decide)

theorem st_main_v4 (V : Valuation τ sig (Elt F)) :
    after ops V (Proc.devRef (τ := τ) .tc main_v4)
      = (mulf : (⟨S1048576x10, .f32⟩ : BufTy).Contents (Elt F) → (⟨S1048576x10, .f32⟩ : BufTy).Contents (Elt F) → (⟨S1048576x10, .f32⟩ : BufTy).Contents (Elt F)) (after ops V (Proc.devRef (τ := τ) .tc main_v1)) (after ops V (Proc.devRef (τ := τ) .tc main_v3)) :=
  read_binary writes 10 V rfl (by decide) (by decide) (by decide)

theorem st_main_cst (V : Valuation τ sig (Elt F)) :
    after ops V (Proc.devRef (τ := τ) .tc main_cst)
      = (constant (F := F) S_ .f32 0x00000000#32) :=
  read_nullary writes 11 V rfl (by decide)

theorem st_main_v5 (V : Valuation τ sig (Elt F)) :
    after ops V (Proc.devRef (τ := τ) .tc main_v5)
      = ((fun x v => Host.reduceAdd x v reducesTo_S1048576x10_S_d0_1 h_S_) : (⟨S1048576x10, .f32⟩ : BufTy).Contents (Elt F) → (⟨S_, .f32⟩ : BufTy).Contents (Elt F) → (⟨S_, .f32⟩ : BufTy).Contents (Elt F)) (after ops V (Proc.devRef (τ := τ) .tc main_v4)) (after ops V (Proc.devRef (τ := τ) .tc main_cst)) :=
  read_binary writes 12 V rfl (by decide) (by decide) (by decide)

theorem st_main_cst_5 (V : Valuation τ sig (Elt F)) :
    after ops V (Proc.devRef (τ := τ) .tc main_cst_5)
      = (constant (F := F) S_ .f32 0x4B200000#32) :=
  read_nullary writes 13 V rfl (by decide)

theorem st_main_v6 (V : Valuation τ sig (Elt F)) :
    after ops V (Proc.devRef (τ := τ) .tc main_v6)
      = (Host.divf : (⟨S_, .f32⟩ : BufTy).Contents (Elt F) → (⟨S_, .f32⟩ : BufTy).Contents (Elt F) → (⟨S_, .f32⟩ : BufTy).Contents (Elt F)) (after ops V (Proc.devRef (τ := τ) .tc main_v5)) (after ops V (Proc.devRef (τ := τ) .tc main_cst_5)) :=
  read_binary writes 14 V rfl (by decide) (by decide) (by decide)

theorem st_main_v7 (V : Valuation τ sig (Elt F)) :
    after ops V (Proc.devRef (τ := τ) .tc main_v7)
      = ((extractStridedSlice S1048576x9 ![0, 1] · slices_S1048576x10_S1048576x9_0_1) : (⟨S1048576x10, .f32⟩ : BufTy).Contents (Elt F) → (⟨S1048576x9, .f32⟩ : BufTy).Contents (Elt F)) (after ops V (Proc.devRef (τ := τ) .tc main_arg0)) :=
  read_unary writes 15 V rfl (by decide) (by decide)

theorem st_main_v8 (V : Valuation τ sig (Elt F)) :
    after ops V (Proc.devRef (τ := τ) .tc main_v8)
      = ((extractStridedSlice S1048576x9 ![0, 0] · slices_S1048576x10_S1048576x9_0_0) : (⟨S1048576x10, .f32⟩ : BufTy).Contents (Elt F) → (⟨S1048576x9, .f32⟩ : BufTy).Contents (Elt F)) (after ops V (Proc.devRef (τ := τ) .tc main_arg0)) :=
  read_unary writes 16 V rfl (by decide) (by decide)

theorem st_main_v9 (V : Valuation τ sig (Elt F)) :
    after ops V (Proc.devRef (τ := τ) .tc main_v9)
      = (subf : (⟨S1048576x9, .f32⟩ : BufTy).Contents (Elt F) → (⟨S1048576x9, .f32⟩ : BufTy).Contents (Elt F) → (⟨S1048576x9, .f32⟩ : BufTy).Contents (Elt F)) (after ops V (Proc.devRef (τ := τ) .tc main_v7)) (after ops V (Proc.devRef (τ := τ) .tc main_v8)) :=
  read_binary writes 17 V rfl (by decide) (by decide) (by decide)

theorem st_main_v10 (V : Valuation τ sig (Elt F)) :
    after ops V (Proc.devRef (τ := τ) .tc main_v10)
      = ((extractStridedSlice S1048576x9 ![0, 1] · slices_S1048576x10_S1048576x9_0_1) : (⟨S1048576x10, .f32⟩ : BufTy).Contents (Elt F) → (⟨S1048576x9, .f32⟩ : BufTy).Contents (Elt F)) (after ops V (Proc.devRef (τ := τ) .tc main_arg1)) :=
  read_unary writes 18 V rfl (by decide) (by decide)

theorem st_main_v11 (V : Valuation τ sig (Elt F)) :
    after ops V (Proc.devRef (τ := τ) .tc main_v11)
      = ((extractStridedSlice S1048576x9 ![0, 0] · slices_S1048576x10_S1048576x9_0_0) : (⟨S1048576x10, .f32⟩ : BufTy).Contents (Elt F) → (⟨S1048576x9, .f32⟩ : BufTy).Contents (Elt F)) (after ops V (Proc.devRef (τ := τ) .tc main_arg1)) :=
  read_unary writes 19 V rfl (by decide) (by decide)

theorem st_main_v12 (V : Valuation τ sig (Elt F)) :
    after ops V (Proc.devRef (τ := τ) .tc main_v12)
      = (subf : (⟨S1048576x9, .f32⟩ : BufTy).Contents (Elt F) → (⟨S1048576x9, .f32⟩ : BufTy).Contents (Elt F) → (⟨S1048576x9, .f32⟩ : BufTy).Contents (Elt F)) (after ops V (Proc.devRef (τ := τ) .tc main_v10)) (after ops V (Proc.devRef (τ := τ) .tc main_v11)) :=
  read_binary writes 20 V rfl (by decide) (by decide) (by decide)

theorem st_main_v13 (V : Valuation τ sig (Elt F)) :
    after ops V (Proc.devRef (τ := τ) .tc main_v13)
      = (Host.sign : (⟨S1048576x9, .f32⟩ : BufTy).Contents (Elt F) → (⟨S1048576x9, .f32⟩ : BufTy).Contents (Elt F)) (after ops V (Proc.devRef (τ := τ) .tc main_v9)) :=
  read_unary writes 21 V rfl (by decide) (by decide)

theorem st_main_v14 (V : Valuation τ sig (Elt F)) :
    after ops V (Proc.devRef (τ := τ) .tc main_v14)
      = (Host.sign : (⟨S1048576x9, .f32⟩ : BufTy).Contents (Elt F) → (⟨S1048576x9, .f32⟩ : BufTy).Contents (Elt F)) (after ops V (Proc.devRef (τ := τ) .tc main_v12)) :=
  read_unary writes 22 V rfl (by decide) (by decide)

theorem st_main_v15 (V : Valuation τ sig (Elt F)) :
    after ops V (Proc.devRef (τ := τ) .tc main_v15)
      = (cmpf .une : (⟨S1048576x9, .f32⟩ : BufTy).Contents (Elt F) → (⟨S1048576x9, .f32⟩ : BufTy).Contents (Elt F) → (⟨S1048576x9, .i1⟩ : BufTy).Contents (Elt F)) (after ops V (Proc.devRef (τ := τ) .tc main_v13)) (after ops V (Proc.devRef (τ := τ) .tc main_v14)) :=
  read_binary writes 23 V rfl (by decide) (by decide) (by decide)

theorem st_main_v16 (V : Valuation τ sig (Elt F)) :
    after ops V (Proc.devRef (τ := τ) .tc main_v16)
      = (uitofp .f32 : (⟨S1048576x9, .i1⟩ : BufTy).Contents (Elt F) → (⟨S1048576x9, .f32⟩ : BufTy).Contents (Elt F)) (after ops V (Proc.devRef (τ := τ) .tc main_v15)) :=
  read_unary writes 24 V rfl (by decide) (by decide)

theorem st_main_v17 (V : Valuation τ sig (Elt F)) :
    after ops V (Proc.devRef (τ := τ) .tc main_v17)
      = (Host.absf : (⟨S1048576x9, .f32⟩ : BufTy).Contents (Elt F) → (⟨S1048576x9, .f32⟩ : BufTy).Contents (Elt F)) (after ops V (Proc.devRef (τ := τ) .tc main_v12)) :=
  read_unary writes 25 V rfl (by decide) (by decide)

theorem st_main_cst_6 (V : Valuation τ sig (Elt F)) :
    after ops V (Proc.devRef (τ := τ) .tc main_cst_6)
      = (constant (F := F) S_ .f32 0x3F800000#32) :=
  read_nullary writes 26 V rfl (by decide)

theorem st_main_v18 (V : Valuation τ sig (Elt F)) :
    after ops V (Proc.devRef (τ := τ) .tc main_v18)
      = (broadcastInDim S1048576x9 ![] bcast_S_S1048576x9 : (⟨S_, .f32⟩ : BufTy).Contents (Elt F) → (⟨S1048576x9, .f32⟩ : BufTy).Contents (Elt F)) (after ops V (Proc.devRef (τ := τ) .tc main_cst_6)) :=
  read_unary writes 27 V rfl (by decide) (by decide)

theorem st_main_v19 (V : Valuation τ sig (Elt F)) :
    after ops V (Proc.devRef (τ := τ) .tc main_v19)
      = (addf : (⟨S1048576x9, .f32⟩ : BufTy).Contents (Elt F) → (⟨S1048576x9, .f32⟩ : BufTy).Contents (Elt F) → (⟨S1048576x9, .f32⟩ : BufTy).Contents (Elt F)) (after ops V (Proc.devRef (τ := τ) .tc main_v18)) (after ops V (Proc.devRef (τ := τ) .tc main_v17)) :=
  read_binary writes 28 V rfl (by decide) (by decide) (by decide)

theorem st_main_v20 (V : Valuation τ sig (Elt F)) :
    after ops V (Proc.devRef (τ := τ) .tc main_v20)
      = (mulf : (⟨S1048576x9, .f32⟩ : BufTy).Contents (Elt F) → (⟨S1048576x9, .f32⟩ : BufTy).Contents (Elt F) → (⟨S1048576x9, .f32⟩ : BufTy).Contents (Elt F)) (after ops V (Proc.devRef (τ := τ) .tc main_v16)) (after ops V (Proc.devRef (τ := τ) .tc main_v19)) :=
  read_binary writes 29 V rfl (by decide) (by decide) (by decide)

theorem st_main_cst_7 (V : Valuation τ sig (Elt F)) :
    after ops V (Proc.devRef (τ := τ) .tc main_cst_7)
      = (constant (F := F) S_ .f32 0x00000000#32) :=
  read_nullary writes 30 V rfl (by decide)

theorem st_main_v21 (V : Valuation τ sig (Elt F)) :
    after ops V (Proc.devRef (τ := τ) .tc main_v21)
      = ((fun x v => Host.reduceAdd x v reducesTo_S1048576x9_S_d0_1 h_S_) : (⟨S1048576x9, .f32⟩ : BufTy).Contents (Elt F) → (⟨S_, .f32⟩ : BufTy).Contents (Elt F) → (⟨S_, .f32⟩ : BufTy).Contents (Elt F)) (after ops V (Proc.devRef (τ := τ) .tc main_v20)) (after ops V (Proc.devRef (τ := τ) .tc main_cst_7)) :=
  read_binary writes 31 V rfl (by decide) (by decide) (by decide)

theorem st_main_cst_8 (V : Valuation τ sig (Elt F)) :
    after ops V (Proc.devRef (τ := τ) .tc main_cst_8)
      = (constant (F := F) S_ .f32 0x4B100000#32) :=
  read_nullary writes 32 V rfl (by decide)

theorem st_main_v22 (V : Valuation τ sig (Elt F)) :
    after ops V (Proc.devRef (τ := τ) .tc main_v22)
      = (Host.divf : (⟨S_, .f32⟩ : BufTy).Contents (Elt F) → (⟨S_, .f32⟩ : BufTy).Contents (Elt F) → (⟨S_, .f32⟩ : BufTy).Contents (Elt F)) (after ops V (Proc.devRef (τ := τ) .tc main_v21)) (after ops V (Proc.devRef (τ := τ) .tc main_cst_8)) :=
  read_binary writes 33 V rfl (by decide) (by decide) (by decide)

theorem st_main_v23 (V : Valuation τ sig (Elt F)) :
    after ops V (Proc.devRef (τ := τ) .tc main_v23)
      = ((extractStridedSlice S1048576x8 ![0, 2] · slices_S1048576x10_S1048576x8_0_2) : (⟨S1048576x10, .f32⟩ : BufTy).Contents (Elt F) → (⟨S1048576x8, .f32⟩ : BufTy).Contents (Elt F)) (after ops V (Proc.devRef (τ := τ) .tc main_arg0)) :=
  read_unary writes 34 V rfl (by decide) (by decide)

theorem st_main_v24 (V : Valuation τ sig (Elt F)) :
    after ops V (Proc.devRef (τ := τ) .tc main_v24)
      = ((extractStridedSlice S1048576x8 ![0, 1] · slices_S1048576x10_S1048576x8_0_1) : (⟨S1048576x10, .f32⟩ : BufTy).Contents (Elt F) → (⟨S1048576x8, .f32⟩ : BufTy).Contents (Elt F)) (after ops V (Proc.devRef (τ := τ) .tc main_arg0)) :=
  read_unary writes 35 V rfl (by decide) (by decide)

theorem st_main_cst_9 (V : Valuation τ sig (Elt F)) :
    after ops V (Proc.devRef (τ := τ) .tc main_cst_9)
      = (constant (F := F) S_ .f32 0x40000000#32) :=
  read_nullary writes 36 V rfl (by decide)

theorem st_main_v25 (V : Valuation τ sig (Elt F)) :
    after ops V (Proc.devRef (τ := τ) .tc main_v25)
      = (broadcastInDim S1048576x8 ![] bcast_S_S1048576x8 : (⟨S_, .f32⟩ : BufTy).Contents (Elt F) → (⟨S1048576x8, .f32⟩ : BufTy).Contents (Elt F)) (after ops V (Proc.devRef (τ := τ) .tc main_cst_9)) :=
  read_unary writes 37 V rfl (by decide) (by decide)

theorem st_main_v26 (V : Valuation τ sig (Elt F)) :
    after ops V (Proc.devRef (τ := τ) .tc main_v26)
      = (mulf : (⟨S1048576x8, .f32⟩ : BufTy).Contents (Elt F) → (⟨S1048576x8, .f32⟩ : BufTy).Contents (Elt F) → (⟨S1048576x8, .f32⟩ : BufTy).Contents (Elt F)) (after ops V (Proc.devRef (τ := τ) .tc main_v25)) (after ops V (Proc.devRef (τ := τ) .tc main_v24)) :=
  read_binary writes 38 V rfl (by decide) (by decide) (by decide)

theorem st_main_v27 (V : Valuation τ sig (Elt F)) :
    after ops V (Proc.devRef (τ := τ) .tc main_v27)
      = (subf : (⟨S1048576x8, .f32⟩ : BufTy).Contents (Elt F) → (⟨S1048576x8, .f32⟩ : BufTy).Contents (Elt F) → (⟨S1048576x8, .f32⟩ : BufTy).Contents (Elt F)) (after ops V (Proc.devRef (τ := τ) .tc main_v23)) (after ops V (Proc.devRef (τ := τ) .tc main_v26)) :=
  read_binary writes 39 V rfl (by decide) (by decide) (by decide)

theorem st_main_v28 (V : Valuation τ sig (Elt F)) :
    after ops V (Proc.devRef (τ := τ) .tc main_v28)
      = ((extractStridedSlice S1048576x8 ![0, 0] · slices_S1048576x10_S1048576x8_0_0) : (⟨S1048576x10, .f32⟩ : BufTy).Contents (Elt F) → (⟨S1048576x8, .f32⟩ : BufTy).Contents (Elt F)) (after ops V (Proc.devRef (τ := τ) .tc main_arg0)) :=
  read_unary writes 40 V rfl (by decide) (by decide)

theorem st_main_v29 (V : Valuation τ sig (Elt F)) :
    after ops V (Proc.devRef (τ := τ) .tc main_v29)
      = (addf : (⟨S1048576x8, .f32⟩ : BufTy).Contents (Elt F) → (⟨S1048576x8, .f32⟩ : BufTy).Contents (Elt F) → (⟨S1048576x8, .f32⟩ : BufTy).Contents (Elt F)) (after ops V (Proc.devRef (τ := τ) .tc main_v27)) (after ops V (Proc.devRef (τ := τ) .tc main_v28)) :=
  read_binary writes 41 V rfl (by decide) (by decide) (by decide)

theorem st_main_v30 (V : Valuation τ sig (Elt F)) :
    after ops V (Proc.devRef (τ := τ) .tc main_v30)
      = ((extractStridedSlice S1048576x8 ![0, 2] · slices_S1048576x10_S1048576x8_0_2) : (⟨S1048576x10, .f32⟩ : BufTy).Contents (Elt F) → (⟨S1048576x8, .f32⟩ : BufTy).Contents (Elt F)) (after ops V (Proc.devRef (τ := τ) .tc main_arg1)) :=
  read_unary writes 42 V rfl (by decide) (by decide)

theorem st_main_v31 (V : Valuation τ sig (Elt F)) :
    after ops V (Proc.devRef (τ := τ) .tc main_v31)
      = ((extractStridedSlice S1048576x8 ![0, 1] · slices_S1048576x10_S1048576x8_0_1) : (⟨S1048576x10, .f32⟩ : BufTy).Contents (Elt F) → (⟨S1048576x8, .f32⟩ : BufTy).Contents (Elt F)) (after ops V (Proc.devRef (τ := τ) .tc main_arg1)) :=
  read_unary writes 43 V rfl (by decide) (by decide)

theorem st_main_cst_10 (V : Valuation τ sig (Elt F)) :
    after ops V (Proc.devRef (τ := τ) .tc main_cst_10)
      = (constant (F := F) S_ .f32 0x40000000#32) :=
  read_nullary writes 44 V rfl (by decide)

theorem st_main_v32 (V : Valuation τ sig (Elt F)) :
    after ops V (Proc.devRef (τ := τ) .tc main_v32)
      = (broadcastInDim S1048576x8 ![] bcast_S_S1048576x8 : (⟨S_, .f32⟩ : BufTy).Contents (Elt F) → (⟨S1048576x8, .f32⟩ : BufTy).Contents (Elt F)) (after ops V (Proc.devRef (τ := τ) .tc main_cst_10)) :=
  read_unary writes 45 V rfl (by decide) (by decide)

theorem st_main_v33 (V : Valuation τ sig (Elt F)) :
    after ops V (Proc.devRef (τ := τ) .tc main_v33)
      = (mulf : (⟨S1048576x8, .f32⟩ : BufTy).Contents (Elt F) → (⟨S1048576x8, .f32⟩ : BufTy).Contents (Elt F) → (⟨S1048576x8, .f32⟩ : BufTy).Contents (Elt F)) (after ops V (Proc.devRef (τ := τ) .tc main_v32)) (after ops V (Proc.devRef (τ := τ) .tc main_v31)) :=
  read_binary writes 46 V rfl (by decide) (by decide) (by decide)

theorem st_main_v34 (V : Valuation τ sig (Elt F)) :
    after ops V (Proc.devRef (τ := τ) .tc main_v34)
      = (subf : (⟨S1048576x8, .f32⟩ : BufTy).Contents (Elt F) → (⟨S1048576x8, .f32⟩ : BufTy).Contents (Elt F) → (⟨S1048576x8, .f32⟩ : BufTy).Contents (Elt F)) (after ops V (Proc.devRef (τ := τ) .tc main_v30)) (after ops V (Proc.devRef (τ := τ) .tc main_v33)) :=
  read_binary writes 47 V rfl (by decide) (by decide) (by decide)

theorem st_main_v35 (V : Valuation τ sig (Elt F)) :
    after ops V (Proc.devRef (τ := τ) .tc main_v35)
      = ((extractStridedSlice S1048576x8 ![0, 0] · slices_S1048576x10_S1048576x8_0_0) : (⟨S1048576x10, .f32⟩ : BufTy).Contents (Elt F) → (⟨S1048576x8, .f32⟩ : BufTy).Contents (Elt F)) (after ops V (Proc.devRef (τ := τ) .tc main_arg1)) :=
  read_unary writes 48 V rfl (by decide) (by decide)

theorem st_main_v36 (V : Valuation τ sig (Elt F)) :
    after ops V (Proc.devRef (τ := τ) .tc main_v36)
      = (addf : (⟨S1048576x8, .f32⟩ : BufTy).Contents (Elt F) → (⟨S1048576x8, .f32⟩ : BufTy).Contents (Elt F) → (⟨S1048576x8, .f32⟩ : BufTy).Contents (Elt F)) (after ops V (Proc.devRef (τ := τ) .tc main_v34)) (after ops V (Proc.devRef (τ := τ) .tc main_v35)) :=
  read_binary writes 49 V rfl (by decide) (by decide) (by decide)

theorem st_main_v37 (V : Valuation τ sig (Elt F)) :
    after ops V (Proc.devRef (τ := τ) .tc main_v37)
      = (subf : (⟨S1048576x8, .f32⟩ : BufTy).Contents (Elt F) → (⟨S1048576x8, .f32⟩ : BufTy).Contents (Elt F) → (⟨S1048576x8, .f32⟩ : BufTy).Contents (Elt F)) (after ops V (Proc.devRef (τ := τ) .tc main_v29)) (after ops V (Proc.devRef (τ := τ) .tc main_v36)) :=
  read_binary writes 50 V rfl (by decide) (by decide) (by decide)

theorem st_main_v38 (V : Valuation τ sig (Elt F)) :
    after ops V (Proc.devRef (τ := τ) .tc main_v38)
      = (mulf : (⟨S1048576x8, .f32⟩ : BufTy).Contents (Elt F) → (⟨S1048576x8, .f32⟩ : BufTy).Contents (Elt F) → (⟨S1048576x8, .f32⟩ : BufTy).Contents (Elt F)) (after ops V (Proc.devRef (τ := τ) .tc main_v37)) (after ops V (Proc.devRef (τ := τ) .tc main_v37)) :=
  read_binary writes 51 V rfl (by decide) (by decide) (by decide)

theorem st_main_cst_11 (V : Valuation τ sig (Elt F)) :
    after ops V (Proc.devRef (τ := τ) .tc main_cst_11)
      = (constant (F := F) S_ .f32 0x00000000#32) :=
  read_nullary writes 52 V rfl (by decide)

theorem st_main_v39 (V : Valuation τ sig (Elt F)) :
    after ops V (Proc.devRef (τ := τ) .tc main_v39)
      = ((fun x v => Host.reduceAdd x v reducesTo_S1048576x8_S_d0_1 h_S_) : (⟨S1048576x8, .f32⟩ : BufTy).Contents (Elt F) → (⟨S_, .f32⟩ : BufTy).Contents (Elt F) → (⟨S_, .f32⟩ : BufTy).Contents (Elt F)) (after ops V (Proc.devRef (τ := τ) .tc main_v38)) (after ops V (Proc.devRef (τ := τ) .tc main_cst_11)) :=
  read_binary writes 53 V rfl (by decide) (by decide) (by decide)

theorem st_main_cst_12 (V : Valuation τ sig (Elt F)) :
    after ops V (Proc.devRef (τ := τ) .tc main_cst_12)
      = (constant (F := F) S_ .f32 0x4B000000#32) :=
  read_nullary writes 54 V rfl (by decide)

theorem st_main_v40 (V : Valuation τ sig (Elt F)) :
    after ops V (Proc.devRef (τ := τ) .tc main_v40)
      = (Host.divf : (⟨S_, .f32⟩ : BufTy).Contents (Elt F) → (⟨S_, .f32⟩ : BufTy).Contents (Elt F) → (⟨S_, .f32⟩ : BufTy).Contents (Elt F)) (after ops V (Proc.devRef (τ := τ) .tc main_v39)) (after ops V (Proc.devRef (τ := τ) .tc main_cst_12)) :=
  read_binary writes 55 V rfl (by decide) (by decide) (by decide)

theorem st_main_c_13 (V : Valuation τ sig (Elt F)) :
    after ops V (Proc.devRef (τ := τ) .tc main_c_13)
      = (constantI S_ 32 10#32) :=
  read_nullary writes 56 V rfl (by decide)

theorem st_main_v41 (V : Valuation τ sig (Elt F)) :
    after ops V (Proc.devRef (τ := τ) .tc main_v41)
      = (broadcastInDim S45 ![] bcast_S_S45 : (⟨S_, .i32⟩ : BufTy).Contents (Elt F) → (⟨S45, .i32⟩ : BufTy).Contents (Elt F)) (after ops V (Proc.devRef (τ := τ) .tc main_c_13)) :=
  read_unary writes 57 V rfl (by decide) (by decide)

theorem st_main_v42 (V : Valuation τ sig (Elt F)) :
    after ops V (Proc.devRef (τ := τ) .tc main_v42)
      = (addi : (⟨S45, .i32⟩ : BufTy).Contents (Elt F) → (⟨S45, .i32⟩ : BufTy).Contents (Elt F) → (⟨S45, .i32⟩ : BufTy).Contents (Elt F)) (after ops V (Proc.devRef (τ := τ) .tc main_c)) (after ops V (Proc.devRef (τ := τ) .tc main_v41)) :=
  read_binary writes 58 V rfl (by decide) (by decide) (by decide)

theorem st_main_v43 (V : Valuation τ sig (Elt F)) :
    after ops V (Proc.devRef (τ := τ) .tc main_v43)
      = (select : (⟨S45, .i1⟩ : BufTy).Contents (Elt F) → (⟨S45, .i32⟩ : BufTy).Contents (Elt F) → (⟨S45, .i32⟩ : BufTy).Contents (Elt F) → (⟨S45, .i32⟩ : BufTy).Contents (Elt F)) (after ops V (Proc.devRef (τ := τ) .tc main_c_0)) (after ops V (Proc.devRef (τ := τ) .tc main_v42)) (after ops V (Proc.devRef (τ := τ) .tc main_c)) :=
  read_ternary writes 59 V rfl (by decide) (by decide) (by decide) (by decide)

theorem st_main_v44 (V : Valuation τ sig (Elt F)) :
    after ops V (Proc.devRef (τ := τ) .tc main_v44)
      = (broadcastInDim S45x1 ![0] bcast_S45_S45x1_0 : (⟨S45, .i32⟩ : BufTy).Contents (Elt F) → (⟨S45x1, .i32⟩ : BufTy).Contents (Elt F)) (after ops V (Proc.devRef (τ := τ) .tc main_v43)) :=
  read_unary writes 60 V rfl (by decide) (by decide)

theorem st_main_v45 (V : Valuation τ sig (Elt F)) :
    after ops V (Proc.devRef (τ := τ) .tc main_v45)
      = ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)) (after ops V (Proc.devRef (τ := τ) .tc main_arg1)) (after ops V (Proc.devRef (τ := τ) .tc main_v44)) :=
  read_binary writes 61 V rfl (by decide) (by decide) (by decide)

theorem st_main_c_14 (V : Valuation τ sig (Elt F)) :
    after ops V (Proc.devRef (τ := τ) .tc main_c_14)
      = (constantI S_ 32 10#32) :=
  read_nullary writes 62 V rfl (by decide)

theorem st_main_v46 (V : Valuation τ sig (Elt F)) :
    after ops V (Proc.devRef (τ := τ) .tc main_v46)
      = (broadcastInDim S45 ![] bcast_S_S45 : (⟨S_, .i32⟩ : BufTy).Contents (Elt F) → (⟨S45, .i32⟩ : BufTy).Contents (Elt F)) (after ops V (Proc.devRef (τ := τ) .tc main_c_14)) :=
  read_unary writes 63 V rfl (by decide) (by decide)

theorem st_main_v47 (V : Valuation τ sig (Elt F)) :
    after ops V (Proc.devRef (τ := τ) .tc main_v47)
      = (addi : (⟨S45, .i32⟩ : BufTy).Contents (Elt F) → (⟨S45, .i32⟩ : BufTy).Contents (Elt F) → (⟨S45, .i32⟩ : BufTy).Contents (Elt F)) (after ops V (Proc.devRef (τ := τ) .tc main_c_1)) (after ops V (Proc.devRef (τ := τ) .tc main_v46)) :=
  read_binary writes 64 V rfl (by decide) (by decide) (by decide)

theorem st_main_v48 (V : Valuation τ sig (Elt F)) :
    after ops V (Proc.devRef (τ := τ) .tc main_v48)
      = (select : (⟨S45, .i1⟩ : BufTy).Contents (Elt F) → (⟨S45, .i32⟩ : BufTy).Contents (Elt F) → (⟨S45, .i32⟩ : BufTy).Contents (Elt F) → (⟨S45, .i32⟩ : BufTy).Contents (Elt F)) (after ops V (Proc.devRef (τ := τ) .tc main_c_2)) (after ops V (Proc.devRef (τ := τ) .tc main_v47)) (after ops V (Proc.devRef (τ := τ) .tc main_c_1)) :=
  read_ternary writes 65 V rfl (by decide) (by decide) (by decide) (by decide)

theorem st_main_v49 (V : Valuation τ sig (Elt F)) :
    after ops V (Proc.devRef (τ := τ) .tc main_v49)
      = (broadcastInDim S45x1 ![0] bcast_S45_S45x1_0 : (⟨S45, .i32⟩ : BufTy).Contents (Elt F) → (⟨S45x1, .i32⟩ : BufTy).Contents (Elt F)) (after ops V (Proc.devRef (τ := τ) .tc main_v48)) :=
  read_unary writes 66 V rfl (by decide) (by decide)

theorem st_main_v50 (V : Valuation τ sig (Elt F)) :
    after ops V (Proc.devRef (τ := τ) .tc main_v50)
      = ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)) (after ops V (Proc.devRef (τ := τ) .tc main_arg1)) (after ops V (Proc.devRef (τ := τ) .tc main_v49)) :=
  read_binary writes 67 V rfl (by decide) (by decide) (by decide)

theorem st_main_v51 (V : Valuation τ sig (Elt F)) :
    after ops V (Proc.devRef (τ := τ) .tc main_v51)
      = (subf : (⟨S1048576x45, .f32⟩ : BufTy).Contents (Elt F) → (⟨S1048576x45, .f32⟩ : BufTy).Contents (Elt F) → (⟨S1048576x45, .f32⟩ : BufTy).Contents (Elt F)) (after ops V (Proc.devRef (τ := τ) .tc main_v45)) (after ops V (Proc.devRef (τ := τ) .tc main_v50)) :=
  read_binary writes 68 V rfl (by decide) (by decide) (by decide)

theorem st_main_c_15 (V : Valuation τ sig (Elt F)) :
    after ops V (Proc.devRef (τ := τ) .tc main_c_15)
      = (constantI S_ 32 10#32) :=
  read_nullary writes 69 V rfl (by decide)

theorem st_main_v52 (V : Valuation τ sig (Elt F)) :
    after ops V (Proc.devRef (τ := τ) .tc main_v52)
      = (broadcastInDim S45 ![] bcast_S_S45 : (⟨S_, .i32⟩ : BufTy).Contents (Elt F) → (⟨S45, .i32⟩ : BufTy).Contents (Elt F)) (after ops V (Proc.devRef (τ := τ) .tc main_c_15)) :=
  read_unary writes 70 V rfl (by decide) (by decide)

theorem st_main_v53 (V : Valuation τ sig (Elt F)) :
    after ops V (Proc.devRef (τ := τ) .tc main_v53)
      = (addi : (⟨S45, .i32⟩ : BufTy).Contents (Elt F) → (⟨S45, .i32⟩ : BufTy).Contents (Elt F) → (⟨S45, .i32⟩ : BufTy).Contents (Elt F)) (after ops V (Proc.devRef (τ := τ) .tc main_c)) (after ops V (Proc.devRef (τ := τ) .tc main_v52)) :=
  read_binary writes 71 V rfl (by decide) (by decide) (by decide)

theorem st_main_v54 (V : Valuation τ sig (Elt F)) :
    after ops V (Proc.devRef (τ := τ) .tc main_v54)
      = (select : (⟨S45, .i1⟩ : BufTy).Contents (Elt F) → (⟨S45, .i32⟩ : BufTy).Contents (Elt F) → (⟨S45, .i32⟩ : BufTy).Contents (Elt F) → (⟨S45, .i32⟩ : BufTy).Contents (Elt F)) (after ops V (Proc.devRef (τ := τ) .tc main_c_3)) (after ops V (Proc.devRef (τ := τ) .tc main_v53)) (after ops V (Proc.devRef (τ := τ) .tc main_c)) :=
  read_ternary writes 72 V rfl (by decide) (by decide) (by decide) (by decide)

theorem st_main_v55 (V : Valuation τ sig (Elt F)) :
    after ops V (Proc.devRef (τ := τ) .tc main_v55)
      = (broadcastInDim S45x1 ![0] bcast_S45_S45x1_0 : (⟨S45, .i32⟩ : BufTy).Contents (Elt F) → (⟨S45x1, .i32⟩ : BufTy).Contents (Elt F)) (after ops V (Proc.devRef (τ := τ) .tc main_v54)) :=
  read_unary writes 73 V rfl (by decide) (by decide)

theorem st_main_v56 (V : Valuation τ sig (Elt F)) :
    after ops V (Proc.devRef (τ := τ) .tc main_v56)
      = ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)) (after ops V (Proc.devRef (τ := τ) .tc main_arg0)) (after ops V (Proc.devRef (τ := τ) .tc main_v55)) :=
  read_binary writes 74 V rfl (by decide) (by decide) (by decide)

theorem st_main_c_16 (V : Valuation τ sig (Elt F)) :
    after ops V (Proc.devRef (τ := τ) .tc main_c_16)
      = (constantI S_ 32 10#32) :=
  read_nullary writes 75 V rfl (by decide)

theorem st_main_v57 (V : Valuation τ sig (Elt F)) :
    after ops V (Proc.devRef (τ := τ) .tc main_v57)
      = (broadcastInDim S45 ![] bcast_S_S45 : (⟨S_, .i32⟩ : BufTy).Contents (Elt F) → (⟨S45, .i32⟩ : BufTy).Contents (Elt F)) (after ops V (Proc.devRef (τ := τ) .tc main_c_16)) :=
  read_unary writes 76 V rfl (by decide) (by decide)

theorem st_main_v58 (V : Valuation τ sig (Elt F)) :
    after ops V (Proc.devRef (τ := τ) .tc main_v58)
      = (addi : (⟨S45, .i32⟩ : BufTy).Contents (Elt F) → (⟨S45, .i32⟩ : BufTy).Contents (Elt F) → (⟨S45, .i32⟩ : BufTy).Contents (Elt F)) (after ops V (Proc.devRef (τ := τ) .tc main_c_1)) (after ops V (Proc.devRef (τ := τ) .tc main_v57)) :=
  read_binary writes 77 V rfl (by decide) (by decide) (by decide)

theorem st_main_v59 (V : Valuation τ sig (Elt F)) :
    after ops V (Proc.devRef (τ := τ) .tc main_v59)
      = (select : (⟨S45, .i1⟩ : BufTy).Contents (Elt F) → (⟨S45, .i32⟩ : BufTy).Contents (Elt F) → (⟨S45, .i32⟩ : BufTy).Contents (Elt F) → (⟨S45, .i32⟩ : BufTy).Contents (Elt F)) (after ops V (Proc.devRef (τ := τ) .tc main_c_4)) (after ops V (Proc.devRef (τ := τ) .tc main_v58)) (after ops V (Proc.devRef (τ := τ) .tc main_c_1)) :=
  read_ternary writes 78 V rfl (by decide) (by decide) (by decide) (by decide)

theorem st_main_v60 (V : Valuation τ sig (Elt F)) :
    after ops V (Proc.devRef (τ := τ) .tc main_v60)
      = (broadcastInDim S45x1 ![0] bcast_S45_S45x1_0 : (⟨S45, .i32⟩ : BufTy).Contents (Elt F) → (⟨S45x1, .i32⟩ : BufTy).Contents (Elt F)) (after ops V (Proc.devRef (τ := τ) .tc main_v59)) :=
  read_unary writes 79 V rfl (by decide) (by decide)

theorem st_main_v61 (V : Valuation τ sig (Elt F)) :
    after ops V (Proc.devRef (τ := τ) .tc main_v61)
      = ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)) (after ops V (Proc.devRef (τ := τ) .tc main_arg0)) (after ops V (Proc.devRef (τ := τ) .tc main_v60)) :=
  read_binary writes 80 V rfl (by decide) (by decide) (by decide)

theorem st_main_v62 (V : Valuation τ sig (Elt F)) :
    after ops V (Proc.devRef (τ := τ) .tc main_v62)
      = (subf : (⟨S1048576x45, .f32⟩ : BufTy).Contents (Elt F) → (⟨S1048576x45, .f32⟩ : BufTy).Contents (Elt F) → (⟨S1048576x45, .f32⟩ : BufTy).Contents (Elt F)) (after ops V (Proc.devRef (τ := τ) .tc main_v56)) (after ops V (Proc.devRef (τ := τ) .tc main_v61)) :=
  read_binary writes 81 V rfl (by decide) (by decide) (by decide)

theorem st_main_v63 (V : Valuation τ sig (Elt F)) :
    after ops V (Proc.devRef (τ := τ) .tc main_v63)
      = (Host.absf : (⟨S1048576x45, .f32⟩ : BufTy).Contents (Elt F) → (⟨S1048576x45, .f32⟩ : BufTy).Contents (Elt F)) (after ops V (Proc.devRef (τ := τ) .tc main_v51)) :=
  read_unary writes 82 V rfl (by decide) (by decide)

theorem st_main_cst_17 (V : Valuation τ sig (Elt F)) :
    after ops V (Proc.devRef (τ := τ) .tc main_cst_17)
      = (constant (F := F) S_ .f32 0x3C23D70A#32) :=
  read_nullary writes 83 V rfl (by decide)

theorem st_main_v64 (V : Valuation τ sig (Elt F)) :
    after ops V (Proc.devRef (τ := τ) .tc main_v64)
      = (broadcastInDim S1048576x45 ![] bcast_S_S1048576x45 : (⟨S_, .f32⟩ : BufTy).Contents (Elt F) → (⟨S1048576x45, .f32⟩ : BufTy).Contents (Elt F)) (after ops V (Proc.devRef (τ := τ) .tc main_cst_17)) :=
  read_unary writes 84 V rfl (by decide) (by decide)

theorem st_main_v65 (V : Valuation τ sig (Elt F)) :
    after ops V (Proc.devRef (τ := τ) .tc main_v65)
      = (cmpf .ogt : (⟨S1048576x45, .f32⟩ : BufTy).Contents (Elt F) → (⟨S1048576x45, .f32⟩ : BufTy).Contents (Elt F) → (⟨S1048576x45, .i1⟩ : BufTy).Contents (Elt F)) (after ops V (Proc.devRef (τ := τ) .tc main_v63)) (after ops V (Proc.devRef (τ := τ) .tc main_v64)) :=
  read_binary writes 85 V rfl (by decide) (by decide) (by decide)

theorem st_main_v66 (V : Valuation τ sig (Elt F)) :
    after ops V (Proc.devRef (τ := τ) .tc main_v66)
      = (uitofp .f32 : (⟨S1048576x45, .i1⟩ : BufTy).Contents (Elt F) → (⟨S1048576x45, .f32⟩ : BufTy).Contents (Elt F)) (after ops V (Proc.devRef (τ := τ) .tc main_v65)) :=
  read_unary writes 86 V rfl (by decide) (by decide)

theorem st_main_v67 (V : Valuation τ sig (Elt F)) :
    after ops V (Proc.devRef (τ := τ) .tc main_v67)
      = (mulf : (⟨S1048576x45, .f32⟩ : BufTy).Contents (Elt F) → (⟨S1048576x45, .f32⟩ : BufTy).Contents (Elt F) → (⟨S1048576x45, .f32⟩ : BufTy).Contents (Elt F)) (after ops V (Proc.devRef (τ := τ) .tc main_v51)) (after ops V (Proc.devRef (τ := τ) .tc main_v62)) :=
  read_binary writes 87 V rfl (by decide) (by decide) (by decide)

theorem st_main_v68 (V : Valuation τ sig (Elt F)) :
    after ops V (Proc.devRef (τ := τ) .tc main_v68)
      = (Host.absf : (⟨S1048576x45, .f32⟩ : BufTy).Contents (Elt F) → (⟨S1048576x45, .f32⟩ : BufTy).Contents (Elt F)) (after ops V (Proc.devRef (τ := τ) .tc main_v51)) :=
  read_unary writes 88 V rfl (by decide) (by decide)

theorem st_main_cst_18 (V : Valuation τ sig (Elt F)) :
    after ops V (Proc.devRef (τ := τ) .tc main_cst_18)
      = (constant (F := F) S_ .f32 0x322BCC77#32) :=
  read_nullary writes 89 V rfl (by decide)

theorem st_main_v69 (V : Valuation τ sig (Elt F)) :
    after ops V (Proc.devRef (τ := τ) .tc main_v69)
      = (broadcastInDim S1048576x45 ![] bcast_S_S1048576x45 : (⟨S_, .f32⟩ : BufTy).Contents (Elt F) → (⟨S1048576x45, .f32⟩ : BufTy).Contents (Elt F)) (after ops V (Proc.devRef (τ := τ) .tc main_cst_18)) :=
  read_unary writes 90 V rfl (by decide) (by decide)

theorem st_main_v70 (V : Valuation τ sig (Elt F)) :
    after ops V (Proc.devRef (τ := τ) .tc main_v70)
      = (addf : (⟨S1048576x45, .f32⟩ : BufTy).Contents (Elt F) → (⟨S1048576x45, .f32⟩ : BufTy).Contents (Elt F) → (⟨S1048576x45, .f32⟩ : BufTy).Contents (Elt F)) (after ops V (Proc.devRef (τ := τ) .tc main_v68)) (after ops V (Proc.devRef (τ := τ) .tc main_v69)) :=
  read_binary writes 91 V rfl (by decide) (by decide) (by decide)

theorem st_main_v71 (V : Valuation τ sig (Elt F)) :
    after ops V (Proc.devRef (τ := τ) .tc main_v71)
      = (Host.divf : (⟨S1048576x45, .f32⟩ : BufTy).Contents (Elt F) → (⟨S1048576x45, .f32⟩ : BufTy).Contents (Elt F) → (⟨S1048576x45, .f32⟩ : BufTy).Contents (Elt F)) (after ops V (Proc.devRef (τ := τ) .tc main_v67)) (after ops V (Proc.devRef (τ := τ) .tc main_v70)) :=
  read_binary writes 92 V rfl (by decide) (by decide) (by decide)

theorem st_main_cst_19 (V : Valuation τ sig (Elt F)) :
    after ops V (Proc.devRef (τ := τ) .tc main_cst_19)
      = (constant (F := F) S_ .f32 0x3F800000#32) :=
  read_nullary writes 93 V rfl (by decide)

theorem st_main_v72 (V : Valuation τ sig (Elt F)) :
    after ops V (Proc.devRef (τ := τ) .tc main_v72)
      = (broadcastInDim S1048576x45 ![] bcast_S_S1048576x45 : (⟨S_, .f32⟩ : BufTy).Contents (Elt F) → (⟨S1048576x45, .f32⟩ : BufTy).Contents (Elt F)) (after ops V (Proc.devRef (τ := τ) .tc main_cst_19)) :=
  read_unary writes 94 V rfl (by decide) (by decide)

theorem st_main_v73 (V : Valuation τ sig (Elt F)) :
    after ops V (Proc.devRef (τ := τ) .tc main_v73)
      = (subf : (⟨S1048576x45, .f32⟩ : BufTy).Contents (Elt F) → (⟨S1048576x45, .f32⟩ : BufTy).Contents (Elt F) → (⟨S1048576x45, .f32⟩ : BufTy).Contents (Elt F)) (after ops V (Proc.devRef (τ := τ) .tc main_v72)) (after ops V (Proc.devRef (τ := τ) .tc main_v71)) :=
  read_binary writes 95 V rfl (by decide) (by decide) (by decide)

theorem st_main_call0_cst (V : Valuation τ sig (Elt F)) :
    after ops V (Proc.devRef (τ := τ) .tc main_call0_cst)
      = (constant (F := F) S_ .f32 0x00000000#32) :=
  (read_nullary writes 96 V rfl (by decide)).trans (cast_app₀ _ _)

theorem st_main_call0_v0 (V : Valuation τ sig (Elt F)) :
    after ops V (Proc.devRef (τ := τ) .tc main_call0_v0)
      = (broadcastInDim S1048576x45 ![] bcast_S_S1048576x45 : (⟨S_, .f32⟩ : BufTy).Contents (Elt F) → (⟨S1048576x45, .f32⟩ : BufTy).Contents (Elt F)) (after ops V (Proc.devRef (τ := τ) .tc main_call0_cst)) :=
  (read_unary writes 97 V rfl (by decide) (by decide)).trans (cast_app₁ _ _ _ _)

theorem st_main_v74 (V : Valuation τ sig (Elt F)) :
    after ops V (Proc.devRef (τ := τ) .tc main_v74)
      = (maximumf : (⟨S1048576x45, .f32⟩ : BufTy).Contents (Elt F) → (⟨S1048576x45, .f32⟩ : BufTy).Contents (Elt F) → (⟨S1048576x45, .f32⟩ : BufTy).Contents (Elt F)) (after ops V (Proc.devRef (τ := τ) .tc main_v73)) (after ops V (Proc.devRef (τ := τ) .tc main_call0_v0)) :=
  (read_binary writes 98 V rfl (by decide) (by decide) (by decide)).trans (cast_app₂ _ _ _ _ _ _)

theorem st_main_cst_20 (V : Valuation τ sig (Elt F)) :
    after ops V (Proc.devRef (τ := τ) .tc main_cst_20)
      = (constant (F := F) S_ .f32 0x00000000#32) :=
  read_nullary writes 99 V rfl (by decide)

theorem st_main_v75 (V : Valuation τ sig (Elt F)) :
    after ops V (Proc.devRef (τ := τ) .tc main_v75)
      = ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)) (after ops V (Proc.devRef (τ := τ) .tc main_v66)) (after ops V (Proc.devRef (τ := τ) .tc main_cst_20)) :=
  read_binary writes 100 V rfl (by decide) (by decide) (by decide)

theorem st_main_cst_21 (V : Valuation τ sig (Elt F)) :
    after ops V (Proc.devRef (τ := τ) .tc main_cst_21)
      = (constant (F := F) S_ .f32 0x00000000#32) :=
  read_nullary writes 101 V rfl (by decide)

theorem st_main_v76 (V : Valuation τ sig (Elt F)) :
    after ops V (Proc.devRef (τ := τ) .tc main_v76)
      = (broadcastInDim S45 ![] bcast_S_S45 : (⟨S_, .f32⟩ : BufTy).Contents (Elt F) → (⟨S45, .f32⟩ : BufTy).Contents (Elt F)) (after ops V (Proc.devRef (τ := τ) .tc main_cst_21)) :=
  read_unary writes 102 V rfl (by decide) (by decide)

theorem st_main_v77 (V : Valuation τ sig (Elt F)) :
    after ops V (Proc.devRef (τ := τ) .tc main_v77)
      = (cmpf .ogt : (⟨S45, .f32⟩ : BufTy).Contents (Elt F) → (⟨S45, .f32⟩ : BufTy).Contents (Elt F) → (⟨S45, .i1⟩ : BufTy).Contents (Elt F)) (after ops V (Proc.devRef (τ := τ) .tc main_v75)) (after ops V (Proc.devRef (τ := τ) .tc main_v76)) :=
  read_binary writes 103 V rfl (by decide) (by decide) (by decide)

theorem st_main_v78 (V : Valuation τ sig (Elt F)) :
    after ops V (Proc.devRef (τ := τ) .tc main_v78)
      = (mulf : (⟨S1048576x45, .f32⟩ : BufTy).Contents (Elt F) → (⟨S1048576x45, .f32⟩ : BufTy).Contents (Elt F) → (⟨S1048576x45, .f32⟩ : BufTy).Contents (Elt F)) (after ops V (Proc.devRef (τ := τ) .tc main_v74)) (after ops V (Proc.devRef (τ := τ) .tc main_v66)) :=
  read_binary writes 104 V rfl (by decide) (by decide) (by decide)

theorem st_main_cst_22 (V : Valuation τ sig (Elt F)) :
    after ops V (Proc.devRef (τ := τ) .tc main_cst_22)
      = (constant (F := F) S_ .f32 0x00000000#32) :=
  read_nullary writes 105 V rfl (by decide)

theorem st_main_v79 (V : Valuation τ sig (Elt F)) :
    after ops V (Proc.devRef (τ := τ) .tc main_v79)
      = ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)) (after ops V (Proc.devRef (τ := τ) .tc main_v78)) (after ops V (Proc.devRef (τ := τ) .tc main_cst_22)) :=
  read_binary writes 106 V rfl (by decide) (by decide) (by decide)

theorem st_main_cst_23 (V : Valuation τ sig (Elt F)) :
    after ops V (Proc.devRef (τ := τ) .tc main_cst_23)
      = (constant (F := F) S_ .f32 0x3F800000#32) :=
  read_nullary writes 107 V rfl (by decide)

theorem st_main_v80 (V : Valuation τ sig (Elt F)) :
    after ops V (Proc.devRef (τ := τ) .tc main_v80)
      = (broadcastInDim S45 ![] bcast_S_S45 : (⟨S_, .f32⟩ : BufTy).Contents (Elt F) → (⟨S45, .f32⟩ : BufTy).Contents (Elt F)) (after ops V (Proc.devRef (τ := τ) .tc main_cst_23)) :=
  read_unary writes 108 V rfl (by decide) (by decide)

theorem st_main_v81 (V : Valuation τ sig (Elt F)) :
    after ops V (Proc.devRef (τ := τ) .tc main_v81)
      = (maximumf : (⟨S45, .f32⟩ : BufTy).Contents (Elt F) → (⟨S45, .f32⟩ : BufTy).Contents (Elt F) → (⟨S45, .f32⟩ : BufTy).Contents (Elt F)) (after ops V (Proc.devRef (τ := τ) .tc main_v75)) (after ops V (Proc.devRef (τ := τ) .tc main_v80)) :=
  read_binary writes 109 V rfl (by decide) (by decide) (by decide)

theorem st_main_v82 (V : Valuation τ sig (Elt F)) :
    after ops V (Proc.devRef (τ := τ) .tc main_v82)
      = (Host.divf : (⟨S45, .f32⟩ : BufTy).Contents (Elt F) → (⟨S45, .f32⟩ : BufTy).Contents (Elt F) → (⟨S45, .f32⟩ : BufTy).Contents (Elt F)) (after ops V (Proc.devRef (τ := τ) .tc main_v79)) (after ops V (Proc.devRef (τ := τ) .tc main_v81)) :=
  read_binary writes 110 V rfl (by decide) (by decide) (by decide)

theorem st_main_cst_24 (V : Valuation τ sig (Elt F)) :
    after ops V (Proc.devRef (τ := τ) .tc main_cst_24)
      = (constant (F := F) S_ .f32 0x00000000#32) :=
  read_nullary writes 111 V rfl (by decide)

theorem st_main_call1_v0 (V : Valuation τ sig (Elt F)) :
    after ops V (Proc.devRef (τ := τ) .tc main_call1_v0)
      = (id : (⟨S_, .f32⟩ : BufTy).Contents (Elt F) → (⟨S_, .f32⟩ : BufTy).Contents (Elt F)) (after ops V (Proc.devRef (τ := τ) .tc main_cst_24)) :=
  (read_unary writes 112 V rfl (by decide) (by decide)).trans (cast_app₁ _ _ _ _)

theorem st_main_call1_v1 (V : Valuation τ sig (Elt F)) :
    after ops V (Proc.devRef (τ := τ) .tc main_call1_v1)
      = (broadcastInDim S45 ![] bcast_S_S45 : (⟨S_, .f32⟩ : BufTy).Contents (Elt F) → (⟨S45, .f32⟩ : BufTy).Contents (Elt F)) (after ops V (Proc.devRef (τ := τ) .tc main_call1_v0)) :=
  (read_unary writes 113 V rfl (by decide) (by decide)).trans (cast_app₁ _ _ _ _)

theorem st_main_v83 (V : Valuation τ sig (Elt F)) :
    after ops V (Proc.devRef (τ := τ) .tc main_v83)
      = (select : (⟨S45, .i1⟩ : BufTy).Contents (Elt F) → (⟨S45, .f32⟩ : BufTy).Contents (Elt F) → (⟨S45, .f32⟩ : BufTy).Contents (Elt F) → (⟨S45, .f32⟩ : BufTy).Contents (Elt F)) (after ops V (Proc.devRef (τ := τ) .tc main_v77)) (after ops V (Proc.devRef (τ := τ) .tc main_v82)) (after ops V (Proc.devRef (τ := τ) .tc main_call1_v1)) :=
  (read_ternary writes 114 V rfl (by decide) (by decide) (by decide) (by decide)).trans (cast_app₃ _ _ _ _ _ _ _ _)

theorem st_main_cst_25 (V : Valuation τ sig (Elt F)) :
    after ops V (Proc.devRef (τ := τ) .tc main_cst_25)
      = (constant (F := F) S_ .f32 0x00000000#32) :=
  read_nullary writes 115 V rfl (by decide)

theorem st_main_v84 (V : Valuation τ sig (Elt F)) :
    after ops V (Proc.devRef (τ := τ) .tc main_v84)
      = (broadcastInDim S45 ![] bcast_S_S45 : (⟨S_, .f32⟩ : BufTy).Contents (Elt F) → (⟨S45, .f32⟩ : BufTy).Contents (Elt F)) (after ops V (Proc.devRef (τ := τ) .tc main_cst_25)) :=
  read_unary writes 116 V rfl (by decide) (by decide)

theorem st_main_v85 (V : Valuation τ sig (Elt F)) :
    after ops V (Proc.devRef (τ := τ) .tc main_v85)
      = (cmpf .ogt : (⟨S45, .f32⟩ : BufTy).Contents (Elt F) → (⟨S45, .f32⟩ : BufTy).Contents (Elt F) → (⟨S45, .i1⟩ : BufTy).Contents (Elt F)) (after ops V (Proc.devRef (τ := τ) .tc main_v75)) (after ops V (Proc.devRef (τ := τ) .tc main_v84)) :=
  read_binary writes 117 V rfl (by decide) (by decide) (by decide)

theorem st_main_v86 (V : Valuation τ sig (Elt F)) :
    after ops V (Proc.devRef (τ := τ) .tc main_v86)
      = (uitofp .f32 : (⟨S45, .i1⟩ : BufTy).Contents (Elt F) → (⟨S45, .f32⟩ : BufTy).Contents (Elt F)) (after ops V (Proc.devRef (τ := τ) .tc main_v85)) :=
  read_unary writes 118 V rfl (by decide) (by decide)

theorem st_main_cst_26 (V : Valuation τ sig (Elt F)) :
    after ops V (Proc.devRef (τ := τ) .tc main_cst_26)
      = (constant (F := F) S_ .f32 0x00000000#32) :=
  read_nullary writes 119 V rfl (by decide)

theorem st_main_v87 (V : Valuation τ sig (Elt F)) :
    after ops V (Proc.devRef (τ := τ) .tc main_v87)
      = ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)) (after ops V (Proc.devRef (τ := τ) .tc main_v86)) (after ops V (Proc.devRef (τ := τ) .tc main_cst_26)) :=
  read_binary writes 120 V rfl (by decide) (by decide) (by decide)

theorem st_main_cst_27 (V : Valuation τ sig (Elt F)) :
    after ops V (Proc.devRef (τ := τ) .tc main_cst_27)
      = (constant (F := F) S_ .f32 0x00000000#32) :=
  read_nullary writes 121 V rfl (by decide)

theorem st_main_v88 (V : Valuation τ sig (Elt F)) :
    after ops V (Proc.devRef (τ := τ) .tc main_v88)
      = ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)) (after ops V (Proc.devRef (τ := τ) .tc main_v83)) (after ops V (Proc.devRef (τ := τ) .tc main_cst_27)) :=
  read_binary writes 122 V rfl (by decide) (by decide) (by decide)

theorem st_main_cst_28 (V : Valuation τ sig (Elt F)) :
    after ops V (Proc.devRef (τ := τ) .tc main_cst_28)
      = (constant (F := F) S_ .f32 0x3F800000#32) :=
  read_nullary writes 123 V rfl (by decide)

theorem st_main_v89 (V : Valuation τ sig (Elt F)) :
    after ops V (Proc.devRef (τ := τ) .tc main_v89)
      = (maximumf : (⟨S_, .f32⟩ : BufTy).Contents (Elt F) → (⟨S_, .f32⟩ : BufTy).Contents (Elt F) → (⟨S_, .f32⟩ : BufTy).Contents (Elt F)) (after ops V (Proc.devRef (τ := τ) .tc main_v87)) (after ops V (Proc.devRef (τ := τ) .tc main_cst_28)) :=
  read_binary writes 124 V rfl (by decide) (by decide) (by decide)

theorem st_main_v90 (V : Valuation τ sig (Elt F)) :
    after ops V (Proc.devRef (τ := τ) .tc main_v90)
      = (Host.divf : (⟨S_, .f32⟩ : BufTy).Contents (Elt F) → (⟨S_, .f32⟩ : BufTy).Contents (Elt F) → (⟨S_, .f32⟩ : BufTy).Contents (Elt F)) (after ops V (Proc.devRef (τ := τ) .tc main_v88)) (after ops V (Proc.devRef (τ := τ) .tc main_v89)) :=
  read_binary writes 125 V rfl (by decide) (by decide) (by decide)

theorem st_main_cst_29 (V : Valuation τ sig (Elt F)) :
    after ops V (Proc.devRef (τ := τ) .tc main_cst_29)
      = (constant (F := F) S_ .f32 0x3F800000#32) :=
  read_nullary writes 126 V rfl (by decide)

theorem st_main_v91 (V : Valuation τ sig (Elt F)) :
    after ops V (Proc.devRef (τ := τ) .tc main_v91)
      = (mulf : (⟨S_, .f32⟩ : BufTy).Contents (Elt F) → (⟨S_, .f32⟩ : BufTy).Contents (Elt F) → (⟨S_, .f32⟩ : BufTy).Contents (Elt F)) (after ops V (Proc.devRef (τ := τ) .tc main_cst_29)) (after ops V (Proc.devRef (τ := τ) .tc main_v6)) :=
  read_binary writes 127 V rfl (by decide) (by decide) (by decide)

theorem st_main_cst_30 (V : Valuation τ sig (Elt F)) :
    after ops V (Proc.devRef (τ := τ) .tc main_cst_30)
      = (constant (F := F) S_ .f32 0x3E99999A#32) :=
  read_nullary writes 128 V rfl (by decide)

theorem st_main_v92 (V : Valuation τ sig (Elt F)) :
    after ops V (Proc.devRef (τ := τ) .tc main_v92)
      = (mulf : (⟨S_, .f32⟩ : BufTy).Contents (Elt F) → (⟨S_, .f32⟩ : BufTy).Contents (Elt F) → (⟨S_, .f32⟩ : BufTy).Contents (Elt F)) (after ops V (Proc.devRef (τ := τ) .tc main_cst_30)) (after ops V (Proc.devRef (τ := τ) .tc main_v22)) :=
  read_binary writes 129 V rfl (by decide) (by decide) (by decide)

theorem st_main_v93 (V : Valuation τ sig (Elt F)) :
    after ops V (Proc.devRef (τ := τ) .tc main_v93)
      = (addf : (⟨S_, .f32⟩ : BufTy).Contents (Elt F) → (⟨S_, .f32⟩ : BufTy).Contents (Elt F) → (⟨S_, .f32⟩ : BufTy).Contents (Elt F)) (after ops V (Proc.devRef (τ := τ) .tc main_v91)) (after ops V (Proc.devRef (τ := τ) .tc main_v92)) :=
  read_binary writes 130 V rfl (by decide) (by decide) (by decide)

theorem st_main_cst_31 (V : Valuation τ sig (Elt F)) :
    after ops V (Proc.devRef (τ := τ) .tc main_cst_31)
      = (constant (F := F) S_ .f32 0x3E4CCCCD#32) :=
  read_nullary writes 131 V rfl (by decide)

theorem st_main_v94 (V : Valuation τ sig (Elt F)) :
    after ops V (Proc.devRef (τ := τ) .tc main_v94)
      = (mulf : (⟨S_, .f32⟩ : BufTy).Contents (Elt F) → (⟨S_, .f32⟩ : BufTy).Contents (Elt F) → (⟨S_, .f32⟩ : BufTy).Contents (Elt F)) (after ops V (Proc.devRef (τ := τ) .tc main_cst_31)) (after ops V (Proc.devRef (τ := τ) .tc main_v40)) :=
  read_binary writes 132 V rfl (by decide) (by decide) (by decide)

theorem st_main_v95 (V : Valuation τ sig (Elt F)) :
    after ops V (Proc.devRef (τ := τ) .tc main_v95)
      = (addf : (⟨S_, .f32⟩ : BufTy).Contents (Elt F) → (⟨S_, .f32⟩ : BufTy).Contents (Elt F) → (⟨S_, .f32⟩ : BufTy).Contents (Elt F)) (after ops V (Proc.devRef (τ := τ) .tc main_v93)) (after ops V (Proc.devRef (τ := τ) .tc main_v94)) :=
  read_binary writes 133 V rfl (by decide) (by decide) (by decide)

theorem st_main_cst_32 (V : Valuation τ sig (Elt F)) :
    after ops V (Proc.devRef (τ := τ) .tc main_cst_32)
      = (constant (F := F) S_ .f32 0x3DCCCCCD#32) :=
  read_nullary writes 134 V rfl (by decide)

theorem st_main_v96 (V : Valuation τ sig (Elt F)) :
    after ops V (Proc.devRef (τ := τ) .tc main_v96)
      = (mulf : (⟨S_, .f32⟩ : BufTy).Contents (Elt F) → (⟨S_, .f32⟩ : BufTy).Contents (Elt F) → (⟨S_, .f32⟩ : BufTy).Contents (Elt F)) (after ops V (Proc.devRef (τ := τ) .tc main_cst_32)) (after ops V (Proc.devRef (τ := τ) .tc main_v90)) :=
  read_binary writes 135 V rfl (by decide) (by decide) (by decide)

theorem st_main_v97 (V : Valuation τ sig (Elt F)) :
    after ops V (Proc.devRef (τ := τ) .tc main_v97)
      = (addf : (⟨S_, .f32⟩ : BufTy).Contents (Elt F) → (⟨S_, .f32⟩ : BufTy).Contents (Elt F) → (⟨S_, .f32⟩ : BufTy).Contents (Elt F)) (after ops V (Proc.devRef (τ := τ) .tc main_v95)) (after ops V (Proc.devRef (τ := τ) .tc main_v96)) :=
  read_binary writes 136 V rfl (by decide) (by decide) (by decide)

/-! ## The five stage arrays, at the ideal instance -/

section Ideal

variable (V : Valuation τ sig (Elt Ideal))

/-- The weighted squared error array. -/
theorem v4_eq : after ops V (main_v4 : DevRef τ sig) = RefArr.baseArr (V (main_arg0 : DevRef τ sig)) (V (main_arg1 : DevRef τ sig)) (V (main_arg2 : DevRef τ sig)) := by
  rw [st_main_v4, st_main_v1, st_main_v0, st_main_v3, st_main_v2, arg0_eq, arg1_eq, arg2_eq]
  rfl

/-- The direction-term array. -/
theorem v20_eq : after ops V (main_v20 : DevRef τ sig) = RefArr.dirArr (V (main_arg0 : DevRef τ sig)) (V (main_arg1 : DevRef τ sig)) := by
  rw [st_main_v20, st_main_v16, st_main_v15, st_main_v13, st_main_v9, st_main_v7, st_main_v8, st_main_v14, st_main_v12, st_main_v10, st_main_v11, st_main_v19, st_main_v18, st_main_cst_6, st_main_v17, arg0_eq, arg1_eq]
  rfl

/-- The second-difference array. -/
theorem v38_eq : after ops V (main_v38 : DevRef τ sig) = RefArr.trendArr (V (main_arg0 : DevRef τ sig)) (V (main_arg1 : DevRef τ sig)) := by
  rw [st_main_v38, st_main_v37, st_main_v29, st_main_v27, st_main_v23, st_main_v26, st_main_v25, st_main_cst_9, st_main_v24, st_main_v28, st_main_v36, st_main_v34, st_main_v30, st_main_v33, st_main_v32, st_main_cst_10, st_main_v31, st_main_v35, arg0_eq, arg1_eq]
  rfl

/-- The two columns of start indices. -/
theorem v44_eq : after ops V (main_v44 : DevRef τ sig) = RefArr.idxColA := by
  rw [st_main_v44, st_main_v43, st_main_c_0, st_main_v42, st_main_c, st_main_v41, st_main_c_13]
  rfl
theorem v49_eq : after ops V (main_v49 : DevRef τ sig) = RefArr.idxColB := by
  rw [st_main_v49, st_main_v48, st_main_c_2, st_main_v47, st_main_c_1, st_main_v46, st_main_c_14]
  rfl
theorem v55_eq : after ops V (main_v55 : DevRef τ sig) = RefArr.idxColA := by
  rw [st_main_v55, st_main_v54, st_main_c_3, st_main_v53, st_main_c, st_main_v52, st_main_c_15]
  rfl
theorem v60_eq : after ops V (main_v60 : DevRef τ sig) = RefArr.idxColB := by
  rw [st_main_v60, st_main_v59, st_main_c_4, st_main_v58, st_main_c_1, st_main_v57, st_main_c_16]
  rfl

/-- Per pair, the targets' difference and the predictions' difference. -/
theorem v51_eq : after ops V (main_v51 : DevRef τ sig) = RefArr.pairDiff (V (main_arg1 : DevRef τ sig)) := by
  rw [st_main_v51, st_main_v45, st_main_v50, v44_eq, v49_eq, arg1_eq]
  rfl
theorem v62_eq : after ops V (main_v62 : DevRef τ sig) = RefArr.pairDiff (V (main_arg0 : DevRef τ sig)) := by
  rw [st_main_v62, st_main_v56, st_main_v61, v55_eq, v60_eq, arg0_eq]
  rfl

/-- The significance-bit array. -/
theorem v66_eq : after ops V (main_v66 : DevRef τ sig) = RefArr.sigArr (V (main_arg1 : DevRef τ sig)) := by
  rw [st_main_v66, st_main_v65, st_main_v63, st_main_v64, st_main_cst_17, v51_eq]
  rfl

/-- The hinge array. -/
theorem v74_eq : after ops V (main_v74 : DevRef τ sig) = RefArr.errArr (V (main_arg0 : DevRef τ sig)) (V (main_arg1 : DevRef τ sig)) := by
  rw [st_main_v74, st_main_v73, st_main_v72, st_main_cst_19, st_main_v71, st_main_v67, st_main_v70, st_main_v68, st_main_v69,
    st_main_cst_18, st_main_call0_v0, st_main_call0_cst, v51_eq, v62_eq]
  rfl

/-- The hinge times the significance bit. -/
theorem v78_eq : after ops V (main_v78 : DevRef τ sig) = RefArr.errsigArr (V (main_arg0 : DevRef τ sig)) (V (main_arg1 : DevRef τ sig)) := by
  rw [st_main_v78, v74_eq, v66_eq]
  rfl

/-! ## The result: the closing function of the five totals -/

attribute [local irreducible] Host.reduceAdd in
/-- From the five totals on, the program's lines are the closing function. -/
theorem v97_eq : after ops V (main_v97 : DevRef τ sig)
    = Cert.Loss.tail bcast_S_S45 reducesTo_S45_S_d0 h_S_
        (Host.reduceAdd (F := Ideal) (after ops V (main_v4 : DevRef τ sig)) (constant (F := Ideal) S_ .f32 0x00000000#32) reducesTo_S1048576x10_S_d0_1 h_S_)
        (Host.reduceAdd (F := Ideal) (after ops V (main_v20 : DevRef τ sig)) (constant (F := Ideal) S_ .f32 0x00000000#32) reducesTo_S1048576x9_S_d0_1 h_S_)
        (Host.reduceAdd (F := Ideal) (after ops V (main_v38 : DevRef τ sig)) (constant (F := Ideal) S_ .f32 0x00000000#32) reducesTo_S1048576x8_S_d0_1 h_S_)
        (Host.reduceAdd (F := Ideal) (after ops V (main_v78 : DevRef τ sig)) (constant (F := Ideal) S_ .f32 0x00000000#32) reducesTo_S1048576x45_S45_d0 h_S_)
        (Host.reduceAdd (F := Ideal) (after ops V (main_v66 : DevRef τ sig)) (constant (F := Ideal) S_ .f32 0x00000000#32) reducesTo_S1048576x45_S45_d0 h_S_) := by
  rw [st_main_v97, st_main_v95, st_main_v93, st_main_v91, st_main_cst_29, st_main_v6, st_main_v5, st_main_cst, st_main_cst_5, st_main_v92, st_main_cst_30, st_main_v22, st_main_v21, st_main_cst_7, st_main_cst_8, st_main_v94, st_main_cst_31, st_main_v40, st_main_v39, st_main_cst_11, st_main_cst_12, st_main_v96, st_main_cst_32, st_main_v90, st_main_v88, st_main_v83, st_main_v77, st_main_v75, st_main_cst_20, st_main_v76, st_main_cst_21, st_main_v82, st_main_v79, st_main_cst_22, st_main_v81, st_main_v80, st_main_cst_23, st_main_call1_v1, st_main_call1_v0, st_main_cst_24, st_main_cst_27, st_main_v89, st_main_v87, st_main_v86, st_main_v85, st_main_v84, st_main_cst_25, st_main_cst_26, st_main_cst_28]
  rfl

/-- The result over the whole-array terms of the three arguments. -/
theorem v97_total : after ops V (main_v97 : DevRef τ sig)
    = Cert.Loss.tail bcast_S_S45 reducesTo_S45_S_d0 h_S_
        (Host.reduceAdd (F := Ideal) (RefArr.baseArr (V (main_arg0 : DevRef τ sig)) (V (main_arg1 : DevRef τ sig)) (V (main_arg2 : DevRef τ sig))) (constant (F := Ideal) S_ .f32 0x00000000#32) reducesTo_S1048576x10_S_d0_1 h_S_)
        (Host.reduceAdd (F := Ideal) (RefArr.dirArr (V (main_arg0 : DevRef τ sig)) (V (main_arg1 : DevRef τ sig))) (constant (F := Ideal) S_ .f32 0x00000000#32) reducesTo_S1048576x9_S_d0_1 h_S_)
        (Host.reduceAdd (F := Ideal) (RefArr.trendArr (V (main_arg0 : DevRef τ sig)) (V (main_arg1 : DevRef τ sig))) (constant (F := Ideal) S_ .f32 0x00000000#32) reducesTo_S1048576x8_S_d0_1 h_S_)
        (Host.reduceAdd (F := Ideal) (RefArr.errsigArr (V (main_arg0 : DevRef τ sig)) (V (main_arg1 : DevRef τ sig))) (constant (F := Ideal) S_ .f32 0x00000000#32) reducesTo_S1048576x45_S45_d0 h_S_)
        (Host.reduceAdd (F := Ideal) (RefArr.sigArr (V (main_arg1 : DevRef τ sig))) (constant (F := Ideal) S_ .f32 0x00000000#32) reducesTo_S1048576x45_S45_d0 h_S_) := by
  rw [v97_eq, v4_eq, v20_eq, v38_eq, v78_eq, v66_eq]

end Ideal

/-! ## The run -/

/-- From any memory with zero counters every weakly fair execution of the reference terminates with the result buffer at
    the closing function of the five totals of the stage arrays of the three arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97)
        = Cert.Loss.tail bcast_S_S45 reducesTo_S45_S_d0 h_S_
        (Host.reduceAdd (F := Ideal) (RefArr.baseArr (m ((c.tc : Thread nD τ).loc main_arg0)) (m ((c.tc : Thread nD τ).loc main_arg1)) (m ((c.tc : Thread nD τ).loc main_arg2))) (constant (F := Ideal) S_ .f32 0x00000000#32) reducesTo_S1048576x10_S_d0_1 h_S_)
        (Host.reduceAdd (F := Ideal) (RefArr.dirArr (m ((c.tc : Thread nD τ).loc main_arg0)) (m ((c.tc : Thread nD τ).loc main_arg1))) (constant (F := Ideal) S_ .f32 0x00000000#32) reducesTo_S1048576x9_S_d0_1 h_S_)
        (Host.reduceAdd (F := Ideal) (RefArr.trendArr (m ((c.tc : Thread nD τ).loc main_arg0)) (m ((c.tc : Thread nD τ).loc main_arg1))) (constant (F := Ideal) S_ .f32 0x00000000#32) reducesTo_S1048576x8_S_d0_1 h_S_)
        (Host.reduceAdd (F := Ideal) (RefArr.errsigArr (m ((c.tc : Thread nD τ).loc main_arg0)) (m ((c.tc : Thread nD τ).loc main_arg1))) (constant (F := Ideal) S_ .f32 0x00000000#32) reducesTo_S1048576x45_S45_d0 h_S_)
        (Host.reduceAdd (F := Ideal) (RefArr.sigArr (m ((c.tc : Thread nD τ).loc main_arg1))) (constant (F := Ideal) S_ .f32 0x00000000#32) reducesTo_S1048576x45_S45_d0 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v97).trans (v97_total (launchContents m c)),
      (h c main_arg0).trans (arg0_eq _), (h c main_arg1).trans (arg1_eq _), (h c main_arg2).trans (arg2_eq _)⟩)
    (run_main m ρ)

end Cert.ReferenceIdeal.RefRun

end
-- ==== Proof.RefArraysReadA.lean ====
/-
  The first three stage arrays of the reference read at one entry (r, k): each is the per-entry term of the shared
  vocabulary. A slice along the columns reads the source at the shifted column; the weights broadcast along the rows
  read the weight of the column; a broadcast scalar reads the scalar; everything else is elementwise.
-/
import proofs.«164012_j67534065762422_2_alg».proof.Proof.RefArrays
import proofs.«164012_j67534065762422_2_alg».proof.Proof.LossTerms
import Idealize.ShloMosaic.Lib.ValueLayout

noncomputable section

namespace Cert.ReferenceIdeal.RefArr

open Cert.ReferenceIdeal Cert.ReferenceIdeal.Facts₀ Idealize.ShloMosaic Idealize.ShloMosaic.ValueIdx

/-! ## The weighted squared error -/

/-- The broadcast weights at (r, k) are the weight of column k. -/
theorem wArr_apply (W : FVec Ideal S10 .f32) (r : Fin 1048576) (k : Fin 10) : wArr W (ix2 r k) = W (ix1 k) := by
  unfold wArr
  rw [broadcastInDim_apply _ _ _ (ix2 r k) (ix2 (0 : Fin 1) k) (fun a => by
    match a with
    | ⟨0, _⟩ => rfl
    | ⟨1, _⟩ => rfl)]
  exact broadcastInDim_apply _ _ _ (ix2 (0 : Fin 1) k) (ix1 k) (fun a => by
    match a with
    | ⟨0, _⟩ => rfl)

theorem baseArr_apply (P T : FVec Ideal S1048576x10 .f32) (W : FVec Ideal S10 .f32) (r : Fin 1048576) (k : Fin 10) :
    baseArr P T W (ix2 r k) = Cert.Loss.baseA P T W r k := by
  show (P (ix2 r k) - T (ix2 r k)) * (P (ix2 r k) - T (ix2 r k)) * wArr W (ix2 r k) = _
  rw [wArr_apply]
  rfl

/-! ## The direction term -/

/-- The adjacent-column difference at (r, k): column k+1 minus column k. -/
theorem pcArr_apply (X : FVec Ideal S1048576x10 .f32) (r : Fin 1048576) (k : Fin 9) :
    pcArr X (ix2 r k) = X (ix2 r (Cert.Loss.up1 k)) - X (ix2 r (Cert.Loss.lo9 k)) := by
  show extractStridedSlice S1048576x9 ![0, 1] X slices_S1048576x10_S1048576x9_0_1 (ix2 r k)
      - extractStridedSlice S1048576x9 ![0, 0] X slices_S1048576x10_S1048576x9_0_0 (ix2 r k) = _
  rw [slice2_axis1_apply 1 X _ r k (Cert.Loss.up1 k) (by show k.val + 1 = 1 + k.val; omega),
    slice2_axis1_apply 0 X _ r k (Cert.Loss.lo9 k) (by show k.val = 0 + k.val; omega)]

theorem dirArr_apply (P T : FVec Ideal S1048576x10 .f32) (r : Fin 1048576) (k : Fin 9) :
    dirArr P T (ix2 r k) = Cert.Loss.dirA P T r k := by
  show Cert.Loss.bit (Ideal.cmp .une (Ideal.sign (pcArr P (ix2 r k))) (Ideal.sign (pcArr T (ix2 r k))))
      * (Cert.Loss.oneW + Cert.Loss.absE (pcArr T (ix2 r k))) = _
  rw [pcArr_apply, pcArr_apply]
  rfl

/-! ## The second-difference term -/

/-- The second difference at (r, k): column k+2, minus twice column k+1, plus column k. -/
theorem d2Arr_apply (X : FVec Ideal S1048576x10 .f32) (r : Fin 1048576) (k : Fin 8) :
    d2Arr X (ix2 r k)
      = X (ix2 r (Cert.Loss.up2 k)) - Cert.Loss.twoW * X (ix2 r (Cert.Loss.mid8 k)) + X (ix2 r (Cert.Loss.lo8 k)) := by
  show extractStridedSlice S1048576x8 ![0, 2] X slices_S1048576x10_S1048576x8_0_2 (ix2 r k)
      - Cert.Loss.twoW * extractStridedSlice S1048576x8 ![0, 1] X slices_S1048576x10_S1048576x8_0_1 (ix2 r k)
      + extractStridedSlice S1048576x8 ![0, 0] X slices_S1048576x10_S1048576x8_0_0 (ix2 r k) = _
  rw [slice2_axis1_apply 2 X _ r k (Cert.Loss.up2 k) (by show k.val + 2 = 2 + k.val; omega),
    slice2_axis1_apply 1 X _ r k (Cert.Loss.mid8 k) (by show k.val + 1 = 1 + k.val; omega),
    slice2_axis1_apply 0 X _ r k (Cert.Loss.lo8 k) (by show k.val = 0 + k.val; omega)]

theorem trendArr_apply (P T : FVec Ideal S1048576x10 .f32) (r : Fin 1048576) (k : Fin 8) :
    trendArr P T (ix2 r k) = Cert.Loss.trendA P T r k := by
  show (d2Arr P (ix2 r k) - d2Arr T (ix2 r k)) * (d2Arr P (ix2 r k) - d2Arr T (ix2 r k)) = _
  rw [d2Arr_apply, d2Arr_apply]
  rfl

end Cert.ReferenceIdeal.RefArr

end
-- ==== Proof.RefArraysReadB.lean ====
/-
  The two pair arrays of the reference read at one entry (r, j), j one of the 45 column pairs a < b: each is the
  per-entry term of the shared vocabulary at the columns a and b of row r.

  The columns are fetched by a gather whose start indices are a 45 × 1 array holding, for pair j, the column number
  (a table of literals, passed through a wrap-around select whose condition is constantly false). Read at (r, j) the
  gather is the operand at row r and at the column number read as a signed integer and clamped to at most 9; on the 45
  literals this is the pair's first, respectively second, column.
-/
import proofs.«164012_j67534065762422_2_alg».proof.Proof.RefArrays
import proofs.«164012_j67534065762422_2_alg».proof.Proof.LossTerms
import Idealize.ShloMosaic.Lib.ValueLayout

noncomputable section

namespace Cert.ReferenceIdeal.RefArr

open Cert.ReferenceIdeal Cert.ReferenceIdeal.Facts₀ Idealize.ShloMosaic Idealize.ShloMosaic.ValueIdx

/-! ## The column gather read at an entry -/

/-- The gather's dimension numbers: operand 1048576 × 10, start indices 45 × 1, result 1048576 × 45; the rows are an
    offset axis, the columns are collapsed and addressed by the start index. -/
abbrev gd : GatherDims S1048576x10 S45x1 S1048576x45 := gather_S1048576x10_S45x1_S1048576x45_0_1_n_n_1_1_10485761

/-- Result entry (r, j) reads its start index at (j, 0). -/
theorem siIdx_eq (r : Fin 1048576) (j : Fin 45) (c : Fin gd.startIndexMap.length) :
    gd.siIdx (ix2 r j : S1048576x45.Idx) c = (ix2 j (0 : Fin 1) : S45x1.Idx) := by
  funext b
  refine Fin.ext ?_
  match b with
  | ⟨0, _⟩ => rfl
  | ⟨1, _⟩ =>
    have : c.val = 0 := by
      have := c.isLt
      simp [gd, gather_S1048576x10_S45x1_S1048576x45_0_1_n_n_1_1_10485761] at this
      omega
    show c.val = 0
    exact this

/-- On the row axis the operand index is the result's row. -/
theorem operandIdx_row (idx : IVec S45x1 32) (r : Fin 1048576) (j : Fin 45) :
    gd.start (ix2 r j : S1048576x45.Idx) idx 0 + gd.batchCoord (ix2 r j : S1048576x45.Idx) 0
      + gd.offCoord (ix2 r j : S1048576x45.Idx) 0 = r.val := by
  rw [GatherDims.batchCoord_eq_zero _ _ _ (by exact List.not_mem_nil)]
  have hs : gd.start (ix2 r j : S1048576x45.Idx) idx 0 = 0 := by
    unfold GatherDims.start
    rw [dif_neg (by show (0 : Fin 2) ∉ [(1 : Fin 2)]; decide)]
  have ho : gd.offCoord (ix2 r j : S1048576x45.Idx) 0 = r.val := by
    unfold GatherDims.offCoord
    rw [dif_pos (by show (0 : Fin 2) ∈ [(0 : Fin 2)]; decide)]
    rfl
  rw [hs, ho]
  omega

/-- On the column axis the operand index is the start index at (j, 0), read signed and clamped to at most 9. -/
theorem operandIdx_col (idx : IVec S45x1 32) (r : Fin 1048576) (j : Fin 45) :
    gd.start (ix2 r j : S1048576x45.Idx) idx 1 + gd.batchCoord (ix2 r j : S1048576x45.Idx) 1
      + gd.offCoord (ix2 r j : S1048576x45.Idx) 1 = min (idx (ix2 j (0 : Fin 1))).toInt.toNat 9 := by
  rw [GatherDims.batchCoord_eq_zero _ _ _ (by exact List.not_mem_nil),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ gd.startIndexMap from List.mem_singleton.mpr rfl)]
  rw [siIdx_eq]
  rfl

/-- THE GATHER READ AT (r, j): the operand at row r and the column `c` the start index at (j, 0) names. -/
theorem gatherCol_apply (X : FVec Ideal S1048576x10 .f32) (idx : IVec S45x1 32) (r : Fin 1048576) (j : Fin 45)
    (c : Fin 10) (hc : c.val = min (idx (ix2 j (0 : Fin 1))).toInt.toNat 9) :
    gatherCol X idx (ix2 r j) = X (ix2 r c) := by
  unfold gatherCol Host.gather
  congr 1
  funext a
  refine Fin.ext ?_
  match a with
  | ⟨0, _⟩ => exact operandIdx_row idx r j
  | ⟨1, _⟩ => exact (operandIdx_col idx r j).trans hc.symm

/-! ## The start indices -/

/-- The column of start indices at (j, 0) is the table's entry j: the select's condition is the zero bit. -/
theorem idxCol_apply (tab : IVec S45 32) (j : Fin 45) : idxCol tab (ix2 j (0 : Fin 1)) = tab (ix1 j) := by
  unfold idxCol
  rw [broadcastInDim_apply _ _ _ (ix2 j (0 : Fin 1)) (ix1 j) (fun a => by
    match a with
    | ⟨0, _⟩ => rfl)]
  rw [select_apply]
  exact select_zero _ _

theorem tabA_apply (j : Fin 45) : tabA (ix1 j) = lit0 j := by
  unfold tabA
  congr 1
  exact Fin.ext (Shape.rowMajor_val_one _)

theorem tabB_apply (j : Fin 45) : tabB (ix1 j) = lit1 j := by
  unfold tabB
  congr 1
  exact Fin.ext (Shape.rowMajor_val_one _)

/-- The first table holds the pairs' first columns … -/
theorem lit0_pairA (j : Fin 45) : (Cert.Loss.pairA j).val = min (lit0 j).toInt.toNat 9 := by
  fin_cases j <;> rfl

/-- … and the second their second columns. -/
theorem lit1_pairB (j : Fin 45) : (Cert.Loss.pairB j).val = min (lit1 j).toInt.toNat 9 := by
  fin_cases j <;> rfl

theorem gatherA_apply (X : FVec Ideal S1048576x10 .f32) (r : Fin 1048576) (j : Fin 45) :
    gatherCol X idxColA (ix2 r j) = X (ix2 r (Cert.Loss.pairA j)) :=
  gatherCol_apply X idxColA r j (Cert.Loss.pairA j) (by
    unfold idxColA
    rw [idxCol_apply, tabA_apply]
    exact lit0_pairA j)

theorem gatherB_apply (X : FVec Ideal S1048576x10 .f32) (r : Fin 1048576) (j : Fin 45) :
    gatherCol X idxColB (ix2 r j) = X (ix2 r (Cert.Loss.pairB j)) :=
  gatherCol_apply X idxColB r j (Cert.Loss.pairB j) (by
    unfold idxColB
    rw [idxCol_apply, tabB_apply]
    exact lit1_pairB j)

/-! ## The pair arrays -/

/-- The pair difference at (r, j): column a minus column b of row r. -/
theorem pairDiff_apply (X : FVec Ideal S1048576x10 .f32) (r : Fin 1048576) (j : Fin 45) :
    pairDiff X (ix2 r j) = X (ix2 r (Cert.Loss.pairA j)) - X (ix2 r (Cert.Loss.pairB j)) := by
  show gatherCol X idxColA (ix2 r j) - gatherCol X idxColB (ix2 r j) = _
  rw [gatherA_apply, gatherB_apply]

theorem sigArr_apply (T : FVec Ideal S1048576x10 .f32) (r : Fin 1048576) (j : Fin 45) :
    sigArr T (ix2 r j) = Cert.Loss.sigA T r j := by
  show Cert.Loss.bit (Ideal.cmp .ogt (Cert.Loss.absE (pairDiff T (ix2 r j))) Cert.Loss.thrW) = _
  rw [pairDiff_apply]
  rfl

theorem errArr_apply (P T : FVec Ideal S1048576x10 .f32) (r : Fin 1048576) (j : Fin 45) :
    errArr P T (ix2 r j)
      = Cert.Loss.errT (P (ix2 r (Cert.Loss.pairA j))) (P (ix2 r (Cert.Loss.pairB j)))
          (T (ix2 r (Cert.Loss.pairA j))) (T (ix2 r (Cert.Loss.pairB j))) := by
  show max (Cert.Loss.oneW - Ideal.div (pairDiff T (ix2 r j) * pairDiff P (ix2 r j))
      (Cert.Loss.absE (pairDiff T (ix2 r j)) + Cert.Loss.epsW)) Cert.Loss.zeroW = _
  rw [pairDiff_apply, pairDiff_apply]
  rfl

theorem errsigArr_apply (P T : FVec Ideal S1048576x10 .f32) (r : Fin 1048576) (j : Fin 45) :
    errsigArr P T (ix2 r j) = Cert.Loss.errsigA P T r j := by
  show errArr P T (ix2 r j) * sigArr T (ix2 r j) = _
  rw [errArr_apply, sigArr_apply]
  rfl

end Cert.ReferenceIdeal.RefArr

end
-- ==== Proof.RefTotals.lean ====
/-
  The reference's five totals as plain finite sums: the host's sum of each stage array, from the zero word, is zero plus
  the sum of the per-entry terms — over every row and column for the three scalar totals, over the rows (per pair) for
  the two pair totals. These are the five arguments of the shared loss.
-/
import proofs.«164012_j67534065762422_2_alg».proof.Proof.RefArraysReadA
import proofs.«164012_j67534065762422_2_alg».proof.Proof.RefArraysReadB
import Idealize.ShloMosaic.PureOps.Ideal.Laws

noncomputable section

open scoped BigOperators

namespace Cert.ReferenceIdeal.RefArr

open Cert.ReferenceIdeal Cert.ReferenceIdeal.Facts₀ Idealize.ShloMosaic Idealize.ShloMosaic.ValueIdx

/-! ## The three scalar totals: sums over every entry -/

theorem baseTotal (P T : FVec Ideal S1048576x10 .f32) (W : FVec Ideal S10 .f32) :
    Host.reduceAdd (F := Ideal) (baseArr P T W) (constant (F := Ideal) S_ .f32 0x00000000#32)
        reducesTo_S1048576x10_S_d0_1 h_S_
      = fun _ => Cert.Loss.zeroW + ∑ r : Fin 1048576, ∑ k : Fin 10, Cert.Loss.baseA P T W r k := by
  funext j
  show Ideal.hostReduceAdd reducesTo_S1048576x10_S_d0_1 (baseArr P T W) Cert.Loss.zeroW j = _
  rw [Ideal.hostReduceAdd_total reducesTo_S1048576x10_S_d0_1 (fun b => b.elim0) (baseArr P T W) Cert.Loss.zeroW j, sum_idx2]
  exact congrArg _ (Finset.sum_congr rfl fun r _ => Finset.sum_congr rfl fun k _ => baseArr_apply P T W r k)

theorem dirTotal (P T : FVec Ideal S1048576x10 .f32) :
    Host.reduceAdd (F := Ideal) (dirArr P T) (constant (F := Ideal) S_ .f32 0x00000000#32)
        reducesTo_S1048576x9_S_d0_1 h_S_
      = fun _ => Cert.Loss.zeroW + ∑ r : Fin 1048576, ∑ k : Fin 9, Cert.Loss.dirA P T r k := by
  funext j
  show Ideal.hostReduceAdd reducesTo_S1048576x9_S_d0_1 (dirArr P T) Cert.Loss.zeroW j = _
  rw [Ideal.hostReduceAdd_total reducesTo_S1048576x9_S_d0_1 (fun b => b.elim0) (dirArr P T) Cert.Loss.zeroW j, sum_idx2]
  exact congrArg _ (Finset.sum_congr rfl fun r _ => Finset.sum_congr rfl fun k _ => dirArr_apply P T r k)

theorem trendTotal (P T : FVec Ideal S1048576x10 .f32) :
    Host.reduceAdd (F := Ideal) (trendArr P T) (constant (F := Ideal) S_ .f32 0x00000000#32)
        reducesTo_S1048576x8_S_d0_1 h_S_
      = fun _ => Cert.Loss.zeroW + ∑ r : Fin 1048576, ∑ k : Fin 8, Cert.Loss.trendA P T r k := by
  funext j
  show Ideal.hostReduceAdd reducesTo_S1048576x8_S_d0_1 (trendArr P T) Cert.Loss.zeroW j = _
  rw [Ideal.hostReduceAdd_total reducesTo_S1048576x8_S_d0_1 (fun b => b.elim0) (trendArr P T) Cert.Loss.zeroW j, sum_idx2]
  exact congrArg _ (Finset.sum_congr rfl fun r _ => Finset.sum_congr rfl fun k _ => trendArr_apply P T r k)

/-! ## The two pair totals: per pair, sums over the rows -/

/-- The row axis removed from 1048576 × 45 leaves the 45 pairs. -/
theorem red45 : S1048576x45.Reduces [0] S45 := by decide

/-- Pair index j with the row r put back is the entry (r, j). -/
theorem lift45 (j : S45.Idx) (r : Fin 1048576) :
    red45.lift j r = (ix2 r (show Fin 45 from j 0) : S1048576x45.Idx) := by
  funext c
  refine Fin.ext ?_
  match c with
  | ⟨0, _⟩ => rfl
  | ⟨1, _⟩ => rfl

theorem errsigTotal (P T : FVec Ideal S1048576x10 .f32) :
    Host.reduceAdd (F := Ideal) (errsigArr P T) (constant (F := Ideal) S_ .f32 0x00000000#32)
        reducesTo_S1048576x45_S45_d0 h_S_
      = fun j => Cert.Loss.zeroW + ∑ r : Fin 1048576, Cert.Loss.errsigA P T r (j 0) := by
  funext j
  show Ideal.hostReduceAdd reducesTo_S1048576x45_S45_d0 (errsigArr P T) Cert.Loss.zeroW j = _
  rw [Ideal.hostReduceAdd_single reducesTo_S1048576x45_S45_d0 red45 (errsigArr P T) Cert.Loss.zeroW j]
  show Cert.Loss.zeroW + ∑ r : Fin 1048576, errsigArr P T (red45.lift j r) = _
  refine congrArg _ (Finset.sum_congr rfl fun r _ => ?_)
  rw [lift45]
  exact errsigArr_apply P T r (j 0)

theorem sigTotal (T : FVec Ideal S1048576x10 .f32) :
    Host.reduceAdd (F := Ideal) (sigArr T) (constant (F := Ideal) S_ .f32 0x00000000#32)
        reducesTo_S1048576x45_S45_d0 h_S_
      = fun j => Cert.Loss.zeroW + ∑ r : Fin 1048576, Cert.Loss.sigA T r (j 0) := by
  funext j
  show Ideal.hostReduceAdd reducesTo_S1048576x45_S45_d0 (sigArr T) Cert.Loss.zeroW j = _
  rw [Ideal.hostReduceAdd_single reducesTo_S1048576x45_S45_d0 red45 (sigArr T) Cert.Loss.zeroW j]
  show Cert.Loss.zeroW + ∑ r : Fin 1048576, sigArr T (red45.lift j r) = _
  refine congrArg _ (Finset.sum_congr rfl fun r _ => ?_)
  rw [lift45]
  exact sigArr_apply T r (j 0)

end Cert.ReferenceIdeal.RefArr

end
-- ==== Proof.RefValue.lean ====
/-
  The reference's result is the loss of its three argument arrays: its run ends with the closing lines applied to the
  five totals of its stage arrays, and each total is `0 +` the sum over all rows of the corresponding term.
-/
import proofs.«164012_j67534065762422_2_alg».proof.Proof.RefStages
import proofs.«164012_j67534065762422_2_alg».proof.Proof.RefTotals
import proofs.«164012_j67534065762422_2_alg».proof.Proof.LossTerms

noncomputable section

open Idealize.ShloMosaic Idealize.ShloMosaic.TcCoe Idealize.SL.Sem

namespace Cert.ReferenceIdeal.RefValue

open Cert.ReferenceIdeal Cert.ReferenceIdeal.Facts₀

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97)
        = Cert.Loss.loss (n := 1048576) bcast_S_S45 reducesTo_S45_S_d0 h_S_
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      rw [RefArr.baseTotal, RefArr.dirTotal, RefArr.trendTotal, RefArr.errsigTotal, RefArr.sigTotal]
      rfl), (h c).2⟩)
    (Cert.ReferenceIdeal.RefRun.run m ρ)

end Cert.ReferenceIdeal.RefValue

end
-- ==== Proof.lean ====
/-
  The certificate's proof. The three frames: the kernel's two are the generated frame certificates; the reference's is its run
  with the result dropped. The idealization rewrote two sign-bit windows: each conjunct is that rule's statement at the
  site's shape. The value claim: at the ideal instance the kernel's result buffer and the reference's both end at
  `Cert.Loss.loss` of the three argument arrays — the kernel's because each of its five output blocks accumulates, block of
  rows by block of rows, the column totals of its term (Proof/KChain.lean over Proof/KBody*.lean), the reference's because its
  five stage arrays' totals are the same sums taken at once (Proof/RefValue.lean) — and the arguments agree.
-/
import proofs.«164012_j67534065762422_2_alg».proof.Defs
import proofs.«164012_j67534065762422_2_alg».proof.Proof.Gen.Kernel
import proofs.«164012_j67534065762422_2_alg».proof.Proof.Gen.Kernel.Frame
import proofs.«164012_j67534065762422_2_alg».proof.Proof.Gen.KernelIdeal
import proofs.«164012_j67534065762422_2_alg».proof.Proof.Gen.KernelIdeal.Frame
import proofs.«164012_j67534065762422_2_alg».proof.Proof.Gen.ReferenceIdeal
import proofs.«164012_j67534065762422_2_alg».proof.Proof.Gen.Pre_finite_inputs
import proofs.«164012_j67534065762422_2_alg».proof.Proof.KChain
import proofs.«164012_j67534065762422_2_alg».proof.Proof.KBodyBase
import proofs.«164012_j67534065762422_2_alg».proof.Proof.KBodyDir
import proofs.«164012_j67534065762422_2_alg».proof.Proof.KBodyTrend
import proofs.«164012_j67534065762422_2_alg».proof.Proof.KBodyPairs
import proofs.«164012_j67534065762422_2_alg».proof.Proof.RefValue
import Idealize.ShloMosaic.Adequacy
import Idealize.ShloMosaic.Init

noncomputable section

namespace Cert.Proof

open Idealize.ShloMosaic Idealize.SL.Sem

/-- What one grid point leaves in the kernel's five output blocks. -/
theorem bodyVals : Cert.KernelIdeal.Value.BodyVals :=
  ⟨Cert.KernelIdeal.Body.outA3, Cert.KernelIdeal.Body.outB3, Cert.KernelIdeal.Body.outA4, Cert.KernelIdeal.Body.outB4,
    Cert.KernelIdeal.Body.outA5, Cert.KernelIdeal.Body.outB5, Cert.KernelIdeal.Body.outA6, Cert.KernelIdeal.Body.outB6,
    Cert.KernelIdeal.Body.outA7, Cert.KernelIdeal.Body.outB7⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The two sign-bit windows the idealization rewrote (the two `jnp.sign`s of the direction term). -/
theorem preserves : Cert.preserves_Kernel_KernelIdeal :=
  ⟨IdealRules.sign_bit.statement Cert.KernelIdeal.S2048x9 .f32, IdealRules.sign_bit.statement Cert.KernelIdeal.S2048x9 .f32⟩

/-- Both runs end at the loss of arguments that agree. -/
theorem algebraic : Cert.algebraic_KernelIdeal_ReferenceIdeal := by
  intro m ρ m' ρ' _ hagree
  refine ⟨fun c => Cert.Loss.loss (n := 1048576) Cert.KernelIdeal.Facts₀.bcast_S_S45 Cert.KernelIdeal.Facts₀.reducesTo_S45_S_d0 Cert.KernelIdeal.Facts₀.h_S_
      (Cert.KernelIdeal.Value.argP m c) (Cert.KernelIdeal.Value.argT m c) (Cert.KernelIdeal.Value.argW m c),
    Cert.KernelIdeal.Value.run m ρ bodyVals, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
